-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S50000x200 : Shape := ⟨2, ![50000, 200]⟩
abbrev S500x200 : Shape := ⟨2, ![500, 200]⟩
abbrev S2x800000 : Shape := ⟨2, ![2, 800000]⟩
abbrev S800000 : Shape := ⟨1, ![800000]⟩
abbrev S600x200 : Shape := ⟨2, ![600, 200]⟩
abbrev S200 : Shape := ⟨1, ![200]⟩
abbrev S1x2x100 : Shape := ⟨3, ![1, 2, 100]⟩
abbrev S200x100 : Shape := ⟨2, ![200, 100]⟩
abbrev S100 : Shape := ⟨1, ![100]⟩
abbrev S100x100 : Shape := ⟨2, ![100, 100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S50000x200 : S_.BroadcastsInDim S50000x200 (![] : Fin 0 → Fin S50000x200.rank)
  reducesTo_S50000x200_S_d0_1 : S50000x200.ReducesTo [0, 1] S_
  bcast_S_S500x200 : S_.BroadcastsInDim S500x200 (![] : Fin 0 → Fin S500x200.rank)
  reducesTo_S500x200_S_d0_1 : S500x200.ReducesTo [0, 1] S_
  bcast_S_S600x200 : S_.BroadcastsInDim S600x200 (![] : Fin 0 → Fin S600x200.rank)
  reducesTo_S600x200_S_d0_1 : S600x200.ReducesTo [0, 1] S_
  bcast_S_S200 : S_.BroadcastsInDim S200 (![] : Fin 0 → Fin S200.rank)
  reducesTo_S200_S_d0 : S200.ReducesTo [0] S_
  bcast_S_S1x2x100 : S_.BroadcastsInDim S1x2x100 (![] : Fin 0 → Fin S1x2x100.rank)
  reducesTo_S1x2x100_S_d0_1_2 : S1x2x100.ReducesTo [0, 1, 2] S_
  bcast_S_S200x100 : S_.BroadcastsInDim S200x100 (![] : Fin 0 → Fin S200x100.rank)
  reducesTo_S200x100_S_d0_1 : S200x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_

variable [Facts]

def fn_part2 {F : FTy → Type} [FloatOps F] (main_arg9 : FVec F S100 .f32) (main_arg10 : FVec F S100x100 .f32) (main_arg11 : FVec F S100 .f32) (main_v33 : IVec S_ 1) : IVec S_ 1 :=
  let main_v34 : FVec F S100 .f32 := Host.absf main_arg9
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg10
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  main_v48

def fn_part1 {F : FTy → Type} [FloatOps F] (main_arg6 : FVec F S200 .f32) (main_arg7 : FVec F S1x2x100 .f32) (main_arg8 : FVec F S200x100 .f32) (main_arg9 : FVec F S100 .f32) (main_arg10 : FVec F S100x100 .f32) (main_arg11 : FVec F S100 .f32) (main_v13 : IVec S_ 1) (main_v16 : IVec S600x200 1) : IVec S_ 1 :=
  let main_c_5 : IVec S_ 1 := constantI S_ 1 1#1
  let main_v17 : IVec S_ 1 := (fun x v => Host.reduce IntOp.andi x v reducesTo_S600x200_S_d0_1 h_S_) main_v16 main_c_5
  let main_v18 : IVec S_ 1 := andi main_v13 main_v17
  let main_v19 : FVec F S200 .f32 := Host.absf main_arg6
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S1x2x100 .f32 := Host.absf main_arg7
  let main_cst_8 : FVec F S_ .f32 := constant S_ .f32 0x7F800000#32
  let main_v25 : FVec F S1x2x100 .f32 := broadcastInDim S1x2x100 ![] bcast_S_S1x2x100 main_cst_8
  let main_v26 : IVec S1x2x100 1 := cmpf .olt main_v24 main_v25
  let main_c_9 : IVec S_ 1 := constantI S_ 1 1#1
  let main_v27 : IVec S_ 1 := (fun x v => Host.reduce IntOp.andi x v reducesTo_S1x2x100_S_d0_1_2 h_S_) main_v26 main_c_9
  let main_v28 : IVec S_ 1 := andi main_v23 main_v27
  let main_v29 : FVec F S200x100 .f32 := Host.absf main_arg8
  let main_cst_10 : FVec F S_ .f32 := constant S_ .f32 0x7F800000#32
  let main_v30 : FVec F S200x100 .f32 := broadcastInDim S200x100 ![] bcast_S_S200x100 main_cst_10
  let main_v31 : IVec S200x100 1 := cmpf .olt main_v29 main_v30
  let main_c_11 : IVec S_ 1 := constantI S_ 1 1#1
  let main_v32 : IVec S_ 1 := (fun x v => Host.reduce IntOp.andi x v reducesTo_S200x100_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x100 .f32) (main_arg1 : FVec F S50000x200 .f32) (main_arg2 : FVec F S500x200 .f32) (main_arg3 : IVec S2x800000 32) (main_arg4 : IVec S800000 32) (main_arg5 : FVec F S600x200 .f32) (main_arg6 : FVec F S200 .f32) (main_arg7 : FVec F S1x2x100 .f32) (main_arg8 : FVec F S200x100 .f32) (main_arg9 : FVec F S100 .f32) (main_arg10 : FVec F S100x100 .f32) (main_arg11 : FVec F S100 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S50000x200 .f32 := Host.absf main_arg1
  let main_cst_0 : FVec F S_ .f32 := constant S_ .f32 0x7F800000#32
  let main_v5 : FVec F S50000x200 .f32 := broadcastInDim S50000x200 ![] bcast_S_S50000x200 main_cst_0
  let main_v6 : IVec S50000x200 1 := cmpf .olt main_v4 main_v5
  let main_c_1 : IVec S_ 1 := constantI S_ 1 1#1
  let main_v7 : IVec S_ 1 := (fun x v => Host.reduce IntOp.andi x v reducesTo_S50000x200_S_d0_1 h_S_) main_v6 main_c_1
  let main_v8 : IVec S_ 1 := andi main_v3 main_v7
  let main_v9 : FVec F S500x200 .f32 := Host.absf main_arg2
  let main_cst_2 : FVec F S_ .f32 := constant S_ .f32 0x7F800000#32
  let main_v10 : FVec F S500x200 .f32 := broadcastInDim S500x200 ![] bcast_S_S500x200 main_cst_2
  let main_v11 : IVec S500x200 1 := cmpf .olt main_v9 main_v10
  let main_c_3 : IVec S_ 1 := constantI S_ 1 1#1
  let main_v12 : IVec S_ 1 := (fun x v => Host.reduce IntOp.andi x v reducesTo_S500x200_S_d0_1 h_S_) main_v11 main_c_3
  let main_v13 : IVec S_ 1 := andi main_v8 main_v12
  let main_v14 : FVec F S600x200 .f32 := Host.absf main_arg5
  let main_cst_4 : FVec F S_ .f32 := constant S_ .f32 0x7F800000#32
  let main_v15 : FVec F S600x200 .f32 := broadcastInDim S600x200 ![] bcast_S_S600x200 main_cst_4
  let main_v16 : IVec S600x200 1 := cmpf .olt main_v14 main_v15
  fn_part1 (F := F) main_arg6 main_arg7 main_arg8 main_arg9 main_arg10 main_arg11 main_v13 main_v16
-- ==== Kernel.lean ====
abbrev S50000x100 : Shape := ⟨2, ![50000, 100]⟩
abbrev S50000x200 : Shape := ⟨2, ![50000, 200]⟩
abbrev S500x200 : Shape := ⟨2, ![500, 200]⟩
abbrev S2x800000 : Shape := ⟨2, ![2, 800000]⟩
abbrev S800000 : Shape := ⟨1, ![800000]⟩
abbrev S600x200 : Shape := ⟨2, ![600, 200]⟩
abbrev S200 : Shape := ⟨1, ![200]⟩
abbrev S1x2x100 : Shape := ⟨3, ![1, 2, 100]⟩
abbrev S200x100 : Shape := ⟨2, ![200, 100]⟩
abbrev S100 : Shape := ⟨1, ![100]⟩
abbrev S100x100 : Shape := ⟨2, ![100, 100]⟩
abbrev S1x800000 : Shape := ⟨2, ![1, 800000]⟩
abbrev S200x200 : Shape := ⟨2, ![200, 200]⟩
abbrev S200x400 : Shape := ⟨2, ![200, 400]⟩
abbrev S_ : Shape := ⟨0, ![]⟩
abbrev S400 : Shape := ⟨1, ![400]⟩
abbrev S1x400 : Shape := ⟨2, ![1, 400]⟩
abbrev S50000x400 : Shape := ⟨2, ![50000, 400]⟩
abbrev S5000x200 : Shape := ⟨2, ![5000, 200]⟩
abbrev S5000x400 : Shape := ⟨2, ![5000, 400]⟩
abbrev S1x100 : Shape := ⟨2, ![1, 100]⟩
abbrev S5000x100 : Shape := ⟨2, ![5000, 100]⟩
abbrev S1x200 : Shape := ⟨2, ![1, 200]⟩
abbrev S500x100 : Shape := ⟨2, ![500, 100]⟩
abbrev S800000x1 : Shape := ⟨2, ![800000, 1]⟩
abbrev S800000x200 : Shape := ⟨2, ![800000, 200]⟩
abbrev S800000x2 : Shape := ⟨2, ![800000, 2]⟩
abbrev S5000x2 : Shape := ⟨2, ![5000, 2]⟩
abbrev S5000 : Shape := ⟨1, ![5000]⟩
abbrev S5000x1 : Shape := ⟨2, ![5000, 1]⟩
abbrev S50000x2 : Shape := ⟨2, ![50000, 2]⟩

abbrev nBuf : Space → Nat
  | .hbm => 87
  | .vmem => 35
  | .smem => 0
  | _ => 0

abbrev bufTy : (tb : Table) → Fin (tcTables nBuf tb) → BufTy
  | .hbm, ⟨0, _⟩ => ⟨S50000x100, .f32⟩
  | .hbm, ⟨1, _⟩ => ⟨S50000x200, .f32⟩
  | .hbm, ⟨2, _⟩ => ⟨S500x200, .f32⟩
  | .hbm, ⟨3, _⟩ => ⟨S2x800000, .i32⟩
  | .hbm, ⟨4, _⟩ => ⟨S800000, .i32⟩
  | .hbm, ⟨5, _⟩ => ⟨S600x200, .f32⟩
  | .hbm, ⟨6, _⟩ => ⟨S200, .f32⟩
  | .hbm, ⟨7, _⟩ => ⟨S1x2x100, .f32⟩
  | .hbm, ⟨8, _⟩ => ⟨S200x100, .f32⟩
  | .hbm, ⟨9, _⟩ => ⟨S100, .f32⟩
  | .hbm, ⟨10, _⟩ => ⟨S100x100, .f32⟩
  | .hbm, ⟨11, _⟩ => ⟨S100, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S200x200, .f32⟩
  | .hbm, ⟨17, _⟩ => ⟨S200x200, .f32⟩
  | .hbm, ⟨18, _⟩ => ⟨S200x400, .f32⟩
  | .hbm, ⟨19, _⟩ => ⟨S_, .f32⟩
  | .hbm, ⟨20, _⟩ => ⟨S400, .f32⟩
  | .hbm, ⟨21, _⟩ => ⟨S1x400, .f32⟩
  | .hbm, ⟨22, _⟩ => ⟨S50000x400, .f32⟩
  | .hbm, ⟨23, _⟩ => ⟨S50000x200, .f32⟩
  | .hbm, ⟨24, _⟩ => ⟨S50000x200, .f32⟩
  | .hbm, ⟨25, _⟩ => ⟨S1x100, .f32⟩
  | .hbm, ⟨26, _⟩ => ⟨S50000x100, .f32⟩
  | .hbm, ⟨27, _⟩ => ⟨S200x200, .f32⟩
  | .hbm, ⟨28, _⟩ => ⟨S500x200, .f32⟩
  | .hbm, ⟨29, _⟩ => ⟨S1x200, .f32⟩
  | .hbm, ⟨30, _⟩ => ⟨S500x200, .f32⟩
  | .hbm, ⟨31, _⟩ => ⟨S500x200, .f32⟩
  | .hbm, ⟨32, _⟩ => ⟨S500x100, .f32⟩
  | .hbm, ⟨33, _⟩ => ⟨S1x100, .f32⟩
  | .hbm, ⟨34, _⟩ => ⟨S500x100, .f32⟩
  | .hbm, ⟨35, _⟩ => ⟨S500x100, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x200, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x200, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x200, .f32⟩
  | .hbm, ⟨63, _⟩ => ⟨S1x200, .f32⟩
  | .hbm, ⟨64, _⟩ => ⟨S800000x200, .f32⟩
  | .hbm, ⟨65, _⟩ => ⟨S800000x2, .f32⟩
  | .hbm, ⟨66, _⟩ => ⟨S_, .f32⟩
  | .hbm, ⟨67, _⟩ => ⟨S50000x2, .f32⟩
  | .hbm, ⟨68, _⟩ => ⟨S800000x1, .i32⟩
  | .hbm, ⟨69, _⟩ => ⟨S50000x2, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x2, .f32⟩
  | .hbm, ⟨79, _⟩ => ⟨S800000x2, .f32⟩
  | .hbm, ⟨80, _⟩ => ⟨S800000x200, .f32⟩
  | .hbm, ⟨81, _⟩ => ⟨S_, .f32⟩
  | .hbm, ⟨82, _⟩ => ⟨S50000x200, .f32⟩
  | .hbm, ⟨83, _⟩ => ⟨S800000x1, .i32⟩
  | .hbm, ⟨84, _⟩ => ⟨S50000x200, .f32⟩
  | .hbm, ⟨85, _⟩ => ⟨S50000x200, .f32⟩
  | .hbm, ⟨86, _⟩ => ⟨S50000x200, .f32⟩
  | .local _ .vmem, ⟨0, _⟩ => ⟨S5000x200, .f32⟩
  | .local _ .vmem, ⟨1, _⟩ => ⟨S5000x200, .f32⟩
  | .local _ .vmem, ⟨2, _⟩ => ⟨S200x400, .f32⟩
  | .local _ .vmem, ⟨3, _⟩ => ⟨S1x400, .f32⟩
  | .local _ .vmem, ⟨4, _⟩ => ⟨S5000x400, .f32⟩
  | .local _ .vmem, ⟨5, _⟩ => ⟨S5000x400, .f32⟩
  | .local _ .vmem, ⟨6, _⟩ => ⟨S5000x100, .f32⟩
  | .local _ .vmem, ⟨7, _⟩ => ⟨S5000x100, .f32⟩
  | .local _ .vmem, ⟨8, _⟩ => ⟨S100x100, .f32⟩
  | .local _ .vmem, ⟨9, _⟩ => ⟨S1x100, .f32⟩
  | .local _ .vmem, ⟨10, _⟩ => ⟨S5000x100, .f32⟩
  | .local _ .vmem, ⟨11, _⟩ => ⟨S5000x100, .f32⟩
  | .local _ .vmem, ⟨12, _⟩ => ⟨S5000x200, .f32⟩
  | .local _ .vmem, ⟨13, _⟩ => ⟨S5000x200, .f32⟩
  | .local _ .vmem, ⟨14, _⟩ => ⟨S5000x200, .f32⟩
  | .local _ .vmem, ⟨15, _⟩ => ⟨S5000x200, .f32⟩
  | .local _ .vmem, ⟨16, _⟩ => ⟨S5000x200, .f32⟩
  | .local _ .vmem, ⟨17, _⟩ => ⟨S5000x200, .f32⟩
  | .local _ .vmem, ⟨18, _⟩ => ⟨S1x200, .f32⟩
  | .local _ .vmem, ⟨19, _⟩ => ⟨S5000x200, .f32⟩
  | .local _ .vmem, ⟨20, _⟩ => ⟨S5000x200, .f32⟩
  | .local _ .vmem, ⟨21, _⟩ => ⟨S5000x2, .f32⟩
  | .local _ .vmem, ⟨22, _⟩ => ⟨S5000x2, .f32⟩
  | .local _ .vmem, ⟨23, _⟩ => ⟨S5000x200, .f32⟩
  | .local _ .vmem, ⟨24, _⟩ => ⟨S5000x200, .f32⟩
  | .local _ .vmem, ⟨25, _⟩ => ⟨S5000x2, .f32⟩
  | .local _ .vmem, ⟨26, _⟩ => ⟨S5000x2, .f32⟩
  | .local _ .vmem, ⟨27, _⟩ => ⟨S5000x200, .f32⟩
  | .local _ .vmem, ⟨28, _⟩ => ⟨S5000x200, .f32⟩
  | .local _ .vmem, ⟨29, _⟩ => ⟨S5000x200, .f32⟩
  | .local _ .vmem, ⟨30, _⟩ => ⟨S5000x200, .f32⟩
  | .local _ .vmem, ⟨31, _⟩ => ⟨S5000x200, .f32⟩
  | .local _ .vmem, ⟨32, _⟩ => ⟨S5000x200, .f32⟩
  | .local _ .vmem, ⟨33, _⟩ => ⟨S5000x200, .f32⟩
  | .local _ .vmem, ⟨34, _⟩ => ⟨S5000x200, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_1 : Ref sig .tc := ⟨.hbm, 45, rfl⟩
abbrev main_v30 : Ref sig .tc := ⟨.hbm, 46, rfl⟩
abbrev main_v31 : Ref sig .tc := ⟨.hbm, 47, rfl⟩
abbrev main_c_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x200 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x200 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x200 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x200 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x200 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S600x200_S200x200_0_0 : S600x200.Slices ![0, 0] S200x200
  slices_S600x200_S200x200_200_0 : S600x200.Slices ![200, 0] S200x200
  concatenates_S200x200_S200x200_S200x400_d1 : Shape.Concatenates [S200x200, S200x200] S200x400 1
  bcast_S_S400 : S_.BroadcastsInDim S400 (![] : Fin 0 → Fin S400.rank)
  shapeCasts_S400_S1x400 : S400.ShapeCasts S1x400
  inb_S5000x200_S5000x200_0_0 : ∀ a, (![0, 0] : Fin 2 → Nat) a + S5000x200.size a ≤ S5000x200.size a
  h_S5000x200 : 0 < S5000x200.numel
  bitsLt_bf16_f32 : FTy.bits .bf16 < FTy.bits .f32
  inb_S200x400_S200x400_0_0 : ∀ a, (![0, 0] : Fin 2 → Nat) a + S200x400.size a ≤ S200x400.size a
  h_S200x400 : 0 < S200x400.numel
  shapeCasts_S200x400_S200x400 : S200x400.ShapeCasts S200x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S5000x400 : S1x400.Broadcasts S5000x400
  inb_S5000x400_S5000x400_0_0 : ∀ a, (![0, 0] : Fin 2 → Nat) a + S5000x400.size a ≤ S5000x400.size a
  h_S5000x400 : 0 < S5000x400.numel
  slices_S50000x400_S50000x200_0_0 : S50000x400.Slices ![0, 0] S50000x200
  slices_S50000x400_S50000x200_0_200 : S50000x400.Slices ![0, 200] S50000x200
  shapeCasts_S100_S1x100 : S100.ShapeCasts S1x100
  inb_S5000x100_S5000x100_0_0 : ∀ a, (![0, 0] : Fin 2 → Nat) a + S5000x100.size a ≤ S5000x100.size a
  h_S5000x100 : 0 < S5000x100.numel
  inb_S100x100_S100x100_0_0 : ∀ a, (![0, 0] : Fin 2 → Nat) a + S100x100.size a ≤ S100x100.size a
  h_S100x100 : 0 < S100x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S5000x100 : S1x100.Broadcasts S5000x100
  slices_S600x200_S200x200_400_0 : S600x200.Slices ![400, 0] S200x200
  bcast_S200_S1x200_1 : S200.BroadcastsInDim S1x200 (![1] : Fin 1 → Fin S1x200.rank)
  bcast_S1x200_S500x200_0_1 : S1x200.BroadcastsInDim S500x200 (![0, 1] : Fin 2 → Fin S500x200.rank)
  bcast_S100_S1x100_1 : S100.BroadcastsInDim S1x100 (![1] : Fin 1 → Fin S1x100.rank)
  bcast_S1x100_S500x100_0_1 : S1x100.BroadcastsInDim S500x100 (![0, 1] : Fin 2 → Fin S500x100.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S1x2x100_S1x200 : S1x2x100.ShapeCasts S1x200
  shapeCasts_S5000x200_S5000x200 : S5000x200.ShapeCasts S5000x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  slices_S5000x200_o0_0_S5000x100 : S5000x200.Slices ![0, 0] S5000x100
  reduces_S5000x100_S5000 : S5000x100.Reduces [1] S5000
  shapeCasts_S5000_S5000x1 : S5000.ShapeCasts S5000x1
  slices_S5000x200_o0_100_S5000x100 : S5000x200.Slices ![0, 100] S5000x100
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  bcast_S_S50000x2 : S_.BroadcastsInDim S50000x2 (![] : Fin 0 → Fin S50000x2.rank)
  shapeCasts_S5000x2_S5000x2 : S5000x2.ShapeCasts S5000x2
  slices_S5000x2_o0_0_S5000x1 : S5000x2.Slices ![0, 0] S5000x1
  broadcasts_S5000x1_S5000x100 : S5000x1.Broadcasts S5000x100
  slices_S5000x2_o0_1_S5000x1 : S5000x2.Slices ![0, 1] S5000x1
  concatenates_S5000x100_S5000x100_S5000x200_d1 : Shape.Concatenates [S5000x100, S5000x100] S5000x200 1
  bcast_S_S50000x200 : S_.BroadcastsInDim S50000x200 (![] : Fin 0 → Fin S50000x200.rank)
  concatenates_S50000x100_S50000x100_S50000x200_d1 : Shape.Concatenates [S50000x100, S50000x100] S50000x200 1
  dot_S5000x200_S200x400_S5000x400_1_0_0_1_n_n_wf : DotDims.WF S5000x200 S200x400 S5000x400 [1] [0] [0] [1] [] []
  dot_S5000x100_S100x100_S5000x100_1_0_0_1_n_n_wf : DotDims.WF S5000x100 S100x100 S5000x100 [1] [0] [0] [1] [] []
  dot_S500x200_S200x200_S500x200_1_0_0_1_n_n_wf : DotDims.WF S500x200 S200x200 S500x200 [1] [0] [0] [1] [] []
  dot_S500x200_S200x100_S500x100_1_0_0_1_n_n_wf : DotDims.WF S500x200 S200x100 S500x100 [1] [0] [0] [1] [] []
  gather_S50000x200_S800000x1_S800000x200_1_0_n_n_0_1_1200_wf : GatherDims.WF S50000x200 S800000x1 S800000x200 [1] [0] [] [0] [] 1 ![1, 200]
  gather_S500x200_S800000x1_S800000x200_1_0_n_n_0_1_1200_wf : GatherDims.WF S500x200 S800000x1 S800000x200 [1] [0] [] [0] [] 1 ![1, 200]
  scatter_S50000x2_S800000x1_S800000x2_1_0_0_1_wf : ScatterDims.WF S50000x2 S800000x1 S800000x2 [1] [0] [0] 1
  gather_S50000x2_S800000x1_S800000x2_1_0_n_n_0_1_12_wf : GatherDims.WF S50000x2 S800000x1 S800000x2 [1] [0] [] [0] [] 1 ![1, 2]
  scatter_S50000x200_S800000x1_S800000x200_1_0_0_1_wf : ScatterDims.WF S50000x200 S800000x1 S800000x200 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S50000x200.size a
  hwx0_0 : ∀ i : grid0.Coords, EltTy.bits .f32 = 32 ∨ (Rect.block (s := S50000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x400.size a ≤ S200x400.size a
  hwx0_1 : ∀ i : grid0.Coords, EltTy.bits .f32 = 32 ∨ (Rect.block (s := S200x400) S200x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x400.size a ≤ S1x400.size a
  hwx0_2 : ∀ i : grid0.Coords, EltTy.bits .f32 = 32 ∨ (Rect.block (s := S1x400) S1x400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x400.size a ≤ S50000x400.size a
  hwx0_3 : ∀ i : grid0.Coords, EltTy.bits .f32 = 32 ∨ (Rect.block (s := S50000x400) S5000x400.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x100.size a ≤ S100x100.size a
  hwx1_1 : ∀ i : grid1.Coords, EltTy.bits .f32 = 32 ∨ (Rect.block (s := S100x100) S100x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100.size a ≤ S1x100.size a
  hwx1_2 : ∀ i : grid1.Coords, EltTy.bits .f32 = 32 ∨ (Rect.block (s := S1x100) S1x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x100.size a ≤ S50000x100.size a
  hwx1_3 : ∀ i : grid1.Coords, EltTy.bits .f32 = 32 ∨ (Rect.block (s := S50000x100) S5000x100.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x200.size a ≤ S800000x200.size a
  hwx2_0 : ∀ i : grid2.Coords, EltTy.bits .f32 = 32 ∨ (Rect.block (s := S800000x200) S5000x200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x200.size a ≤ S800000x200.size a
  hwx2_1 : ∀ i : grid2.Coords, EltTy.bits .f32 = 32 ∨ (Rect.block (s := S800000x200) S5000x200.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x200.size a ≤ S800000x200.size a
  hwx2_2 : ∀ i : grid2.Coords, EltTy.bits .f32 = 32 ∨ (Rect.block (s := S800000x200) S5000x200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x200.size a ≤ S1x200.size a
  hwx2_3 : ∀ i : grid2.Coords, EltTy.bits .f32 = 32 ∨ (Rect.block (s := S1x200) S1x200.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x200.size a ≤ S800000x200.size a
  hwx2_4 : ∀ i : grid2.Coords, EltTy.bits .f32 = 32 ∨ (Rect.block (s := S800000x200) S5000x200.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S800000x2.size a
  hwx2_5 : ∀ i : grid2.Coords, EltTy.bits .f32 = 32 ∨ (Rect.block (s := S800000x2) S5000x2.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x200.size a ≤ S800000x200.size a
  hwx3_0 : ∀ i : grid3.Coords, EltTy.bits .f32 = 32 ∨ (Rect.block (s := S800000x200) S5000x200.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S800000x2.size a
  hwx3_1 : ∀ i : grid3.Coords, EltTy.bits .f32 = 32 ∨ (Rect.block (s := S800000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x200.size a ≤ S800000x200.size a
  hwx3_2 : ∀ i : grid3.Coords, EltTy.bits .f32 = 32 ∨ (Rect.block (s := S800000x200) S5000x200.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x200.size a ≤ S50000x200.size a
  hwx4_0 : ∀ i : grid4.Coords, EltTy.bits .f32 = 32 ∨ (Rect.block (s := S50000x200) S5000x200.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x200.size a ≤ S50000x200.size a
  hwx4_1 : ∀ i : grid4.Coords, EltTy.bits .f32 = 32 ∨ (Rect.block (s := S50000x200) S5000x200.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x200.size a ≤ S50000x200.size a
  hwx4_2 : ∀ i : grid4.Coords, EltTy.bits .f32 = 32 ∨ (Rect.block (s := S50000x200) S5000x200.size (cc4_transform_2 i) (hinb4_2 i)).WholeWords (EltTy.packing .f32)

variable [Facts₀]

def dot_S5000x200_S200x400_S5000x400_1_0_0_1_n_n : DotDims S5000x200 S200x400 S5000x400 where
  lhsContracting := [1]
  rhsContracting := [0]
  lhsNonContracting := [0]
  rhsNonContracting := [1]
  lhsBatch := []
  rhsBatch := []
  wf := dot_S5000x200_S200x400_S5000x400_1_0_0_1_n_n_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def dot_S500x200_S200x200_S500x200_1_0_0_1_n_n : DotDims S500x200 S200x200 S500x200 where
  lhsContracting := [1]
  rhsContracting := [0]
  lhsNonContracting := [0]
  rhsNonContracting := [1]
  lhsBatch := []
  rhsBatch := []
  wf := dot_S500x200_S200x200_S500x200_1_0_0_1_n_n_wf
def dot_S500x200_S200x100_S500x100_1_0_0_1_n_n : DotDims S500x200 S200x100 S500x100 where
  lhsContracting := [1]
  rhsContracting := [0]
  lhsNonContracting := [0]
  rhsNonContracting := [1]
  lhsBatch := []
  rhsBatch := []
  wf := dot_S500x200_S200x100_S500x100_1_0_0_1_n_n_wf
def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def gather_S500x200_S800000x1_S800000x200_1_0_n_n_0_1_1200 : GatherDims S500x200 S800000x1 S800000x200 where
  offsetDims := [1]
  collapsedSliceDims := [0]
  operandBatchingDims := []
  startIndicesBatchingDims := []
  startIndexMap := [0]
  indexVectorDim := 1
  sliceSizes := ![1, 200]
  wf := gather_S500x200_S800000x1_S800000x200_1_0_n_n_0_1_1200_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x200_S800000x1_S800000x200_1_0_0_1 : ScatterDims S50000x200 S800000x1 S800000x200 where
  updateWindowDims := [1]
  insertedWindowDims := [0]
  scatterDimsToOperandDims := [0]
  indexVectorDim := 1
  wf := scatter_S50000x200_S800000x1_S800000x200_1_0_0_1_wf

abbrev win0_0 : Pipeline.Window sig grid0 :=
  Pipeline.Window.ofSpec (Memref.whole main_arg1) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S200x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S100x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x200.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45_0) S5000x200.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v45_1) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45_0) S5000x200.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x200.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x200.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S5000x200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x200.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x100 : Shape := ⟨2, ![50000, 100]⟩
abbrev S50000x200 : Shape := ⟨2, ![50000, 200]⟩
abbrev S500x200 : Shape := ⟨2, ![500, 200]⟩
abbrev S2x800000 : Shape := ⟨2, ![2, 800000]⟩
abbrev S800000 : Shape := ⟨1, ![800000]⟩
abbrev S600x200 : Shape := ⟨2, ![600, 200]⟩
abbrev S200 : Shape := ⟨1, ![200]⟩
abbrev S1x2x100 : Shape := ⟨3, ![1, 2, 100]⟩
abbrev S200x100 : Shape := ⟨2, ![200, 100]⟩
abbrev S100 : Shape := ⟨1, ![100]⟩
abbrev S100x100 : Shape := ⟨2, ![100, 100]⟩
abbrev S1x800000 : Shape := ⟨2, ![1, 800000]⟩
abbrev S200x200 : Shape := ⟨2, ![200, 200]⟩
abbrev S1x200 : Shape := ⟨2, ![1, 200]⟩
abbrev S_ : Shape := ⟨0, ![]⟩
abbrev S800000x1 : Shape := ⟨2, ![800000, 1]⟩
abbrev S800000x200 : Shape := ⟨2, ![800000, 200]⟩
abbrev S800000x2x100 : Shape := ⟨3, ![800000, 2, 100]⟩
abbrev S800000x2 : Shape := ⟨2, ![800000, 2]⟩
abbrev S800000x2x1 : Shape := ⟨3, ![800000, 2, 1]⟩
abbrev S50000x2x1 : Shape := ⟨3, ![50000, 2, 1]⟩
abbrev S50000x2x100 : Shape := ⟨3, ![50000, 2, 100]⟩
abbrev S1x100 : Shape := ⟨2, ![1, 100]⟩
abbrev S50000x1x100 : Shape := ⟨3, ![50000, 1, 100]⟩
abbrev S500x100 : Shape := ⟨2, ![500, 100]⟩

abbrev nBuf : Space → Nat
  | .hbm => 101
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S50000x200, .f32⟩
  | .hbm, ⟨2, _⟩ => ⟨S500x200, .f32⟩
  | .hbm, ⟨3, _⟩ => ⟨S2x800000, .i32⟩
  | .hbm, ⟨4, _⟩ => ⟨S800000, .i32⟩
  | .hbm, ⟨5, _⟩ => ⟨S600x200, .f32⟩
  | .hbm, ⟨6, _⟩ => ⟨S200, .f32⟩
  | .hbm, ⟨7, _⟩ => ⟨S1x2x100, .f32⟩
  | .hbm, ⟨8, _⟩ => ⟨S200x100, .f32⟩
  | .hbm, ⟨9, _⟩ => ⟨S100, .f32⟩
  | .hbm, ⟨10, _⟩ => ⟨S100x100, .f32⟩
  | .hbm, ⟨11, _⟩ => ⟨S100, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S200x200, .f32⟩
  | .hbm, ⟨17, _⟩ => ⟨S50000x200, .f32⟩
  | .hbm, ⟨18, _⟩ => ⟨S200x200, .f32⟩
  | .hbm, ⟨19, _⟩ => ⟨S50000x200, .f32⟩
  | .hbm, ⟨20, _⟩ => ⟨S200x200, .f32⟩
  | .hbm, ⟨21, _⟩ => ⟨S500x200, .f32⟩
  | .hbm, ⟨22, _⟩ => ⟨S1x200, .f32⟩
  | .hbm, ⟨23, _⟩ => ⟨S500x200, .f32⟩
  | .hbm, ⟨24, _⟩ => ⟨S500x200, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x200, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x200, .f32⟩
  | .hbm, ⟨43, _⟩ => ⟨S800000x200, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x200, .f32⟩
  | .hbm, ⟨53, _⟩ => ⟨S800000x200, .f32⟩
  | .hbm, ⟨54, _⟩ => ⟨S800000x2x100, .f32⟩
  | .hbm, ⟨55, _⟩ => ⟨S800000x2x100, .f32⟩
  | .hbm, ⟨56, _⟩ => ⟨S800000x2x100, .f32⟩
  | .hbm, ⟨57, _⟩ => ⟨S_, .f32⟩
  | .hbm, ⟨58, _⟩ => ⟨S800000x2, .f32⟩
  | .hbm, ⟨59, _⟩ => ⟨S800000x2x1, .f32⟩
  | .hbm, ⟨60, _⟩ => ⟨S_, .f32⟩
  | .hbm, ⟨61, _⟩ => ⟨S800000x2x1, .f32⟩
  | .hbm, ⟨62, _⟩ => ⟨S800000x2x1, .i1⟩
  | .hbm, ⟨63, _⟩ => ⟨S_, .f32⟩
  | .hbm, ⟨64, _⟩ => ⟨S800000x2x1, .f32⟩
  | .hbm, ⟨65, _⟩ => ⟨S800000x2x1, .f32⟩
  | .hbm, ⟨66, _⟩ => ⟨S800000x2x1, .f32⟩
  | .hbm, ⟨67, _⟩ => ⟨S800000x2x1, .f32⟩
  | .hbm, ⟨68, _⟩ => ⟨S_, .f32⟩
  | .hbm, ⟨69, _⟩ => ⟨S50000x2x1, .f32⟩
  | .hbm, ⟨70, _⟩ => ⟨S800000x1, .i32⟩
  | .hbm, ⟨71, _⟩ => ⟨S50000x2x1, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x2x1, .f32⟩
  | .hbm, ⟨81, _⟩ => ⟨S800000x2x1, .f32⟩
  | .hbm, ⟨82, _⟩ => ⟨S800000x2x100, .f32⟩
  | .hbm, ⟨83, _⟩ => ⟨S800000x2x100, .f32⟩
  | .hbm, ⟨84, _⟩ => ⟨S_, .f32⟩
  | .hbm, ⟨85, _⟩ => ⟨S50000x2x100, .f32⟩
  | .hbm, ⟨86, _⟩ => ⟨S800000x1, .i32⟩
  | .hbm, ⟨87, _⟩ => ⟨S50000x2x100, .f32⟩
  | .hbm, ⟨88, _⟩ => ⟨S50000x100, .f32⟩
  | .hbm, ⟨89, _⟩ => ⟨S1x100, .f32⟩
  | .hbm, ⟨90, _⟩ => ⟨S50000x100, .f32⟩
  | .hbm, ⟨91, _⟩ => ⟨S50000x100, .f32⟩
  | .hbm, ⟨92, _⟩ => ⟨S50000x1x100, .f32⟩
  | .hbm, ⟨93, _⟩ => ⟨S50000x2x100, .f32⟩
  | .hbm, ⟨94, _⟩ => ⟨S50000x2x100, .f32⟩
  | .hbm, ⟨95, _⟩ => ⟨S50000x200, .f32⟩
  | .hbm, ⟨96, _⟩ => ⟨S50000x200, .f32⟩
  | .hbm, ⟨97, _⟩ => ⟨S500x100, .f32⟩
  | .hbm, ⟨98, _⟩ => ⟨S1x100, .f32⟩
  | .hbm, ⟨99, _⟩ => ⟨S500x100, .f32⟩
  | .hbm, ⟨100, _⟩ => ⟨S500x100, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S600x200_S200x200_0_0 : S600x200.Slices ![0, 0] S200x200
  slices_S600x200_S200x200_200_0 : S600x200.Slices ![200, 0] S200x200
  slices_S600x200_S200x200_400_0 : S600x200.Slices ![400, 0] S200x200
  bcast_S200_S1x200_1 : S200.BroadcastsInDim S1x200 (![1] : Fin 1 → Fin S1x200.rank)
  bcast_S1x200_S500x200_0_1 : S1x200.BroadcastsInDim S500x200 (![0, 1] : Fin 2 → Fin S500x200.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x200_S800000x2x100 : S800000x200.ShapeCasts S800000x2x100
  bcast_S1x2x100_S800000x2x100_0_1_2 : S1x2x100.BroadcastsInDim S800000x2x100 (![0, 1, 2] : Fin 3 → Fin S800000x2x100.rank)
  reducesTo_S800000x2x100_S800000x2_d2 : S800000x2x100.ReducesTo [2] S800000x2
  h_S_ : 0 < S_.numel
  bcast_S800000x2_S800000x2x1_0_1 : S800000x2.BroadcastsInDim S800000x2x1 (![0, 1] : Fin 2 → Fin S800000x2x1.rank)
  bcast_S_S800000x2x1 : S_.BroadcastsInDim S800000x2x1 (![] : Fin 0 → Fin S800000x2x1.rank)
  bcast_S_S50000x2x1 : S_.BroadcastsInDim S50000x2x1 (![] : Fin 0 → Fin S50000x2x1.rank)
  bcast_S800000x2x1_S800000x2x100_0_1_2 : S800000x2x1.BroadcastsInDim S800000x2x100 (![0, 1, 2] : Fin 3 → Fin S800000x2x100.rank)
  bcast_S_S50000x2x100 : S_.BroadcastsInDim S50000x2x100 (![] : Fin 0 → Fin S50000x2x100.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S50000x100_S50000x1x100_0_2 : S50000x100.BroadcastsInDim S50000x1x100 (![0, 2] : Fin 2 → Fin S50000x1x100.rank)
  bcast_S50000x1x100_S50000x2x100_0_1_2 : S50000x1x100.BroadcastsInDim S50000x2x100 (![0, 1, 2] : Fin 3 → Fin S50000x2x100.rank)
  shapeCasts_S50000x2x100_S50000x200 : S50000x2x100.ShapeCasts S50000x200
  bcast_S1x100_S500x100_0_1 : S1x100.BroadcastsInDim S500x100 (![0, 1] : Fin 2 → Fin S500x100.rank)
  dot_S50000x200_S200x200_S50000x200_1_0_0_1_n_n_wf : DotDims.WF S50000x200 S200x200 S50000x200 [1] [0] [0] [1] [] []
  dot_S500x200_S200x200_S500x200_1_0_0_1_n_n_wf : DotDims.WF S500x200 S200x200 S500x200 [1] [0] [0] [1] [] []
  gather_S50000x200_S800000x1_S800000x200_1_0_n_n_0_1_1200_wf : GatherDims.WF S50000x200 S800000x1 S800000x200 [1] [0] [] [0] [] 1 ![1, 200]
  gather_S500x200_S800000x1_S800000x200_1_0_n_n_0_1_1200_wf : GatherDims.WF S500x200 S800000x1 S800000x200 [1] [0] [] [0] [] 1 ![1, 200]
  scatter_S50000x2x1_S800000x1_S800000x2x1_12_0_0_1_wf : ScatterDims.WF S50000x2x1 S800000x1 S800000x2x1 [1, 2] [0] [0] 1
  gather_S50000x2x1_S800000x1_S800000x2x1_12_0_n_n_0_1_121_wf : GatherDims.WF S50000x2x1 S800000x1 S800000x2x1 [1, 2] [0] [] [0] [] 1 ![1, 2, 1]
  scatter_S50000x2x100_S800000x1_S800000x2x100_12_0_0_1_wf : ScatterDims.WF S50000x2x100 S800000x1 S800000x2x100 [1, 2] [0] [0] 1
  dot_S50000x100_S100x100_S50000x100_1_0_0_1_n_n_wf : DotDims.WF S50000x100 S100x100 S50000x100 [1] [0] [0] [1] [] []
  dot_S500x200_S200x100_S500x100_1_0_0_1_n_n_wf : DotDims.WF S500x200 S200x100 S500x100 [1] [0] [0] [1] [] []

variable [Facts₀]

def dot_S50000x200_S200x200_S50000x200_1_0_0_1_n_n : DotDims S50000x200 S200x200 S50000x200 where
  lhsContracting := [1]
  rhsContracting := [0]
  lhsNonContracting := [0]
  rhsNonContracting := [1]
  lhsBatch := []
  rhsBatch := []
  wf := dot_S50000x200_S200x200_S50000x200_1_0_0_1_n_n_wf
def dot_S500x200_S200x200_S500x200_1_0_0_1_n_n : DotDims S500x200 S200x200 S500x200 where
  lhsContracting := [1]
  rhsContracting := [0]
  lhsNonContracting := [0]
  rhsNonContracting := [1]
  lhsBatch := []
  rhsBatch := []
  wf := dot_S500x200_S200x200_S500x200_1_0_0_1_n_n_wf
def gather_S50000x200_S800000x1_S800000x200_1_0_n_n_0_1_1200 : GatherDims S50000x200 S800000x1 S800000x200 where
  offsetDims := [1]
  collapsedSliceDims := [0]
  operandBatchingDims := []
  startIndicesBatchingDims := []
  startIndexMap := [0]
  indexVectorDim := 1
  sliceSizes := ![1, 200]
  wf := gather_S50000x200_S800000x1_S800000x200_1_0_n_n_0_1_1200_wf
def gather_S500x200_S800000x1_S800000x200_1_0_n_n_0_1_1200 : GatherDims S500x200 S800000x1 S800000x200 where
  offsetDims := [1]
  collapsedSliceDims := [0]
  operandBatchingDims := []
  startIndicesBatchingDims := []
  startIndexMap := [0]
  indexVectorDim := 1
  sliceSizes := ![1, 200]
  wf := gather_S500x200_S800000x1_S800000x200_1_0_n_n_0_1_1200_wf
def scatter_S50000x2x1_S800000x1_S800000x2x1_12_0_0_1 : ScatterDims S50000x2x1 S800000x1 S800000x2x1 where
  updateWindowDims := [1, 2]
  insertedWindowDims := [0]
  scatterDimsToOperandDims := [0]
  indexVectorDim := 1
  wf := scatter_S50000x2x1_S800000x1_S800000x2x1_12_0_0_1_wf
def gather_S50000x2x1_S800000x1_S800000x2x1_12_0_n_n_0_1_121 : GatherDims S50000x2x1 S800000x1 S800000x2x1 where
  offsetDims := [1, 2]
  collapsedSliceDims := [0]
  operandBatchingDims := []
  startIndicesBatchingDims := []
  startIndexMap := [0]
  indexVectorDim := 1
  sliceSizes := ![1, 2, 1]
  wf := gather_S50000x2x1_S800000x1_S800000x2x1_12_0_n_n_0_1_121_wf
def scatter_S50000x2x100_S800000x1_S800000x2x100_12_0_0_1 : ScatterDims S50000x2x100 S800000x1 S800000x2x100 where
  updateWindowDims := [1, 2]
  insertedWindowDims := [0]
  scatterDimsToOperandDims := [0]
  indexVectorDim := 1
  wf := scatter_S50000x2x100_S800000x1_S800000x2x100_12_0_0_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def dot_S500x200_S200x100_S500x100_1_0_0_1_n_n : DotDims S500x200 S200x100 S500x100 where
  lhsContracting := [1]
  rhsContracting := [0]
  lhsNonContracting := [0]
  rhsNonContracting := [1]
  lhsBatch := []
  rhsBatch := []
  wf := dot_S500x200_S200x100_S500x100_1_0_0_1_n_n_wf

class Facts : Prop extends Facts₀ where

variable [Facts]
-- ==== Proof.KernelRun.lean ====
/-
  The idealized kernel's run with every buffer's final contents named.

  The program is five kernel launches among five stretches of host operations. Its final memory is a fold through these
  ten segments from the launch memory: a host stretch applies its operations in order, a kernel launch replaces each
  of its output arrays by what its grid points wrote back and leaves every other buffer alone. The statement below says
  that every weakly fair execution terminates without a fault and that, at the end, each buffer that is not a kernel's
  scratch holds the value of that fold.
-/
import proofs.«172343_j88055419502884_1_alg».proof.Proof.Gen.KernelIdeal.Frame

set_option maxRecDepth 16384

noncomputable section

namespace Cert.KernelIdeal.FinalRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer outside the kernels'
    scratch ends at the fold's value `W10`. -/
theorem run_final : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.FinalRun

end
-- ==== Proof.LibSsa.lean ====
/-
  A line of host operations in single-assignment form, read one operation at a time.

  `after ops V` is what the buffers hold once the operations `ops` have run in order from the contents `V`. Suppose each
  operation writes one buffer, operation `k` the reference `W[k]` (`WritesIn ops W`). Then

    * a reference that is not among `W[k], W[k+1], …` is written by no operation from position `k` on, so after the whole
      line it holds what it held after the first `k` operations (`after_eq_take`);
    * the reference operation `k` writes, if no LATER operation writes it again, holds after the whole line that
      operation's result from the contents after the first `k` operations (`after_out`).

  Together: when every operand of operation `k` was written before `k` (or never) and nothing is written twice, the
  final contents `R := after ops V` satisfy the operation's own equation `R y = f (R a) (R b) …` — one small fact per
  operation, whose proof mentions two positions of the list and never the composed term of the whole line. The
  equations are stated for the builders a printed program uses.
-/
import Idealize.ShloMosaic.Lib.StableHlo.Run

noncomputable section

namespace Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Operation `k` of the line writes (at most) the reference `W[k]`, for every `k`. -/
def WritesIn (ops : List (HloOp τ sig Val)) (W : List (Ref sig .tc)) : Prop :=
  List.Forall₂ (fun op w => op.writes ⊆ ({Proc.devRef (τ := τ) .tc w} : Finset (DevRef τ sig))) ops W

theorem WritesIn.nil : WritesIn ([] : List (HloOp τ sig Val)) [] := List.Forall₂.nil

theorem WritesIn.cons {op : HloOp τ sig Val} {w : Ref sig .tc} {ops : List (HloOp τ sig Val)} {W : List (Ref sig .tc)}
    (h : op.writes ⊆ ({Proc.devRef (τ := τ) .tc w} : Finset (DevRef τ sig))) (t : WritesIn ops W) :
    WritesIn (op :: ops) (w :: W) := List.Forall₂.cons h t

/-- The same holds of the line and the list from position `k` on. -/
theorem WritesIn.drop {ops : List (HloOp τ sig Val)} {W : List (Ref sig .tc)} (h : WritesIn ops W) :
    ∀ k, WritesIn (ops.drop k) (W.drop k) := by
  induction h with
  | nil => intro k; simp only [List.drop_nil]; exact List.Forall₂.nil
  | cons hd tl ih =>
    intro k
    cases k with
    | zero => exact List.Forall₂.cons hd tl
    | succ k => exact ih k

/-- Two lines one after the other, each with its list. -/
theorem WritesIn.append {a b : List (HloOp τ sig Val)} {A B : List (Ref sig .tc)} (h1 : WritesIn a A) (h2 : WritesIn b B) :
    WritesIn (a ++ b) (A ++ B) := by
  induction h1 with
  | nil => exact h2
  | cons hd _ ih => exact List.Forall₂.cons hd ih

/-- In a list without repetition, the entry at position `j` does not occur from a later position `k` on. -/
theorem not_mem_drop_of_pos {W : List (Ref sig .tc)} (hnd : W.Nodup) {j k : Nat} {x : Ref sig .tc}
    (e : W[j]? = some x) (hjk : j < k) : x ∉ W.drop k := by
  intro hmem
  obtain ⟨i, hi, ei⟩ := List.getElem_of_mem hmem
  rw [List.getElem_drop] at ei
  have hj : j < W.length := by
    by_contra hcon
    rw [List.getElem?_eq_none (Nat.le_of_not_lt hcon)] at e
    cases e
  rw [List.getElem?_eq_getElem hj] at e
  have e' : W[j] = x := Option.some.inj e
  have hki : k + i < W.length := by
    have := hi; rw [List.length_drop] at this; omega
  have : k + i = j := (List.Nodup.getElem_inj_iff hnd).mp (ei.trans e'.symm)
  omega

/-- A reference that does not occur in the list does not occur from position `k` on. -/
theorem not_mem_drop_of_not_mem {W : List (Ref sig .tc)} {x : Ref sig .tc} (h : x ∉ W) (k : Nat) : x ∉ W.drop k :=
  fun hm => h (List.mem_of_mem_drop hm)

/-- Every operation of the line writes only references of the list. -/
theorem WritesIn.forall_sub {ops : List (HloOp τ sig Val)} {W : List (Ref sig .tc)} (h : WritesIn ops W) :
    ops.Forall fun op => op.writes ⊆ (W.map (Proc.devRef (τ := τ) .tc)).toFinset := by
  induction h with
  | nil => exact trivial
  | @cons op w ops W hd _ ih =>
    rw [List.forall_cons]
    refine ⟨fun b hb => ?_, ?_⟩
    · have := Finset.mem_singleton.mp (hd hb)
      rw [this, List.mem_toFinset, List.map_cons]
      exact List.mem_cons_self
    · refine (List.forall_iff_forall_mem.mpr fun o ho b hb => ?_)
      have := (List.forall_iff_forall_mem.mp ih) o ho hb
      rw [List.mem_toFinset, List.map_cons]
      exact List.mem_cons_of_mem _ (List.mem_toFinset.mp this)

/-- A reference written by no operation from position `k` on holds, after the line, what it held after the first `k`
    operations. -/
theorem after_eq_take {ops : List (HloOp τ sig Val)} {W : List (Ref sig .tc)} (hW : WritesIn ops W)
    (V : Valuation τ sig Val) (k : Nat) (x : Ref sig .tc) (hx : x ∉ W.drop k) :
    after ops V (Proc.devRef .tc x) = after (ops.take k) V (Proc.devRef .tc x) := by
  have e : after ops V = after (ops.drop k) (after (ops.take k) V) := by
    rw [← after_append, List.take_append_drop]
  rw [e]
  exact after_of_writes_sub (ops.drop k) _ (hW.drop k).forall_sub hx

/-- The reference operation `k` writes, not written again later, holds after the line that operation's result from the
    contents after the first `k` operations. -/
theorem after_out {ops : List (HloOp τ sig Val)} {W : List (Ref sig .tc)} (hW : WritesIn ops W)
    (V : Valuation τ sig Val) (k : Nat) (hk : k < ops.length) (y : Ref sig .tc) (hy : y ∉ W.drop (k + 1)) :
    after ops V (Proc.devRef .tc y) = (ops[k]).result (after (ops.take k) V) (Proc.devRef .tc y) := by
  have e : after ops V = after (ops.drop (k + 1)) ((ops[k]).result (after (ops.take k) V)) := by
    conv_lhs => rw [← List.take_append_drop k ops, after_append, List.drop_eq_getElem_cons hk, after_cons]
  rw [e]
  exact after_of_writes_sub (ops.drop (k + 1)) _ (hW.drop (k + 1)).forall_sub hy

/-! ## The builders' equations -/

section Equations

variable {ops : List (HloOp τ sig Val)} {W : List (Ref sig .tc)}

/-- `%y = ‹constant›` at position `k`. -/
theorem eq_nullary (hW : WritesIn ops W) (V : Valuation τ sig Val) (k : Nat) (hk : k < ops.length) {y : Ref sig .tc} (v : y.ty.Contents Val) (hy)
    (hop : ops[k] = nullary y v hy) (hyW : y ∉ W.drop (k + 1)) :
    after ops V (Proc.devRef .tc y) = v := by
  rw [after_out hW V k hk y hyW, hop, nullary_result]

/-- `%y = ‹op› %x` at position `k`. -/
theorem eq_unary (hW : WritesIn ops W) (V : Valuation τ sig Val) (k : Nat) (hk : k < ops.length) {x y : Ref sig .tc} (f : x.ty.Contents Val → y.ty.Contents Val) (hx hy)
    (hop : ops[k] = unary x y f hx hy) (hxW : x ∉ W.drop k) (hyW : y ∉ W.drop (k + 1)) :
    after ops V (Proc.devRef .tc y) = f (after ops V (Proc.devRef .tc x)) := by
  rw [after_out hW V k hk y hyW, hop, unary_result, ← after_eq_take hW V k x hxW]

/-- `%y = ‹op› %a, %b` at position `k`. -/
theorem eq_binary (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1)) :
    after ops V (Proc.devRef .tc y) = f (after ops V (Proc.devRef .tc a)) (after ops V (Proc.devRef .tc b)) := by
  rw [after_out hW V k hk y hyW, hop, binary_result, ← after_eq_take hW V k a haW, ← after_eq_take hW V k b hbW]

/-- `%y = ‹op› %c, %a, %b` at position `k`. -/
theorem eq_ternary (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) :
    after ops V (Proc.devRef .tc y)
      = f (after ops V (Proc.devRef .tc c)) (after ops V (Proc.devRef .tc a)) (after ops V (Proc.devRef .tc b)) := by
  rw [after_out hW V k hk y hyW, hop, ternary_result, ← after_eq_take hW V k c hcW, ← after_eq_take hW V k a haW,
    ← after_eq_take hW V k b hbW]

/-! The same with the operands' values already known: the form a stage-by-stage reading uses. -/

theorem eq_unary' (hW : WritesIn ops W) (V : Valuation τ sig Val) (k : Nat) (hk : k < ops.length) {x y : Ref sig .tc}
    (f : x.ty.Contents Val → y.ty.Contents Val) (hx hy) (hop : ops[k] = unary x y f hx hy)
    (hxW : x ∉ W.drop k) (hyW : y ∉ W.drop (k + 1)) {vx : x.ty.Contents Val}
    (ex : after ops V (Proc.devRef .tc x) = vx) :
    after ops V (Proc.devRef .tc y) = f vx := by
  rw [eq_unary hW V k hk f hx hy hop hxW hyW, ex]

theorem eq_binary' (hW : WritesIn ops W) (V : Valuation τ sig Val) (k : Nat) (hk : k < ops.length) {a b y : Ref sig .tc}
    (f : a.ty.Contents Val → b.ty.Contents Val → y.ty.Contents Val) (ha hb hy)
    (hop : ops[k] = binary a b y f ha hb hy) (haW : a ∉ W.drop k) (hbW : b ∉ W.drop k) (hyW : y ∉ W.drop (k + 1))
    {va : a.ty.Contents Val} {vb : b.ty.Contents Val}
    (ea : after ops V (Proc.devRef .tc a) = va) (eb : after ops V (Proc.devRef .tc b) = vb) :
    after ops V (Proc.devRef .tc y) = f va vb := by
  rw [eq_binary hW V k hk f ha hb hy hop haW hbW hyW, ea, eb]

theorem eq_ternary' (hW : WritesIn ops W) (V : Valuation τ sig Val) (k : Nat) (hk : k < ops.length) {c a b y : Ref sig .tc}
    (f : c.ty.Contents Val → a.ty.Contents Val → b.ty.Contents Val → y.ty.Contents Val) (hc ha hb hy)
    (hop : ops[k] = ternary c a b y f hc ha hb hy) (hcW : c ∉ W.drop k) (haW : a ∉ W.drop k) (hbW : b ∉ W.drop k)
    (hyW : y ∉ W.drop (k + 1)) {vc : c.ty.Contents Val} {va : a.ty.Contents Val} {vb : b.ty.Contents Val}
    (ec : after ops V (Proc.devRef .tc c) = vc) (ea : after ops V (Proc.devRef .tc a) = va)
    (eb : after ops V (Proc.devRef .tc b) = vb) :
    after ops V (Proc.devRef .tc y) = f vc va vb := by
  rw [eq_ternary hW V k hk f hc ha hb hy hop hcW haW hbW hyW, ec, ea, eb]

/-- A reference no operation of the line writes keeps its launch contents. -/
theorem after_kept (hW : WritesIn ops W) (V : Valuation τ sig Val) (x : Ref sig .tc) (hx : x ∉ W) :
    after ops V (Proc.devRef .tc x) = V (Proc.devRef .tc x) :=
  after_of_writes_sub ops V hW.forall_sub hx

end Equations

end Idealize.ShloMosaic.StableHlo

end
-- ==== Proof.RegionSpec.lean ====
/-
  What each of the five kernels computes, as one function of whole arrays, entry by entry, over the extended reals.

  Every kernel here works on row blocks: entry `(p, q)` of an output depends on row `p` of the row-blocked operands and
  on the small operands as a whole, so the tiling disappears once the blocks are laid side by side.

    * `linear x w b`     — `x · w + b`: the sum over `k` of `x (p, k) * w (k, q)`, plus entry `q` of the bias row;
    * `sum3 a b c`       — the entrywise sum of three arrays;
    * `headLogit c att`  — per row and head `h`, the sum over the head's 100 columns of `c (p, 100 h + o) * att (0, 100 h + o)`;
    * `leaky`            — the leaky rectifier with slope the float nearest one hundredth: `a` when `a ≥ 0`, slope times `a` otherwise;
    * `edgeWeight`       — the exponential of the leaky rectifier of the head logits of `sum3`;
    * `scaleHeads c al`  — `c (p, q) * al (p, q / 100)`: each head's 100 columns scaled by that head's weight;
    * `tanhSum a b`      — the hyperbolic tangent of the entrywise sum.
-/
import Idealize.ShloMosaic.PureOps.Ideal
import Idealize.ShloMosaic.Lib.ValueIdx

noncomputable section

namespace Cert.KernelIdeal.Spec

open Idealize.ShloMosaic Idealize.ShloMosaic.ValueIdx
open scoped BigOperators

/-- An `m × n` array of extended reals. -/
abbrev A2 (m n : Nat) := (⟨2, ![m, n]⟩ : Shape).Idx → EReal

/-- The row of an index, as a number below the row count. -/
abbrev r2 {m n : Nat} (i : (⟨2, ![m, n]⟩ : Shape).Idx) : Fin m := ⟨(i 0).val, idx2_lt0 i⟩
/-- The column of an index, as a number below the column count. -/
abbrev c2 {m n : Nat} (i : (⟨2, ![m, n]⟩ : Shape).Idx) : Fin n := ⟨(i 1).val, idx2_lt1 i⟩

/-- `x · w + b` with `b` a single row. -/
def linear {M K N : Nat} (x : A2 M K) (w : A2 K N) (b : A2 1 N) : A2 M N :=
  fun i => (∑ k : Fin K, x (ix2 (r2 i) k) * w (ix2 k (c2 i))) + b (ix2 (0 : Fin 1) (c2 i))

/-- The entrywise sum of three arrays, associated to the left. -/
def sum3 {M N : Nat} (a b c : A2 M N) : A2 M N := fun i => a i + b i + c i

/-- Column `100 h + o` of a 200-column array, for head `h` and offset `o`. -/
abbrev headCol (h : Fin 2) (o : Fin 100) : Fin 200 := ⟨100 * h.val + o.val, by have := h.isLt; have := o.isLt; omega⟩

/-- Per row and head, the sum over the head's 100 columns of `c * att`. -/
def headLogit {M : Nat} (c : A2 M 200) (att : A2 1 200) : A2 M 2 :=
  fun i => ∑ o : Fin 100, c (ix2 (r2 i) (headCol (c2 i) o)) * att (ix2 (0 : Fin 1) (headCol (c2 i) o))

/-- The leaky rectifier: `a` when `a ≥ 0`, the slope times `a` otherwise. -/
def leaky (a : EReal) : EReal :=
  Scalar.select (Ideal.cmp .oge a (Ideal.ofBits .f32 0x00000000#32)) a (Ideal.ofBits .f32 0x3C23D70A#32 * a)

/-- The exponential of the leaky rectifier of the head logits of the sum of three arrays. -/
def edgeWeight {M : Nat} (a b c : A2 M 200) (att : A2 1 200) : A2 M 2 :=
  fun i => Ideal.exp (leaky (headLogit (sum3 a b c) att i))

/-- The head of a column of a 200-column array. -/
abbrev headOf (q : Fin 200) : Fin 2 := ⟨q.val / 100, by have := q.isLt; omega⟩

/-- Each head's 100 columns scaled by that head's weight. -/
def scaleHeads {M : Nat} (c : A2 M 200) (al : A2 M 2) : A2 M 200 :=
  fun i => c i * al (ix2 (r2 i) (headOf (c2 i)))

/-- The hyperbolic tangent of the entrywise sum. -/
def tanhSum {M N : Nat} (a b : A2 M N) : A2 M N := fun i => Ideal.tanh (a i + b i)

end Cert.KernelIdeal.Spec

end
-- ==== Proof.KernelStages.lean ====
/-
  The idealized kernel program between its launches, as functions of arrays.

  Outside the five kernel launches the program runs host operations: slices of the edge list and of the weight matrix,
  the two small relation products, row gathers along the edges, two segment sums and the division that normalises the
  attention weights. Each is named here as a function of its operands, and the program's intermediate arrays are then
  written as functions of the twelve arguments, the launches through the closed forms of `Spec`.

  With `h` the node features, `W₁ W₂ W₃` the three 200-row blocks of the weight matrix, `s e`, `d e`, `r e` the
  source, destination and relation of edge `e`:
    c e      = (h W₁)[s e] + (h W₂)[d e] + (g W₃ + b)[r e],
    w e k    = exp (leaky (Σ_o c e (100 k + o) · att k o)),
    α e k    = w e k / (Σ over edges e' with source s e of w e' k),
    out n    = tanh ((x E + b') n, twice side by side, + Σ over edges e with destination n of α e · c e).
-/
import proofs.«172343_j88055419502884_1_alg».proof.KernelIdeal
import proofs.«172343_j88055419502884_1_alg».proof.Proof.Gen.KernelIdeal
import proofs.«172343_j88055419502884_1_alg».proof.Proof.RegionSpec

noncomputable section

namespace Cert.KernelIdeal.Fold

open Cert.KernelIdeal Cert.KernelIdeal.Gen Cert.KernelIdeal.Spec
open Idealize.ShloMosaic

/-! ## The host operations between the launches, as functions of arrays -/

/-- Row 0 of the edge list: every edge's source node. -/
def srcOf (e : IVec S2x800000 32) : IVec S800000 32 :=
  shapeCast S800000 (extractStridedSlice S1x800000 ![0, 0] e slices_S2x800000_S1x800000_0_0) shapeCasts_S1x800000_S800000
/-- Row 1 of the edge list: every edge's destination node. -/
def dstOf (e : IVec S2x800000 32) : IVec S800000 32 :=
  shapeCast S800000 (extractStridedSlice S1x800000 ![1, 0] e slices_S2x800000_S1x800000_1_0) shapeCasts_S1x800000_S800000
/-- Indices as a gather takes them: a negative index counts from the end (`n` is added to it), as one column. -/
def wrapIdx (n : BitVec 32) (v : IVec S800000 32) : IVec S800000x1 32 :=
  broadcastInDim S800000x1 ![0] bcast_S800000_S800000x1_0
    (select (cmpi CmpIPredicate.slt v (broadcastInDim S800000 ![] bcast_S_S800000 (constantI S_ 32 0#32)))
      (addi v (broadcastInDim S800000 ![] bcast_S_S800000 (constantI S_ 32 n))) v)
/-- Indices as a segment sum takes them: unchanged, as one column. -/
def colIdx (v : IVec S800000 32) : IVec S800000x1 32 := broadcastInDim S800000x1 ![0] bcast_S800000_S800000x1_0 v
/-- The first two 200-row blocks of the 600-row weight matrix side by side: a 200 × 400 matrix. -/
def wcat (w : FVec Ideal S600x200 .f32) : FVec Ideal S200x400 .f32 :=
  concatenate S200x400 1 [⟨S200x200, extractStridedSlice S200x200 ![0, 0] w slices_S600x200_S200x200_0_0⟩,
    ⟨S200x200, extractStridedSlice S200x200 ![200, 0] w slices_S600x200_S200x200_200_0⟩] concatenates_S200x200_S200x200_S200x400_d1
/-- The zero bias row of length 400. -/
def zeroRow : FVec Ideal S1x400 .f32 :=
  shapeCast S1x400 (broadcastInDim S400 ![] bcast_S_S400 (constant (F := Ideal) S_ .f32 0x00000000#32)) shapeCasts_S400_S1x400
/-- A bias vector of length 100 as a row. -/
def biasRow (b : FVec Ideal S100 .f32) : FVec Ideal S1x100 .f32 := shapeCast S1x100 b shapeCasts_S100_S1x100
/-- The attention vector, two heads of 100, as one row of 200. -/
def attRow (a : FVec Ideal S1x2x100 .f32) : FVec Ideal S1x200 .f32 := shapeCast S1x200 a shapeCasts_S1x2x100_S1x200
/-- The relation embeddings times the third 200-row block of the weight matrix, plus the bias. -/
def relProj (g : FVec Ideal S500x200 .f32) (w : FVec Ideal S600x200 .f32) (b : FVec Ideal S200 .f32) : FVec Ideal S500x200 .f32 :=
  addf (Host.dotGeneral dot_S500x200_S200x200_S500x200_1_0_0_1_n_n none g
      (extractStridedSlice S200x200 ![400, 0] w slices_S600x200_S200x200_400_0))
    (broadcastInDim S500x200 ![0, 1] bcast_S1x200_S500x200_0_1 (broadcastInDim S1x200 ![1] bcast_S200_S1x200_1 b))
/-- The second result: the relation embeddings times the relation weight, plus its bias. -/
def relOut (g : FVec Ideal S500x200 .f32) (w : FVec Ideal S200x100 .f32) (b : FVec Ideal S100 .f32) : FVec Ideal S500x100 .f32 :=
  addf (Host.dotGeneral dot_S500x200_S200x100_S500x100_1_0_0_1_n_n none g w)
    (broadcastInDim S500x100 ![0, 1] bcast_S1x100_S500x100_0_1 (broadcastInDim S1x100 ![1] bcast_S100_S1x100_1 b))
/-- The zero array a segment sum starts from. -/
def zeros2 : FVec Ideal S50000x2 .f32 := broadcastInDim S50000x2 ![] bcast_S_S50000x2 (constant (F := Ideal) S_ .f32 0x00000000#32)
def zeros200 : FVec Ideal S50000x200 .f32 := broadcastInDim S50000x200 ![] bcast_S_S50000x200 (constant (F := Ideal) S_ .f32 0x00000000#32)

/-! ## The kernel program's intermediate arrays, as functions of the twelve arguments -/

section Stages
variable (x0 : FVec Ideal S50000x100 .f32) (x1 : FVec Ideal S50000x200 .f32) (x2 : FVec Ideal S500x200 .f32)
  (x3 : IVec S2x800000 32) (x4 : IVec S800000 32) (x5 : FVec Ideal S600x200 .f32) (x6 : FVec Ideal S200 .f32)
  (x7 : FVec Ideal S1x2x100 .f32) (x8 : FVec Ideal S200x100 .f32) (x9 : FVec Ideal S100 .f32)
  (x10 : FVec Ideal S100x100 .f32) (x11 : FVec Ideal S100 .f32)

/-- Both node projections at once: the node features times the 200 × 400 matrix. -/
def kProj : FVec Ideal S50000x400 .f32 := linear x1 (wcat x5) zeroRow
def kHs : FVec Ideal S50000x200 .f32 := extractStridedSlice S50000x200 ![0, 0] (kProj x1 x5) slices_S50000x400_S50000x200_0_0
def kHd : FVec Ideal S50000x200 .f32 := extractStridedSlice S50000x200 ![0, 200] (kProj x1 x5) slices_S50000x400_S50000x200_0_200
/-- The entity projection. -/
def kEnt : FVec Ideal S50000x100 .f32 := linear x0 x10 (biasRow x11)
def kG1 : FVec Ideal S800000x200 .f32 := Host.gather gather_S50000x200_S800000x1_S800000x200_1_0_n_n_0_1_1200 (kHs x1 x5) (wrapIdx 50000#32 (srcOf x3))
def kG2 : FVec Ideal S800000x200 .f32 := Host.gather gather_S50000x200_S800000x1_S800000x200_1_0_n_n_0_1_1200 (kHd x1 x5) (wrapIdx 50000#32 (dstOf x3))
def kG3 : FVec Ideal S800000x200 .f32 := Host.gather gather_S500x200_S800000x1_S800000x200_1_0_n_n_0_1_1200 (relProj x2 x5 x6) (wrapIdx 500#32 x4)
/-- Per edge: source projection plus destination projection plus relation projection. -/
def kC : FVec Ideal S800000x200 .f32 := sum3 (kG1 x1 x3 x5) (kG2 x1 x3 x5) (kG3 x2 x4 x5 x6)
/-- Per edge and head: the unnormalised attention weight. -/
def kEw : FVec Ideal S800000x2 .f32 := edgeWeight (kG1 x1 x3 x5) (kG2 x1 x3 x5) (kG3 x2 x4 x5 x6) (attRow x7)
/-- Per source node and head: the sum of the weights of its edges. -/
def kRowSum : FVec Ideal S50000x2 .f32 := Host.scatterAdd scatter_S50000x2_S800000x1_S800000x2_1_0_0_1 zeros2 (colIdx (srcOf x3)) (kEw x1 x2 x3 x4 x5 x6 x7)
/-- The normalised attention weight. -/
def kAlpha : FVec Ideal S800000x2 .f32 := Host.divf (kEw x1 x2 x3 x4 x5 x6 x7)
  (Host.gather gather_S50000x2_S800000x1_S800000x2_1_0_n_n_0_1_12 (kRowSum x1 x2 x3 x4 x5 x6 x7) (wrapIdx 50000#32 (srcOf x3)))
def kWeighted : FVec Ideal S800000x200 .f32 := scaleHeads (kC x1 x2 x3 x4 x5 x6) (kAlpha x1 x2 x3 x4 x5 x6 x7)
/-- Per destination node: the sum of its edges' weighted messages. -/
def kAgg : FVec Ideal S50000x200 .f32 := Host.scatterAdd scatter_S50000x200_S800000x1_S800000x200_1_0_0_1 zeros200 (colIdx (dstOf x3)) (kWeighted x1 x2 x3 x4 x5 x6 x7)
/-- The first result. -/
def kOut : FVec Ideal S50000x200 .f32 :=
  tanhSum (concatenate S50000x200 1 [⟨S50000x100, kEnt x0 x10 x11⟩, ⟨S50000x100, kEnt x0 x10 x11⟩] concatenates_S50000x100_S50000x100_S50000x200_d1)
    (kAgg x1 x2 x3 x4 x5 x6 x7)
end Stages

end Cert.KernelIdeal.Fold
end
-- ==== Proof.RegionLinear.lean ====
/-
  The two dense layers of the program, each as one function of whole arrays.

  A dense layer's launch walks the rows of its input in blocks of 5000: the point `t` of its one-axis grid reads rows
  `5000 t … 5000 t + 4999` of the input, the whole weight matrix and the whole bias row, and writes rows
  `5000 t … 5000 t + 4999` of the output. Entry `(p, q)` of a block of the output is the sum over `k` of the input
  block's `(p, k)` times the weight's `(k, q)`, plus entry `q` of the bias row: it depends on row `p` of the block
  only. A block's entry `(p, q)` is the array's entry `(5000 t + p, q)`, so the blocks laid one under the other are
  `Spec.linear` of the three arrays the launch found, and every row lies in the block of the point `row / 5000`.
-/
import proofs.«172343_j88055419502884_1_alg».proof.Proof.Gen.KernelIdeal.Frame
import proofs.«172343_j88055419502884_1_alg».proof.Proof.RegionSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegionValue
open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)
open scoped BigOperators
variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## The first dense layer: `[50000, 200] · [200, 400] + [1, 400]` -/

/-- The left operand's row is the output's row, -/
theorem lhs0_0 (i : S5000x400.Idx) (q : dot_S5000x200_S200x400_S5000x400_1_0_0_1_n_n.contr.Idx) :
    (dot_S5000x200_S200x400_S5000x400_1_0_0_1_n_n.lhsIdx i q 0).val = (i 0).val := by
  unfold DotDims.lhsIdx
  rw [dif_neg (show ¬(0 : Fin S5000x200.rank) ∈ dot_S5000x200_S200x400_S5000x400_1_0_0_1_n_n.lhsBatch by decide), dif_pos (show (0 : Fin S5000x200.rank) ∈ dot_S5000x200_S200x400_S5000x400_1_0_0_1_n_n.lhsNonContracting by decide)]
  rfl
/-- its column the contraction index; -/
theorem lhs0_1 (i : S5000x400.Idx) (q : dot_S5000x200_S200x400_S5000x400_1_0_0_1_n_n.contr.Idx) :
    (dot_S5000x200_S200x400_S5000x400_1_0_0_1_n_n.lhsIdx i q 1).val = (q ⟨0, by decide⟩).val :=
  dot_S5000x200_S200x400_S5000x400_1_0_0_1_n_n.lhsIdx_val_of_single rfl i q
/-- the right operand's row is the contraction index, -/
theorem rhs0_0 (i : S5000x400.Idx) (q : dot_S5000x200_S200x400_S5000x400_1_0_0_1_n_n.contr.Idx) :
    (dot_S5000x200_S200x400_S5000x400_1_0_0_1_n_n.rhsIdx i q 0).val = (q ⟨0, by decide⟩).val :=
  dot_S5000x200_S200x400_S5000x400_1_0_0_1_n_n.rhsIdx_val_of_single rfl i q
/-- its column the output's column. -/
theorem rhs0_1 (i : S5000x400.Idx) (q : dot_S5000x200_S200x400_S5000x400_1_0_0_1_n_n.contr.Idx) :
    (dot_S5000x200_S200x400_S5000x400_1_0_0_1_n_n.rhsIdx i q 1).val = (i 1).val := by
  unfold DotDims.rhsIdx
  rw [dif_neg (show ¬(1 : Fin S200x400.rank) ∈ dot_S5000x200_S200x400_S5000x400_1_0_0_1_n_n.rhsBatch by decide), dif_pos (show (1 : Fin S200x400.rank) ∈ dot_S5000x200_S200x400_S5000x400_1_0_0_1_n_n.rhsNonContracting by decide)]
  rfl

/-- The product of a block of 5000 rows with the weight matrix, into the zero accumulator, at entry `(p, q)`:
    the sum over `k` of the block's `(p, k)` times the weight's `(k, q)`. -/
theorem matmul0_apply (a : FVec Ideal S5000x200 .bf16) (b : FVec Ideal S200x400 .bf16) (p : Fin 5000) (q : Fin 400) :
    FloatOps.matmul dot_S5000x200_S200x400_S5000x400_1_0_0_1_n_n none a b (constant (F := Ideal) S5000x400 .f32 0x00000000#32) (ix2 p q)
      = ∑ k : Fin 200, a (ix2 p k) * b (ix2 k q) := by
  rw [Ideal.matmul_constant_zero_apply, ← Equiv.sum_comp (ValueIdx.contrEquiv1 dot_S5000x200_S200x400_S5000x400_1_0_0_1_n_n 200 rfl rfl).symm]
  refine Finset.sum_congr rfl fun k _ => ?_
  have hk := ValueIdx.contrEquiv1_symm_val dot_S5000x200_S200x400_S5000x400_1_0_0_1_n_n 200 rfl rfl k
  have el : dot_S5000x200_S200x400_S5000x400_1_0_0_1_n_n.lhsIdx (ix2 p q) ((ValueIdx.contrEquiv1 dot_S5000x200_S200x400_S5000x400_1_0_0_1_n_n 200 rfl rfl).symm k) = ix2 p k := funext fun a => Fin.ext (by
    match a with
    | ⟨0, _⟩ => exact lhs0_0 _ _
    | ⟨1, _⟩ => exact (lhs0_1 _ _).trans hk)
  have er : dot_S5000x200_S200x400_S5000x400_1_0_0_1_n_n.rhsIdx (ix2 p q) ((ValueIdx.contrEquiv1 dot_S5000x200_S200x400_S5000x400_1_0_0_1_n_n 200 rfl rfl).symm k) = ix2 k q := funext fun a => Fin.ext (by
    match a with
    | ⟨0, _⟩ => exact (rhs0_0 _ _).trans hk
    | ⟨1, _⟩ => exact rhs0_1 _ _)
  rw [el, er]

/-- THE BODY'S RESULT AT AN ENTRY: entry `(p, q)` of what the body stores is the sum over `k` of the input block's
    `(p, k)` times the weight's `(k, q)`, plus entry `q` of the bias row (the roundings on the way into the product
    are the identity over the extended reals). -/
theorem pay0_apply (x0 : Vec Ideal S5000x200 .f32) (x1 : Vec Ideal S200x400 .f32) (x2 : Vec Ideal S1x400 .f32)
    (p : Fin 5000) (q : Fin 400) :
    k0_pay1 (F := Ideal) x0 x1 x2 (ix2 p q) = (∑ k : Fin 200, x0 (ix2 p k) * x1 (ix2 k q)) + x2 (ix2 (0 : Fin 1) q) := by
  unfold k0_pay1
  refine (addf_apply _ _ (ix2 p q)).trans ?_
  rw [shapeCast_self, shapeCast_self]
  refine congrArg₂ (· + ·) ?_ ?_
  · exact matmul0_apply _ _ p q
  · exact broadcastTo_1b_ab_apply x2 broadcasts_S1x400_S5000x400 p q

/-- The block indices over the grid: at point `t` the input and the output are at row block `t`, column block `0`;
    the weight matrix and the bias row are at their one block. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `linear` of the three arrays as the launch finds them: entry `(p, q)`
    of the block is entry `(5000 t + p, q)` of the array, and the input block's row `p` is the input's row `5000 t + p`. -/
theorem flushed0_eq (c : Dev nD) (t : Fin cfg0.N) :
    (dat0 (F := Ideal) V c).flushed 3 t
      = ((cfg0.win 3).blk t).view.read (Elt Ideal) (linear (V c main_arg1) (V c main_v6) (V c main_v8)) := by
  show (cfg0.win 3).cut (grid0.coords t) ((dat0 V c).after 3 t) = _
  rw [after0_3]
  unfold out0_3
  rw [View.canon_unit_zero zero_offsets]
  simp only [View.ld_unit_zero (S := S5000x200) zero_offsets, View.ld_unit_zero (S := S200x400) zero_offsets,
    View.ld_unit_zero (S := S1x400) zero_offsets]
  obtain ⟨e00, e01, e10, e11, e20, e21, e30, e31⟩ := blocks0 t
  funext j
  obtain ⟨p, q, rfl⟩ : ∃ (p : Fin 5000) (q : Fin 400), j = ix2 p q := ⟨j 0, j 1, eq_ix2 j⟩
  show k0_pay1 (F := Ideal) (iblk0 V c 0 t) (iblk0 V c 1 t) (iblk0 V c 2 t) (ix2 p q)
    = linear (V c main_arg1) (V c main_v6) (V c main_v8) (((cfg0.win 3).blk t).view.emb (ix2 p q))
  refine (pay0_apply _ _ _ p q).trans ?_
  unfold linear
  refine congrArg₂ (· + ·) (Finset.sum_congr rfl fun k _ => congrArg₂ (· * ·) ?_ ?_) ?_
  · show V c main_arg1 (((cfg0.win 0).blk t).view.emb (ix2 p k))
      = V c main_arg1 (ix2 (r2 (((cfg0.win 3).blk t).view.emb (ix2 p q))) k)
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 200 + 1 * k.val = k.val; omega
  · show V c main_v6 (((cfg0.win 1).blk t).view.emb (ix2 k q))
      = V c main_v6 (ix2 k (c2 (((cfg0.win 3).blk t).view.emb (ix2 p q))))
    refine congrArg _ (funext fun a => Fin.ext ?_)
    match a with
    | ⟨0, _⟩ => show win0_1.index t (0 : Fin 2) * 200 + 1 * k.val = k.val; omega
    | ⟨1, _⟩ => show win0_1.index t (1 : Fin 2) * 400 + 1 * q.val = win0_3.index t (1 : Fin 2) * 400 + 1 * q.val; omega
  · show V c main_v8 (((cfg0.win 2).blk t).view.emb (ix2 (0 : Fin 1) q))
      = V c main_v8 (ix2 (0 : Fin 1) (c2 (((cfg0.win 3).blk t).view.emb (ix2 p q))))
    refine congrArg _ (funext fun a => Fin.ext ?_)
    match a with
    | ⟨0, _⟩ => show win0_2.index t (0 : Fin 2) * 1 + 1 * 0 = 0; omega
    | ⟨1, _⟩ => show win0_2.index t (1 : Fin 2) * 400 + 1 * q.val = win0_3.index t (1 : Fin 2) * 400 + 1 * q.val; omega

/-- An entry of the output is in point `t`'s block iff each coordinate is in the block's range on its axis. -/
theorem mem_blk0 (t : Fin cfg0.N) (i : S50000x400.Idx) :
    i ∈ ((cfg0.win 3).blk t).view.set ↔ ∀ a : Fin 2, win0_3.index t a * S5000x400.size a ≤ (i a).val
      ∧ (i a).val < win0_3.index t a * S5000x400.size a + S5000x400.size a := by
  show i ∈ ((View.whole main_v9).slice (win0_3.rect t)).set ↔ _
  rw [View.set_slice_whole, Rect.mem_set_unit]
  exact Iff.rfl

/-- THE BLOCKS FILL THE OUTPUT: row `r` lies in the block of the point `r / 5000`. -/
theorem cover0 (i : S50000x400.Idx) :
    ∃ t : Fin cfg0.N, (cfg0.win 3).flush t = true ∧ i ∈ ((cfg0.win 3).blk t).view.set := by
  have hi0 : (i 0).val < 50000 := (i 0).isLt
  have hi1 : (i 1).val < 400 := (i 1).isLt
  have hN : (i 0).val / 5000 < grid0.N := by rw [N_0]; omega
  obtain ⟨-, -, -, -, -, -, e30, e31⟩ := blocks0 ⟨(i 0).val / 5000, hN⟩
  have e30' : win0_3.index ⟨(i 0).val / 5000, hN⟩ (0 : Fin 2) = (i 0).val / 5000 := e30
  refine ⟨⟨(i 0).val / 5000, hN⟩, flush0_3 _, ?_⟩
  rw [mem_blk0]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 400 ≤ (i 1).val
      ∧ (i 1).val < win0_3.index ⟨(i 0).val / 5000, hN⟩ (1 : Fin 2) * 400 + 400
    omega

/-- THE OUTPUT after the launch is `linear` of the input, the weight matrix and the bias row as the launch found them. -/
theorem region0_out (c : Dev nD) :
    (dat0 (F := Ideal) V c).arrAt 3 cfg0.N = linear (V c main_arg1) (V c main_v6) (V c main_v8) :=
  (dat0 (F := Ideal) V c).arrAt_eq_of_cover 3 (linear (V c main_arg1) (V c main_v6) (V c main_v8))
    (fun t _ => flushed0_eq V c t) cover0

/-! ## The second dense layer: `[50000, 100] · [100, 100] + [1, 100]` (the same body at other sizes) -/

/-- The left operand's row is the output's row, -/
theorem lhs1_0 (i : S5000x100.Idx) (q : dot_S5000x100_S100x100_S5000x100_1_0_0_1_n_n.contr.Idx) :
    (dot_S5000x100_S100x100_S5000x100_1_0_0_1_n_n.lhsIdx i q 0).val = (i 0).val := by
  unfold DotDims.lhsIdx
  rw [dif_neg (show ¬(0 : Fin S5000x100.rank) ∈ dot_S5000x100_S100x100_S5000x100_1_0_0_1_n_n.lhsBatch by decide), dif_pos (show (0 : Fin S5000x100.rank) ∈ dot_S5000x100_S100x100_S5000x100_1_0_0_1_n_n.lhsNonContracting by decide)]
  rfl
/-- its column the contraction index; -/
theorem lhs1_1 (i : S5000x100.Idx) (q : dot_S5000x100_S100x100_S5000x100_1_0_0_1_n_n.contr.Idx) :
    (dot_S5000x100_S100x100_S5000x100_1_0_0_1_n_n.lhsIdx i q 1).val = (q ⟨0, by decide⟩).val :=
  dot_S5000x100_S100x100_S5000x100_1_0_0_1_n_n.lhsIdx_val_of_single rfl i q
/-- the right operand's row is the contraction index, -/
theorem rhs1_0 (i : S5000x100.Idx) (q : dot_S5000x100_S100x100_S5000x100_1_0_0_1_n_n.contr.Idx) :
    (dot_S5000x100_S100x100_S5000x100_1_0_0_1_n_n.rhsIdx i q 0).val = (q ⟨0, by decide⟩).val :=
  dot_S5000x100_S100x100_S5000x100_1_0_0_1_n_n.rhsIdx_val_of_single rfl i q
/-- its column the output's column. -/
theorem rhs1_1 (i : S5000x100.Idx) (q : dot_S5000x100_S100x100_S5000x100_1_0_0_1_n_n.contr.Idx) :
    (dot_S5000x100_S100x100_S5000x100_1_0_0_1_n_n.rhsIdx i q 1).val = (i 1).val := by
  unfold DotDims.rhsIdx
  rw [dif_neg (show ¬(1 : Fin S100x100.rank) ∈ dot_S5000x100_S100x100_S5000x100_1_0_0_1_n_n.rhsBatch by decide), dif_pos (show (1 : Fin S100x100.rank) ∈ dot_S5000x100_S100x100_S5000x100_1_0_0_1_n_n.rhsNonContracting by decide)]
  rfl

/-- The product of a block of 5000 rows with the weight matrix (the second layer's sizes), into the zero accumulator, at entry `(p, q)`:
    the sum over `k` of the block's `(p, k)` times the weight's `(k, q)`. -/
theorem matmul1_apply (a : FVec Ideal S5000x100 .bf16) (b : FVec Ideal S100x100 .bf16) (p : Fin 5000) (q : Fin 100) :
    FloatOps.matmul dot_S5000x100_S100x100_S5000x100_1_0_0_1_n_n none a b (constant (F := Ideal) S5000x100 .f32 0x00000000#32) (ix2 p q)
      = ∑ k : Fin 100, a (ix2 p k) * b (ix2 k q) := by
  rw [Ideal.matmul_constant_zero_apply, ← Equiv.sum_comp (ValueIdx.contrEquiv1 dot_S5000x100_S100x100_S5000x100_1_0_0_1_n_n 100 rfl rfl).symm]
  refine Finset.sum_congr rfl fun k _ => ?_
  have hk := ValueIdx.contrEquiv1_symm_val dot_S5000x100_S100x100_S5000x100_1_0_0_1_n_n 100 rfl rfl k
  have el : dot_S5000x100_S100x100_S5000x100_1_0_0_1_n_n.lhsIdx (ix2 p q) ((ValueIdx.contrEquiv1 dot_S5000x100_S100x100_S5000x100_1_0_0_1_n_n 100 rfl rfl).symm k) = ix2 p k := funext fun a => Fin.ext (by
    match a with
    | ⟨0, _⟩ => exact lhs1_0 _ _
    | ⟨1, _⟩ => exact (lhs1_1 _ _).trans hk)
  have er : dot_S5000x100_S100x100_S5000x100_1_0_0_1_n_n.rhsIdx (ix2 p q) ((ValueIdx.contrEquiv1 dot_S5000x100_S100x100_S5000x100_1_0_0_1_n_n 100 rfl rfl).symm k) = ix2 k q := funext fun a => Fin.ext (by
    match a with
    | ⟨0, _⟩ => exact (rhs1_0 _ _).trans hk
    | ⟨1, _⟩ => exact rhs1_1 _ _)
  rw [el, er]

/-- THE BODY'S RESULT AT AN ENTRY: entry `(p, q)` of what the body stores is the sum over `k` of the input block's
    `(p, k)` times the weight's `(k, q)`, plus entry `q` of the bias row (the roundings on the way into the product
    are the identity over the extended reals). -/
theorem pay1_apply (x0 : Vec Ideal S5000x100 .f32) (x1 : Vec Ideal S100x100 .f32) (x2 : Vec Ideal S1x100 .f32)
    (p : Fin 5000) (q : Fin 100) :
    k1_pay1 (F := Ideal) x0 x1 x2 (ix2 p q) = (∑ k : Fin 100, x0 (ix2 p k) * x1 (ix2 k q)) + x2 (ix2 (0 : Fin 1) q) := by
  unfold k1_pay1
  refine (addf_apply _ _ (ix2 p q)).trans ?_
  rw [shapeCast_self]
  refine congrArg₂ (· + ·) ?_ ?_
  · exact matmul1_apply _ _ p q
  · exact broadcastTo_1b_ab_apply x2 broadcasts_S1x100_S5000x100 p q

/-- The block indices over the grid: at point `t` the input and the output are at row block `t`, column block `0`;
    the weight matrix and the bias row are at their one block. -/
theorem blocks1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of `linear` of the three arrays as the launch finds them: entry `(p, q)`
    of the block is entry `(5000 t + p, q)` of the array, and the input block's row `p` is the input's row `5000 t + p`. -/
theorem flushed1_eq (c : Dev nD) (t : Fin cfg1.N) :
    (dat1 (F := Ideal) V c).flushed 3 t
      = ((cfg1.win 3).blk t).view.read (Elt Ideal) (linear (V c main_arg0) (V c main_arg10) (V c main_v12)) := by
  show (cfg1.win 3).cut (grid1.coords t) ((dat1 V c).after 3 t) = _
  rw [after1_3]
  unfold out1_3
  rw [View.canon_unit_zero zero_offsets]
  simp only [View.ld_unit_zero (S := S5000x100) zero_offsets, View.ld_unit_zero (S := S100x100) zero_offsets,
    View.ld_unit_zero (S := S1x100) zero_offsets]
  obtain ⟨e00, e01, e10, e11, e20, e21, e30, e31⟩ := blocks1 t
  funext j
  obtain ⟨p, q, rfl⟩ : ∃ (p : Fin 5000) (q : Fin 100), j = ix2 p q := ⟨j 0, j 1, eq_ix2 j⟩
  show k1_pay1 (F := Ideal) (iblk1 V c 0 t) (iblk1 V c 1 t) (iblk1 V c 2 t) (ix2 p q)
    = linear (V c main_arg0) (V c main_arg10) (V c main_v12) (((cfg1.win 3).blk t).view.emb (ix2 p q))
  refine (pay1_apply _ _ _ p q).trans ?_
  unfold linear
  refine congrArg₂ (· + ·) (Finset.sum_congr rfl fun k _ => congrArg₂ (· * ·) ?_ ?_) ?_
  · show V c main_arg0 (((cfg1.win 0).blk t).view.emb (ix2 p k))
      = V c main_arg0 (ix2 (r2 (((cfg1.win 3).blk t).view.emb (ix2 p q))) k)
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 100 + 1 * k.val = k.val; omega
  · show V c main_arg10 (((cfg1.win 1).blk t).view.emb (ix2 k q))
      = V c main_arg10 (ix2 k (c2 (((cfg1.win 3).blk t).view.emb (ix2 p q))))
    refine congrArg _ (funext fun a => Fin.ext ?_)
    match a with
    | ⟨0, _⟩ => show win1_1.index t (0 : Fin 2) * 100 + 1 * k.val = k.val; omega
    | ⟨1, _⟩ => show win1_1.index t (1 : Fin 2) * 100 + 1 * q.val = win1_3.index t (1 : Fin 2) * 100 + 1 * q.val; omega
  · show V c main_v12 (((cfg1.win 2).blk t).view.emb (ix2 (0 : Fin 1) q))
      = V c main_v12 (ix2 (0 : Fin 1) (c2 (((cfg1.win 3).blk t).view.emb (ix2 p q))))
    refine congrArg _ (funext fun a => Fin.ext ?_)
    match a with
    | ⟨0, _⟩ => show win1_2.index t (0 : Fin 2) * 1 + 1 * 0 = 0; omega
    | ⟨1, _⟩ => show win1_2.index t (1 : Fin 2) * 100 + 1 * q.val = win1_3.index t (1 : Fin 2) * 100 + 1 * q.val; omega

/-- An entry of the output is in point `t`'s block iff each coordinate is in the block's range on its axis. -/
theorem mem_blk1 (t : Fin cfg1.N) (i : S50000x100.Idx) :
    i ∈ ((cfg1.win 3).blk t).view.set ↔ ∀ a : Fin 2, win1_3.index t a * S5000x100.size a ≤ (i a).val
      ∧ (i a).val < win1_3.index t a * S5000x100.size a + S5000x100.size a := by
  show i ∈ ((View.whole main_v13).slice (win1_3.rect t)).set ↔ _
  rw [View.set_slice_whole, Rect.mem_set_unit]
  exact Iff.rfl

/-- THE BLOCKS FILL THE OUTPUT: row `r` lies in the block of the point `r / 5000`. -/
theorem cover1 (i : S50000x100.Idx) :
    ∃ t : Fin cfg1.N, (cfg1.win 3).flush t = true ∧ i ∈ ((cfg1.win 3).blk t).view.set := by
  have hi0 : (i 0).val < 50000 := (i 0).isLt
  have hi1 : (i 1).val < 100 := (i 1).isLt
  have hN : (i 0).val / 5000 < grid1.N := by rw [N_1]; omega
  obtain ⟨-, -, -, -, -, -, e30, e31⟩ := blocks1 ⟨(i 0).val / 5000, hN⟩
  have e30' : win1_3.index ⟨(i 0).val / 5000, hN⟩ (0 : Fin 2) = (i 0).val / 5000 := e30
  refine ⟨⟨(i 0).val / 5000, hN⟩, flush1_3 _, ?_⟩
  rw [mem_blk1]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 100 ≤ (i 1).val
      ∧ (i 1).val < win1_3.index ⟨(i 0).val / 5000, hN⟩ (1 : Fin 2) * 100 + 100
    omega

/-- THE OUTPUT after the launch is `linear` of the input, the weight matrix and the bias row as the launch found them. -/
theorem region1_out (c : Dev nD) :
    (dat1 (F := Ideal) V c).arrAt 3 cfg1.N = linear (V c main_arg0) (V c main_arg10) (V c main_v12) :=
  (dat1 (F := Ideal) V c).arrAt_eq_of_cover 3 (linear (V c main_arg0) (V c main_arg10) (V c main_v12))
    (fun t _ => flushed1_eq V c t) cover1

end Cert.KernelIdeal.RegionValue

end
-- ==== Proof.RegionAttn.lean ====
/-
  The attention kernel's two outputs as whole-array functions of the arrays the launch finds.

  The launch walks 160 row blocks of 5000 rows. Block `t` of each of the three row-blocked operands holds rows
  `5000 t … 5000 t + 4999` and all 200 columns; the attention row is one constant block. Entry `(p, q)` of a block of
  the first output is the sum of the three operand blocks at `(p, q)`; entry `(p, h)` of a block of the second output
  depends on row `p` of the three operand blocks and on the attention row: it is the exponential of the leaky rectifier
  of the sum, over the 100 columns of head `h`, of the summed entry times the attention row's entry. Since a block's row
  `p` is row `5000 t + p` of the array and the 160 blocks cover all 800000 rows, each output array is one function
  of the operand arrays, entry by entry.
-/
import proofs.«172343_j88055419502884_1_alg».proof.Proof.Gen.KernelIdeal.Frame
import proofs.«172343_j88055419502884_1_alg».proof.Proof.RegionSpec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.RegionValue
open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)
variable (V : (c : Dev nD) → (b : Ref sig .tc) → Buf (Elt Ideal) ((c : Thread nD τ).loc b))

/-! ## The block index maps over the grid -/

/-- Both offsets of a whole-block access are zero. -/
theorem attn_zero_offsets : (![0, 0] : Fin 2 → Nat) = fun _ => 0 := funext fun a => by fin_cases a <;> rfl

/-- At point `t` every row-blocked window is at block `(t, 0)` and the attention row at block `(0, 0)`. -/
theorem attn_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The first output: the sum of the three operands -/

/-- The stored block is the entrywise sum of the three loaded blocks. -/
theorem attn_sum_payload (x0 x1 x2 : Vec Ideal S5000x200 .f32) :
    k2_pay1 x0 x1 x2 = fun j => x0 j + x1 j + x2 j := by
  unfold k2_pay1
  simp only [shapeCast_self]
  rfl

/-- What point `t` writes back to the first output is block `t` of the sum of the three operand arrays. -/
theorem attn_sum_flushed (c : Dev nD) (t : Fin cfg2.N) :
    (dat2 (F := Ideal) V c).flushed 4 t
      = ((cfg2.win 4).blk t).view.read (Elt Ideal) (sum3 (V c main_v29) (V c main_v36) (V c main_v43)) := by
  show (cfg2.win 4).cut (grid2.coords t) ((dat2 (F := Ideal) V c).after 4 t) = _
  rw [after2_4]
  unfold out2_4
  rw [View.canon_unit_zero attn_zero_offsets]
  simp only [View.ld_unit_zero (S := S5000x200) attn_zero_offsets]
  rw [attn_sum_payload]
  obtain ⟨e00, e01, e10, e11, e20, e21, -, -, e40, e41, -, -⟩ := attn_index_facts t
  funext j
  have h0 : ((cfg2.win 0).blk t).view.emb j = ((cfg2.win 4).blk t).view.emb j := by
    funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 200 + 1 * (j 1).val = win2_4.index t (1 : Fin 2) * 200 + 1 * (j 1).val; omega
  have h1 : ((cfg2.win 1).blk t).view.emb j = ((cfg2.win 4).blk t).view.emb j := by
    funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 200 + 1 * (j 1).val = win2_4.index t (1 : Fin 2) * 200 + 1 * (j 1).val; omega
  have h2 : ((cfg2.win 2).blk t).view.emb j = ((cfg2.win 4).blk t).view.emb j := by
    funext a; apply Fin.ext
    match a with
    | ⟨0, _⟩ => show win2_2.index t (0 : Fin 2) * 5000 + 1 * (j 0).val = win2_4.index t (0 : Fin 2) * 5000 + 1 * (j 0).val; omega
    | ⟨1, _⟩ => show win2_2.index t (1 : Fin 2) * 200 + 1 * (j 1).val = win2_4.index t (1 : Fin 2) * 200 + 1 * (j 1).val; omega
  have key : ∀ (a b d : A2 800000 200) (i0 i1 i2 i : S800000x200.Idx), i0 = i → i1 = i → i2 = i →
      a i0 + b i1 + d i2 = sum3 a b d i := by
    intro a b d i0 i1 i2 i e0 e1 e2; rw [e0, e1, e2]; rfl
  exact key (V c main_v29) (V c main_v36) (V c main_v43) _ _ _ _ h0 h1 h2

/-- An index of the first output is in point `t`'s block iff each coordinate is in the block's range on its axis. -/
theorem attn_sum_mem_blk (t : Fin cfg2.N) (i : S800000x200.Idx) :
    i ∈ ((cfg2.win 4).blk t).view.set ↔ ∀ a : Fin 2, win2_4.index t a * S5000x200.size a ≤ (i a).val
      ∧ (i a).val < win2_4.index t a * S5000x200.size a + S5000x200.size a := by
  show i ∈ ((View.whole main_v45_0).slice (win2_4.rect t)).set ↔ _
  rw [View.set_slice_whole, Rect.mem_set_unit]
  exact Iff.rfl

/-- Every index of the first output lies in the block of the point `row / 5000`. -/
theorem attn_sum_cover (i : S800000x200.Idx) :
    ∃ t : Fin cfg2.N, (cfg2.win 4).flush t = true ∧ i ∈ ((cfg2.win 4).blk t).view.set := by
  have hi0 : (i 0).val < 800000 := (i 0).isLt
  have hi1 : (i 1).val < 200 := (i 1).isLt
  have hN : cfg2.N = 160 := N_2
  let t : Fin cfg2.N := ⟨(i 0).val / 5000, by rw [hN]; omega⟩
  obtain ⟨-, -, -, -, -, -, -, -, e40, e41, -, -⟩ := attn_index_facts t
  have ht : t.val = (i 0).val / 5000 := rfl
  refine ⟨t, flush2_4 t, ?_⟩
  rw [attn_sum_mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 200 ≤ (i 1).val ∧ (i 1).val < win2_4.index t (1 : Fin 2) * 200 + 200; omega

/-- THE FIRST OUTPUT after the launch: the entrywise sum of the three operand arrays. -/
theorem region2_sum (c : Dev nD) :
    (dat2 (F := Ideal) V c).arrAt 4 cfg2.N = sum3 (V c main_v29) (V c main_v36) (V c main_v43) :=
  (dat2 (F := Ideal) V c).arrAt_eq_of_cover 4 (sum3 (V c main_v29) (V c main_v36) (V c main_v43))
    (fun t _ => attn_sum_flushed V c t) attn_sum_cover

/-! ## The second output: the exponential of the leaky rectifier of the head logits -/

/-- The product block: the summed entry times the attention row's entry in the same column. -/
theorem attn_prod_apply (x0 x1 x2 : Vec Ideal S5000x200 .f32) (x3 : Vec Ideal S1x200 .f32) (p : Fin 5000) (q : Fin 200) :
    mulf (k2_pay1 x0 x1 x2)
        (broadcastTo S5000x200 (shapeCast S1x200 x3 shapeCasts_S1x200_S1x200) broadcasts_S1x200_S5000x200) (ix2 p q)
      = (x0 (ix2 p q) + x1 (ix2 p q) + x2 (ix2 p q)) * x3 (ix2 (0 : Fin 1) q) := by
  rw [mulf_apply, attn_sum_payload, shapeCast_self]
  exact congrArg _ (broadcastTo_1b_ab_apply x3 broadcasts_S1x200_S5000x200 p q)

/-- The row index over a one-coordinate index with column `o` put back is `(p, o)`. -/
theorem attn_lift (p : Fin 5000) (o : Fin 100) :
    reduces_S5000x100_S5000.lift (ix1 p) o = ix2 p o := by
  funext c
  match c with
  | ⟨0, _⟩ => rfl
  | ⟨1, _⟩ => rfl

/-- A row's sum over the 100 columns from `off`, kept as a one-column block: at `(p, 0)` it is the sum over `o`
    of the block's entry `(p, off + o)`. -/
theorem attn_head_sum (X : FVec Ideal S5000x200 .f32) (off : Nat) (hs : S5000x200.Slices ![0, off] S5000x100)
    (hφ : FKind.Formats .f32) (hacc : (0x00000000#32 : BitVec 32) = FKind.add.neutral .f32 hφ)
    (col : Fin 100 → Fin 200) (hcol : ∀ o, (col o).val = off + o.val) (p : Fin 5000) (u : Fin 1) :
    shapeCast S5000x1 (multiReduction (F := Ideal) .add [1] S5000 (extractStridedSlice S5000x100 ![0, off] X hs)
        0x00000000#32 reduces_S5000x100_S5000 hφ hacc) shapeCasts_S5000_S5000x1 (ix2 p u)
      = ∑ o : Fin 100, X (ix2 p (col o)) := by
  refine (shapeCast_apply _ shapeCasts_S5000_S5000x1 (ix2 p u) (ix1 p) ?_).trans ?_
  · rw [Shape.rowMajor_val_two, Shape.rowMajor_val_one]
    show p.val = p.val * 1 + u.val
    omega
  refine (Ideal.multiReduction_add_single _ _ reduces_S5000x100_S5000 hφ hacc (ix1 p)).trans ?_
  show ∑ o : Fin 100, _ = _
  refine Finset.sum_congr rfl fun o _ => ?_
  rw [attn_lift]
  exact slice2_axis1_apply off X hs p o (col o) (hcol o)

/-- The block of head logits: the product block's two half-row sums side by side. -/
def attn_logits (x0 x1 x2 : Vec Ideal S5000x200 .f32) (x3 : Vec Ideal S1x200 .f32) : FVec Ideal S5000x2 .f32 :=
  concatenate S5000x2 1
    [⟨S5000x1, shapeCast S5000x1 (multiReduction (F := Ideal) .add [1] S5000
        (extractStridedSlice S5000x100 ![0, 0]
          (mulf (k2_pay1 x0 x1 x2)
            (broadcastTo S5000x200 (shapeCast S1x200 x3 shapeCasts_S1x200_S1x200) broadcasts_S1x200_S5000x200))
          slices_S5000x200_o0_0_S5000x100)
        0x00000000#32 reduces_S5000x100_S5000 (.inl rfl) rfl) shapeCasts_S5000_S5000x1⟩,
     ⟨S5000x1, shapeCast S5000x1 (multiReduction (F := Ideal) .add [1] S5000
        (extractStridedSlice S5000x100 ![0, 100]
          (mulf (k2_pay1 x0 x1 x2)
            (broadcastTo S5000x200 (shapeCast S1x200 x3 shapeCasts_S1x200_S1x200) broadcasts_S1x200_S5000x200))
          slices_S5000x200_o0_100_S5000x100)
        0x00000000#32 reduces_S5000x100_S5000 (.inl rfl) rfl) shapeCasts_S5000_S5000x1⟩]
    concatenates_S5000x1_S5000x1_S5000x2_d1

/-- The stored block is, entry by entry, the exponential of the leaky rectifier of the head logits. -/
theorem attn_weight_unfold (x0 x1 x2 : Vec Ideal S5000x200 .f32) (x3 : Vec Ideal S1x200 .f32) :
    k2_pay2 x0 x1 x2 x3 = fun j => Ideal.exp (leaky (attn_logits x0 x1 x2 x3 j)) := rfl

/-- A head logit: over the head's 100 columns, the sum of the summed entry times the attention row's entry. -/
theorem attn_logits_apply (x0 x1 x2 : Vec Ideal S5000x200 .f32) (x3 : Vec Ideal S1x200 .f32) (p : Fin 5000) (h : Fin 2) :
    attn_logits x0 x1 x2 x3 (ix2 p h)
      = ∑ o : Fin 100, (x0 (ix2 p (headCol h o)) + x1 (ix2 p (headCol h o)) + x2 (ix2 p (headCol h o)))
          * x3 (ix2 (0 : Fin 1) (headCol h o)) := by
  unfold attn_logits
  match h with
  | ⟨0, _⟩ =>
    refine (concatenate_pair_apply_left (t := S5000x2) (s₁ := S5000x1) (s₂ := S5000x1) (1 : Fin 2) _ _
      concatenates_S5000x1_S5000x1_S5000x2_d1
      (ix2 p (⟨0, by omega⟩ : Fin 2)) rfl (ix2 p (0 : Fin 1) : S5000x1.Idx)
      (fun b => match b with | ⟨0, _⟩ => rfl | ⟨1, _⟩ => rfl)).trans ?_
    refine (attn_head_sum _ 0 slices_S5000x200_o0_0_S5000x100 (.inl rfl) rfl (headCol ⟨0, by omega⟩)
      (fun o => by show 100 * 0 + o.val = 0 + o.val; omega) p 0).trans ?_
    exact Finset.sum_congr rfl fun o _ => attn_prod_apply x0 x1 x2 x3 p _
  | ⟨1, _⟩ =>
    refine (concatenate_pair_apply_right (t := S5000x2) (s₁ := S5000x1) (s₂ := S5000x1) (1 : Fin 2) _ _
      concatenates_S5000x1_S5000x1_S5000x2_d1
      (ix2 p (⟨1, by omega⟩ : Fin 2)) rfl rfl (ix2 p (0 : Fin 1) : S5000x1.Idx)
      (fun b => match b with | ⟨0, _⟩ => fun _ => rfl | ⟨1, _⟩ => fun hb => absurd rfl hb) rfl).trans ?_
    refine (attn_head_sum _ 100 slices_S5000x200_o0_100_S5000x100 (.inl rfl) rfl (headCol ⟨1, by omega⟩)
      (fun o => by show 100 * 1 + o.val = 100 + o.val; omega) p 0).trans ?_
    exact Finset.sum_congr rfl fun o _ => attn_prod_apply x0 x1 x2 x3 p _

/-- The stored block at row `p` and head `h`. -/
theorem attn_weight_payload (x0 x1 x2 : Vec Ideal S5000x200 .f32) (x3 : Vec Ideal S1x200 .f32) (p : Fin 5000) (h : Fin 2) :
    k2_pay2 x0 x1 x2 x3 (ix2 p h)
      = Ideal.exp (leaky (∑ o : Fin 100,
          (x0 (ix2 p (headCol h o)) + x1 (ix2 p (headCol h o)) + x2 (ix2 p (headCol h o)))
            * x3 (ix2 (0 : Fin 1) (headCol h o)))) := by
  exact (congrFun (attn_weight_unfold x0 x1 x2 x3) (ix2 p h)).trans
    (congrArg (fun a => Ideal.exp (leaky a)) (attn_logits_apply x0 x1 x2 x3 p h))

/-- The edge weight at an index `i`, from the entries the head's column sum reads: row `r2 i` of the three operands
    and the attention row, at the columns of head `c2 i`. -/
theorem attn_edgeWeight_of_rows (a b d : A2 800000 200) (att : A2 1 200) (i : S800000x2.Idx) (h : Fin 2)
    (y0 y1 y2 : Fin 200 → S800000x200.Idx) (y3 : Fin 200 → S1x200.Idx)
    (hh : h = c2 i)
    (h0 : ∀ q, y0 q = ix2 (r2 i) q) (h1 : ∀ q, y1 q = ix2 (r2 i) q) (h2 : ∀ q, y2 q = ix2 (r2 i) q)
    (h3 : ∀ q, y3 q = ix2 (0 : Fin 1) q) :
    Ideal.exp (leaky (∑ o : Fin 100,
        (a (y0 (headCol h o)) + b (y1 (headCol h o)) + d (y2 (headCol h o))) * att (y3 (headCol h o))))
      = edgeWeight a b d att i := by
  subst hh
  simp only [h0, h1, h2, h3]
  rfl

/-- What point `t` writes back to the second output is block `t` of the edge weights of the operand arrays. -/
theorem attn_weight_flushed (c : Dev nD) (t : Fin cfg2.N) :
    (dat2 (F := Ideal) V c).flushed 5 t
      = ((cfg2.win 5).blk t).view.read (Elt Ideal)
          (edgeWeight (V c main_v29) (V c main_v36) (V c main_v43) (V c main_v44)) := by
  show (cfg2.win 5).cut (grid2.coords t) ((dat2 (F := Ideal) V c).after 5 t) = _
  rw [after2_5]
  unfold out2_5
  rw [View.canon_unit_zero attn_zero_offsets]
  simp only [View.ld_unit_zero (S := S5000x200) attn_zero_offsets, View.ld_unit_zero (S := S1x200) attn_zero_offsets]
  obtain ⟨e00, e01, e10, e11, e20, e21, e30, e31, -, -, e50, e51⟩ := attn_index_facts t
  funext j
  obtain ⟨p, h, rfl⟩ : ∃ (p : Fin 5000) (h : Fin 2), j = ix2 p h := ⟨j 0, j 1, eq_ix2 j⟩
  refine (attn_weight_payload (iblk2 V c 0 t) (iblk2 V c 1 t) (iblk2 V c 2 t) (iblk2 V c 3 t) p h).trans ?_
  refine attn_edgeWeight_of_rows (V c main_v29) (V c main_v36) (V c main_v43) (V c main_v44)
    (((cfg2.win 5).blk t).view.emb (ix2 p h)) h
    (fun q => ((cfg2.win 0).blk t).view.emb (ix2 p q)) (fun q => ((cfg2.win 1).blk t).view.emb (ix2 p q))
    (fun q => ((cfg2.win 2).blk t).view.emb (ix2 p q)) (fun q => ((cfg2.win 3).blk t).view.emb (ix2 (0 : Fin 1) q))
    ?_ ?_ ?_ ?_ ?_
  · apply Fin.ext
    show h.val = win2_5.index t (1 : Fin 2) * 2 + 1 * h.val
    omega
  · intro q; funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 200 + 1 * q.val = q.val; omega
  · intro q; funext a; apply Fin.ext
    match a with
    | ⟨0, _⟩ => show win2_1.index t (0 : Fin 2) * 5000 + 1 * p.val = win2_5.index t (0 : Fin 2) * 5000 + 1 * p.val; omega
    | ⟨1, _⟩ => show win2_1.index t (1 : Fin 2) * 200 + 1 * q.val = q.val; omega
  · intro q; funext a; apply Fin.ext
    match a with
    | ⟨0, _⟩ => show win2_2.index t (0 : Fin 2) * 5000 + 1 * p.val = win2_5.index t (0 : Fin 2) * 5000 + 1 * p.val; omega
    | ⟨1, _⟩ => show win2_2.index t (1 : Fin 2) * 200 + 1 * q.val = q.val; omega
  · intro q; funext a; apply Fin.ext
    match a with
    | ⟨0, _⟩ => show win2_3.index t (0 : Fin 2) * 1 + 1 * 0 = 0; omega
    | ⟨1, _⟩ => show win2_3.index t (1 : Fin 2) * 200 + 1 * q.val = q.val; omega

/-- An index of the second output is in point `t`'s block iff each coordinate is in the block's range on its axis. -/
theorem attn_weight_mem_blk (t : Fin cfg2.N) (i : S800000x2.Idx) :
    i ∈ ((cfg2.win 5).blk t).view.set ↔ ∀ a : Fin 2, win2_5.index t a * S5000x2.size a ≤ (i a).val
      ∧ (i a).val < win2_5.index t a * S5000x2.size a + S5000x2.size a := by
  show i ∈ ((View.whole main_v45_1).slice (win2_5.rect t)).set ↔ _
  rw [View.set_slice_whole, Rect.mem_set_unit]
  exact Iff.rfl

/-- Every index of the second output lies in the block of the point `row / 5000`. -/
theorem attn_weight_cover (i : S800000x2.Idx) :
    ∃ t : Fin cfg2.N, (cfg2.win 5).flush t = true ∧ i ∈ ((cfg2.win 5).blk t).view.set := by
  have hi0 : (i 0).val < 800000 := (i 0).isLt
  have hi1 : (i 1).val < 2 := (i 1).isLt
  have hN : cfg2.N = 160 := N_2
  let t : Fin cfg2.N := ⟨(i 0).val / 5000, by rw [hN]; omega⟩
  obtain ⟨-, -, -, -, -, -, -, -, -, -, e50, e51⟩ := attn_index_facts t
  have ht : t.val = (i 0).val / 5000 := rfl
  refine ⟨t, flush2_5 t, ?_⟩
  rw [attn_weight_mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 2 ≤ (i 1).val ∧ (i 1).val < win2_5.index t (1 : Fin 2) * 2 + 2; omega

/-- THE SECOND OUTPUT after the launch: per row and head, the exponential of the leaky rectifier of the head logit of the
    sum of the three operand arrays against the attention row. -/
theorem region2_weight (c : Dev nD) :
    (dat2 (F := Ideal) V c).arrAt 5 cfg2.N
      = edgeWeight (V c main_v29) (V c main_v36) (V c main_v43) (V c main_v44) :=
  (dat2 (F := Ideal) V c).arrAt_eq_of_cover 5 (edgeWeight (V c main_v29) (V c main_v36) (V c main_v43) (V c main_v44))
    (fun t _ => attn_weight_flushed V c t) attn_weight_cover

end Cert.KernelIdeal.RegionValue

end
-- ==== Proof.RegionTail.lean ====
/-
  Two kernel launches as whole-array functions.

  Each of the two launches below walks a one-axis grid; point `t` handles row block `t`: rows `5000 t` to
  `5000 t + 4999` of every row-blocked operand, all columns. An entry of a block therefore sits in its array at
  row `5000 t + p` and column `q`, where `(p, q)` is its place inside the block, and the blocks of the output,
  laid one under the other, fill the output array exactly once.

  Inside a block the body is entrywise in the row: entry `(p, q)` of what it stores depends only on row `p` of the
  blocks it loaded. So the output array after the launch is one function of the arrays the launch found, entry by
  entry, with no trace of the tiling:

    * the last launch stores the hyperbolic tangent of the sum of its two operands;
    * the weighting launch stores each entry of its first operand times the entry of its second operand in the same
      row and in the column of the entry's head (columns 0 to 99 are head 0, columns 100 to 199 head 1).
-/
import proofs.«172343_j88055419502884_1_alg».proof.Proof.Gen.KernelIdeal.Frame
import proofs.«172343_j88055419502884_1_alg».proof.Proof.RegionSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.KernelIdeal.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The last launch: the hyperbolic tangent of a sum -/

/-- The body's payload at an entry: the hyperbolic tangent of the sum of the two loaded blocks' entries there. -/
theorem pay4_apply (x0 x1 : Vec Ideal S5000x200 .f32) (j : S5000x200.Idx) :
    k4_pay1 x0 x1 j = Ideal.tanh (x0 j + x1 j) := by
  unfold k4_pay1
  rw [shapeCast_self, shapeCast_self]
  rfl

/-- The block index of every window at every point of the grid: row block `t`, column block 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Reading two arrays at one place and taking the hyperbolic tangent of the sum is the whole-array function there. -/
theorem tanhSum_at (a b : A2 50000 200) (i0 i1 i2 : S50000x200.Idx) (h0 : i0 = i2) (h1 : i1 = i2) :
    Ideal.tanh (a i0 + b i1) = tanhSum a b i2 := by
  rw [h0, h1]; rfl

/-- What point `t` writes back is block `t` of the hyperbolic tangent of the sum of the two operand arrays. -/
theorem flushed4_eq (c : Dev nD) (t : Fin cfg4.N) :
    (dat4 (F := Ideal) V c).flushed 2 t
      = ((cfg4.win 2).blk t).view.read (Elt Ideal) (tanhSum (V c main_v61) (V c main_v60)) := by
  show (cfg4.win 2).cut (grid4.coords t) ((dat4 V c).after 2 t) = _
  rw [after4_2]
  unfold out4_2
  rw [View.canon_unit_zero hz]
  simp only [View.ld_unit_zero (S := S5000x200) hz]
  obtain ⟨e0, e1, e2, e3, e4, e5⟩ := idx_facts4 t
  funext j
  refine (pay4_apply _ _ j).trans ?_
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 200 + 1 * (j 1).val = win4_2.index t (1 : Fin 2) * 200 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 200 + 1 * (j 1).val = win4_2.index t (1 : Fin 2) * 200 + 1 * (j 1).val; omega
  exact tanhSum_at (V c main_v61) (V c main_v60) _ _ _ h0 h1

/-- An entry of the output array is in point `t`'s block iff each coordinate is in the block's range on its axis. -/
theorem mem_blk4 (t : Fin cfg4.N) (i : S50000x200.Idx) :
    i ∈ ((cfg4.win 2).blk t).view.set ↔ ∀ a : Fin 2, win4_2.index t a * S5000x200.size a ≤ (i a).val ∧ (i a).val < win4_2.index t a * S5000x200.size a + S5000x200.size a := by
  show i ∈ ((View.whole main_v62).slice (win4_2.rect t)).set ↔ _
  rw [View.set_slice_whole, Rect.mem_set_unit]
  exact Iff.rfl

/-- Every entry of the output array lies in the block of the point numbered by its row divided by 5000. -/
theorem cover4 (i : S50000x200.Idx) :
    ∃ t : Fin cfg4.N, (cfg4.win 2).flush t = true ∧ i ∈ ((cfg4.win 2).blk t).view.set := by
  have hi0 : (i 0).val < 50000 := (i 0).isLt
  have hi1 : (i 1).val < 200 := (i 1).isLt
  have hN : (i 0).val / 5000 < cfg4.N := by show (i 0).val / 5000 < 10; omega
  obtain ⟨e0, e1, e2, e3, e4, e5⟩ := idx_facts4 ⟨(i 0).val / 5000, hN⟩
  have ht : (⟨(i 0).val / 5000, hN⟩ : Fin cfg4.N).val = (i 0).val / 5000 := rfl
  refine ⟨⟨(i 0).val / 5000, hN⟩, flush4_2 _, ?_⟩
  rw [mem_blk4]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    omega
  | ⟨1, _⟩ =>
    show win4_2.index ⟨(i 0).val / 5000, hN⟩ (1 : Fin 2) * 200 ≤ (i 1).val ∧ (i 1).val < win4_2.index ⟨(i 0).val / 5000, hN⟩ (1 : Fin 2) * 200 + 200
    omega

/-- The output array after the last launch: the hyperbolic tangent of the entrywise sum of the two operand arrays as the
    launch found them. -/
theorem region4_out (c : Dev nD) :
    (dat4 (F := Ideal) V c).arrAt 2 cfg4.N = tanhSum (V c main_v61) (V c main_v60) :=
  (dat4 (F := Ideal) V c).arrAt_eq_of_cover 2 (tanhSum (V c main_v61) (V c main_v60))
    (fun t _ => flushed4_eq V c t) cover4

/-! ## The weighting launch: each head's columns scaled by that head's weight -/

/-- The body's payload at an entry: the first block's entry there times the second block's entry in the same row and in
    the column of the entry's head. Columns 0 to 99 come from the first piece of the concatenation (head 0), columns
    100 to 199 from the second (head 1). -/
theorem pay3_apply (x0 : Vec Ideal S5000x200 .f32) (x1 : Vec Ideal S5000x2 .f32) (p : Fin 5000) (q : Fin 200) :
    k3_pay1 x0 x1 (ix2 p q) = x0 (ix2 p q) * x1 (ix2 p (headOf q)) := by
  unfold k3_pay1
  rw [shapeCast_self, shapeCast_self]
  by_cases hq : q.val < 100
  · refine (concatenate_pair_apply_left (t := S5000x200) (s₁ := S5000x100) (s₂ := S5000x100) (1 : Fin 2) _ _
      concatenates_S5000x100_S5000x100_S5000x200_d1 (ix2 p q) rfl (ix2 p (⟨q.val, hq⟩ : Fin 100)) (fun b => by
        match b with
        | ⟨0, _⟩ => rfl
        | ⟨1, _⟩ => rfl)).trans ?_
    refine (mulf_apply _ _ _).trans ?_
    have hA : extractStridedSlice S5000x100 ![0, 0] x0 slices_S5000x200_o0_0_S5000x100 (ix2 p (⟨q.val, hq⟩ : Fin 100))
        = x0 (ix2 p q) :=
      extractStridedSlice_apply _ x0 _ _ (ix2 p q) (fun a => by
        match a with
        | ⟨0, _⟩ => show p.val = 0 + p.val; omega
        | ⟨1, _⟩ => show q.val = 0 + q.val; omega)
    have hB : broadcastTo S5000x100 (extractStridedSlice S5000x1 ![0, 0] x1 slices_S5000x2_o0_0_S5000x1)
        broadcasts_S5000x1_S5000x100 (ix2 p (⟨q.val, hq⟩ : Fin 100)) = x1 (ix2 p (headOf q)) := by
      refine (broadcastTo_apply _ _ _ (ix2 p (0 : Fin 1)) (fun a => by
        match a with
        | ⟨0, _⟩ => rfl
        | ⟨1, _⟩ => rfl)).trans ?_
      exact extractStridedSlice_apply _ x1 _ _ (ix2 p (headOf q)) (fun a => by
        match a with
        | ⟨0, _⟩ => show p.val = 0 + p.val; omega
        | ⟨1, _⟩ => show q.val / 100 = 0 + 0; omega)
    rw [hA, hB]
  · have hq2 : q.val - 100 < 100 := by have := q.isLt; omega
    refine (concatenate_pair_apply_right (t := S5000x200) (s₁ := S5000x100) (s₂ := S5000x100) (1 : Fin 2) _ _
      concatenates_S5000x100_S5000x100_S5000x200_d1 (ix2 p q) rfl rfl (ix2 p (⟨q.val - 100, hq2⟩ : Fin 100))
      (fun b hb => by
        match b with
        | ⟨0, _⟩ => rfl
        | ⟨1, _⟩ => exact absurd rfl hb)
      (by show q.val - 100 + 100 = q.val; omega)).trans ?_
    refine (mulf_apply _ _ _).trans ?_
    have hA : extractStridedSlice S5000x100 ![0, 100] x0 slices_S5000x200_o0_100_S5000x100 (ix2 p (⟨q.val - 100, hq2⟩ : Fin 100))
        = x0 (ix2 p q) :=
      extractStridedSlice_apply _ x0 _ _ (ix2 p q) (fun a => by
        match a with
        | ⟨0, _⟩ => show p.val = 0 + p.val; omega
        | ⟨1, _⟩ => show q.val = 100 + (q.val - 100); omega)
    have hB : broadcastTo S5000x100 (extractStridedSlice S5000x1 ![0, 1] x1 slices_S5000x2_o0_1_S5000x1)
        broadcasts_S5000x1_S5000x100 (ix2 p (⟨q.val - 100, hq2⟩ : Fin 100)) = x1 (ix2 p (headOf q)) := by
      refine (broadcastTo_apply _ _ _ (ix2 p (0 : Fin 1)) (fun a => by
        match a with
        | ⟨0, _⟩ => rfl
        | ⟨1, _⟩ => rfl)).trans ?_
      exact extractStridedSlice_apply _ x1 _ _ (ix2 p (headOf q)) (fun a => by
        match a with
        | ⟨0, _⟩ => show p.val = 0 + p.val; omega
        | ⟨1, _⟩ => show q.val / 100 = 1 + 0; have := q.isLt; omega)
    rw [hA, hB]

/-- The block index of every window at every point of the grid: row block `t`, column block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Reading the first array at a place and the second in that place's row and head column, and multiplying, is the
    whole-array function there. -/
theorem scaleHeads_at (a : A2 800000 200) (b : A2 800000 2) (i0 i2 : S800000x200.Idx) (i1 : S800000x2.Idx)
    (h0 : i0 = i2) (h1 : i1 = ix2 (r2 i2) (headOf (c2 i2))) : a i0 * b i1 = scaleHeads a b i2 := by
  rw [h0, h1]; rfl

/-- What point `t` writes back is block `t` of the head-scaled array: the entry at row `5000 t + p`, column `q` is
    the first operand there times the second operand at the same row and column `q / 100`. -/
theorem flushed3_eq (c : Dev nD) (t : Fin cfg3.N) :
    (dat3 (F := Ideal) V c).flushed 2 t
      = ((cfg3.win 2).blk t).view.read (Elt Ideal) (scaleHeads (V c main_v45_0) (V c main_v56)) := by
  show (cfg3.win 2).cut (grid3.coords t) ((dat3 V c).after 2 t) = _
  rw [after3_2]
  unfold out3_2
  rw [View.canon_unit_zero hz]
  simp only [View.ld_unit_zero (S := S5000x200) hz, View.ld_unit_zero (S := S5000x2) hz]
  obtain ⟨e0, e1, e2, e3, e4, e5⟩ := idx_facts3 t
  funext j
  obtain ⟨p, q, rfl⟩ : ∃ (p : Fin 5000) (q : Fin 200), j = ix2 p q := ⟨j 0, j 1, eq_ix2 (n0 := 5000) (n1 := 200) j⟩
  refine (pay3_apply _ _ p q).trans ?_
  have hq : q.val < 200 := q.isLt
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 200 + 1 * q.val = win3_2.index t (1 : Fin 2) * 200 + 1 * q.val; omega
  have h1 : ((cfg3.win 1).blk t).view.emb (ix2 p (headOf q))
      = ix2 (r2 (((cfg3.win 2).blk t).view.emb (ix2 p q))) (headOf (c2 (((cfg3.win 2).blk t).view.emb (ix2 p q)))) := by
    funext a; apply Fin.ext
    match a with
    | ⟨0, _⟩ => show win3_1.index t (0 : Fin 2) * 5000 + 1 * p.val = win3_2.index t (0 : Fin 2) * 5000 + 1 * p.val; omega
    | ⟨1, _⟩ => show win3_1.index t (1 : Fin 2) * 2 + 1 * (q.val / 100) = (win3_2.index t (1 : Fin 2) * 200 + 1 * q.val) / 100; omega
  exact scaleHeads_at (V c main_v45_0) (V c main_v56) _ _ _ h0 h1

/-- An entry of the output array is in point `t`'s block iff each coordinate is in the block's range on its axis. -/
theorem mem_blk3 (t : Fin cfg3.N) (i : S800000x200.Idx) :
    i ∈ ((cfg3.win 2).blk t).view.set ↔ ∀ a : Fin 2, win3_2.index t a * S5000x200.size a ≤ (i a).val ∧ (i a).val < win3_2.index t a * S5000x200.size a + S5000x200.size a := by
  show i ∈ ((View.whole main_v57).slice (win3_2.rect t)).set ↔ _
  rw [View.set_slice_whole, Rect.mem_set_unit]
  exact Iff.rfl

/-- Every entry of the output array lies in the block of the point numbered by its row divided by 5000. -/
theorem cover3 (i : S800000x200.Idx) :
    ∃ t : Fin cfg3.N, (cfg3.win 2).flush t = true ∧ i ∈ ((cfg3.win 2).blk t).view.set := by
  have hi0 : (i 0).val < 800000 := (i 0).isLt
  have hi1 : (i 1).val < 200 := (i 1).isLt
  have hN : (i 0).val / 5000 < cfg3.N := by show (i 0).val / 5000 < 160; omega
  obtain ⟨e0, e1, e2, e3, e4, e5⟩ := idx_facts3 ⟨(i 0).val / 5000, hN⟩
  have ht : (⟨(i 0).val / 5000, hN⟩ : Fin cfg3.N).val = (i 0).val / 5000 := rfl
  refine ⟨⟨(i 0).val / 5000, hN⟩, flush3_2 _, ?_⟩
  rw [mem_blk3]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    omega
  | ⟨1, _⟩ =>
    show win3_2.index ⟨(i 0).val / 5000, hN⟩ (1 : Fin 2) * 200 ≤ (i 1).val ∧ (i 1).val < win3_2.index ⟨(i 0).val / 5000, hN⟩ (1 : Fin 2) * 200 + 200
    omega

/-- The output array after the weighting launch: each entry of the first operand array times the entry of the second in
    the same row and in the column of the entry's head, both as the launch found them. -/
theorem region3_out (c : Dev nD) :
    (dat3 (F := Ideal) V c).arrAt 2 cfg3.N = scaleHeads (V c main_v45_0) (V c main_v56) :=
  (dat3 (F := Ideal) V c).arrAt_eq_of_cover 2 (scaleHeads (V c main_v45_0) (V c main_v56))
    (fun t _ => flushed3_eq V c t) cover3

end Cert.KernelIdeal.RegionValue

end
-- ==== Proof.KernelFold.lean ====
/-
  The idealized kernel program's final memory, read back to the twelve arguments.

  The program's memory after its ten segments is a fold: a host stretch applies its operations in order, a kernel launch
  replaces each of its output arrays by what its grid points wrote and keeps every other buffer. This module walks
  that fold once. Two kinds of step carry a buffer across a segment unchanged — a host stretch that does not write it,
  a launch none of whose windows it is —, and one lemma per buffer a later segment reads says what it holds there:
  a host operation's result by running the stretch, a launch's output array by the launch's closed form. The end of the
  walk is the first result as `kOut` of the arguments and the second as `relOut`.
-/
import proofs.«172343_j88055419502884_1_alg».proof.Proof.Gen.KernelIdeal.Frame
import proofs.«172343_j88055419502884_1_alg».proof.Proof.LibSsa
import proofs.«172343_j88055419502884_1_alg».proof.Proof.RegionSpec
import proofs.«172343_j88055419502884_1_alg».proof.Proof.KernelStages
import Idealize.ShloMosaic.Lib.StableHlo.Run
import proofs.«172343_j88055419502884_1_alg».proof.Proof.RegionLinear
import proofs.«172343_j88055419502884_1_alg».proof.Proof.RegionAttn
import proofs.«172343_j88055419502884_1_alg».proof.Proof.RegionTail

set_option maxRecDepth 16384

noncomputable section

namespace Cert.KernelIdeal.Fold

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The references the operations of host stretch 0 write, in order. -/
theorem writes0 : WritesIn (hostOps0 (F := Ideal)) [main_v0, main_v1, main_v2, main_v3, main_v4, main_v5, main_v6, main_cst, main_v7, main_v8] := by
  repeat' (first | exact WritesIn.nil | refine WritesIn.cons ?_ ?_)
  all_goals (simp only [nullary_writes, unary_writes, binary_writes, ternary_writes, reshape_writes]; exact Finset.Subset.refl _)

/-- The references the operations of host stretch 1 write, in order. -/
theorem writes1 : WritesIn (hostOps1 (F := Ideal)) [main_v10, main_v11, main_v12] := by
  repeat' (first | exact WritesIn.nil | refine WritesIn.cons ?_ ?_)
  all_goals (simp only [nullary_writes, unary_writes, binary_writes, ternary_writes, reshape_writes]; exact Finset.Subset.refl _)

/-- The references the operations of host stretch 2 write, in order. -/
theorem writes2 : WritesIn (hostOps2 (F := Ideal)) [main_v14, main_v15, main_v16, main_v17, main_v18, main_v19, main_v20, main_v21, main_v22, main_c, main_v23, main_v24, main_c_0, main_v25, main_v26, main_v27, main_v28, main_v29, main_c_1, main_v30, main_v31, main_c_2, main_v32, main_v33, main_v34, main_v35, main_v36, main_c_3, main_v37, main_v38, main_c_4, main_v39, main_v40, main_v41, main_v42, main_v43, main_v44] := by
  repeat' (first | exact WritesIn.nil | refine WritesIn.cons ?_ ?_)
  all_goals (simp only [nullary_writes, unary_writes, binary_writes, ternary_writes, reshape_writes]; exact Finset.Subset.refl _)

/-- The references the operations of host stretch 3 write, in order. -/
theorem writes3 : WritesIn (hostOps3 (F := Ideal)) [main_cst_5, main_v46, main_v47, main_v48, main_c_6, main_v49, main_v50, main_c_7, main_v51, main_v52, main_v53, main_v54, main_v55, main_v56] := by
  repeat' (first | exact WritesIn.nil | refine WritesIn.cons ?_ ?_)
  all_goals (simp only [nullary_writes, unary_writes, binary_writes, ternary_writes, reshape_writes]; exact Finset.Subset.refl _)

/-- The references the operations of host stretch 4 write, in order. -/
theorem writes4 : WritesIn (hostOps4 (F := Ideal)) [main_cst_8, main_v58, main_v59, main_v60, main_v61] := by
  repeat' (first | exact WritesIn.nil | refine WritesIn.cons ?_ ?_)
  all_goals (simp only [nullary_writes, unary_writes, binary_writes, ternary_writes, reshape_writes]; exact Finset.Subset.refl _)

/-- A buffer that host stretch 0 does not write holds after it what it held before. -/
theorem keepH0 (c : Dev nD) (b : Ref sig .tc) (hb : b ∉ [main_v0, main_v1, main_v2, main_v3, main_v4, main_v5, main_v6, main_cst, main_v7, main_v8]) :
    W1 m ρ c (Proc.devRef .tc b) = W0 m ρ c (Proc.devRef .tc b) := after_kept writes0 _ b hb

/-- A buffer that host stretch 1 does not write holds after it what it held before. -/
theorem keepH1 (c : Dev nD) (b : Ref sig .tc) (hb : b ∉ [main_v10, main_v11, main_v12]) :
    W3 m ρ c (Proc.devRef .tc b) = W2 m ρ c (Proc.devRef .tc b) := after_kept writes1 _ b hb

/-- A buffer that host stretch 2 does not write holds after it what it held before. -/
theorem keepH2 (c : Dev nD) (b : Ref sig .tc) (hb : b ∉ [main_v14, main_v15, main_v16, main_v17, main_v18, main_v19, main_v20, main_v21, main_v22, main_c, main_v23, main_v24, main_c_0, main_v25, main_v26, main_v27, main_v28, main_v29, main_c_1, main_v30, main_v31, main_c_2, main_v32, main_v33, main_v34, main_v35, main_v36, main_c_3, main_v37, main_v38, main_c_4, main_v39, main_v40, main_v41, main_v42, main_v43, main_v44]) :
    W5 m ρ c (Proc.devRef .tc b) = W4 m ρ c (Proc.devRef .tc b) := after_kept writes2 _ b hb

/-- A buffer that host stretch 3 does not write holds after it what it held before. -/
theorem keepH3 (c : Dev nD) (b : Ref sig .tc) (hb : b ∉ [main_cst_5, main_v46, main_v47, main_v48, main_c_6, main_v49, main_v50, main_c_7, main_v51, main_v52, main_v53, main_v54, main_v55, main_v56]) :
    W7 m ρ c (Proc.devRef .tc b) = W6 m ρ c (Proc.devRef .tc b) := after_kept writes3 _ b hb

/-- A buffer that host stretch 4 does not write holds after it what it held before. -/
theorem keepH4 (c : Dev nD) (b : Ref sig .tc) (hb : b ∉ [main_cst_8, main_v58, main_v59, main_v60, main_v61]) :
    W9 m ρ c (Proc.devRef .tc b) = W8 m ρ c (Proc.devRef .tc b) := after_kept writes4 _ b hb

/-! ## The fold, read boundary by boundary -/
theorem arg1_1 (c : Dev nD) : W1 m ρ c (Proc.devRef .tc main_arg1) = m ((c : Thread nD τ).loc main_arg1) :=
  (keepH0 m ρ c main_arg1 (by decide)).trans rfl
theorem arg11_2 (c : Dev nD) : W2 m ρ c (Proc.devRef .tc main_arg11) = m ((c : Thread nD τ).loc main_arg11) :=
  ((W2_of_ne m ρ c main_arg11 (by decide)).trans (keepH0 m ρ c main_arg11 (by decide))).trans rfl
theorem arg0_3 (c : Dev nD) : W3 m ρ c (Proc.devRef .tc main_arg0) = m ((c : Thread nD τ).loc main_arg0) :=
  ((keepH1 m ρ c main_arg0 (by decide)).trans ((W2_of_ne m ρ c main_arg0 (by decide)).trans (keepH0 m ρ c main_arg0 (by decide)))).trans rfl
theorem arg10_3 (c : Dev nD) : W3 m ρ c (Proc.devRef .tc main_arg10) = m ((c : Thread nD τ).loc main_arg10) :=
  ((keepH1 m ρ c main_arg10 (by decide)).trans ((W2_of_ne m ρ c main_arg10 (by decide)).trans (keepH0 m ρ c main_arg10 (by decide)))).trans rfl
theorem arg2_4 (c : Dev nD) : W4 m ρ c (Proc.devRef .tc main_arg2) = m ((c : Thread nD τ).loc main_arg2) :=
  ((W4_of_ne m ρ c main_arg2 (by decide)).trans ((keepH1 m ρ c main_arg2 (by decide)).trans ((W2_of_ne m ρ c main_arg2 (by decide)).trans (keepH0 m ρ c main_arg2 (by decide))))).trans rfl
theorem arg4_4 (c : Dev nD) : W4 m ρ c (Proc.devRef .tc main_arg4) = m ((c : Thread nD τ).loc main_arg4) :=
  ((W4_of_ne m ρ c main_arg4 (by decide)).trans ((keepH1 m ρ c main_arg4 (by decide)).trans ((W2_of_ne m ρ c main_arg4 (by decide)).trans (keepH0 m ρ c main_arg4 (by decide))))).trans rfl
theorem arg5_4 (c : Dev nD) : W4 m ρ c (Proc.devRef .tc main_arg5) = m ((c : Thread nD τ).loc main_arg5) :=
  ((W4_of_ne m ρ c main_arg5 (by decide)).trans ((keepH1 m ρ c main_arg5 (by decide)).trans ((W2_of_ne m ρ c main_arg5 (by decide)).trans (keepH0 m ρ c main_arg5 (by decide))))).trans rfl
theorem arg6_4 (c : Dev nD) : W4 m ρ c (Proc.devRef .tc main_arg6) = m ((c : Thread nD τ).loc main_arg6) :=
  ((W4_of_ne m ρ c main_arg6 (by decide)).trans ((keepH1 m ρ c main_arg6 (by decide)).trans ((W2_of_ne m ρ c main_arg6 (by decide)).trans (keepH0 m ρ c main_arg6 (by decide))))).trans rfl
theorem arg7_4 (c : Dev nD) : W4 m ρ c (Proc.devRef .tc main_arg7) = m ((c : Thread nD τ).loc main_arg7) :=
  ((W4_of_ne m ρ c main_arg7 (by decide)).trans ((keepH1 m ρ c main_arg7 (by decide)).trans ((W2_of_ne m ρ c main_arg7 (by decide)).trans (keepH0 m ρ c main_arg7 (by decide))))).trans rfl
theorem arg8_4 (c : Dev nD) : W4 m ρ c (Proc.devRef .tc main_arg8) = m ((c : Thread nD τ).loc main_arg8) :=
  ((W4_of_ne m ρ c main_arg8 (by decide)).trans ((keepH1 m ρ c main_arg8 (by decide)).trans ((W2_of_ne m ρ c main_arg8 (by decide)).trans (keepH0 m ρ c main_arg8 (by decide))))).trans rfl
theorem arg9_4 (c : Dev nD) : W4 m ρ c (Proc.devRef .tc main_arg9) = m ((c : Thread nD τ).loc main_arg9) :=
  ((W4_of_ne m ρ c main_arg9 (by decide)).trans ((keepH1 m ρ c main_arg9 (by decide)).trans ((W2_of_ne m ρ c main_arg9 (by decide)).trans (keepH0 m ρ c main_arg9 (by decide))))).trans rfl

theorem v6_1 (c : Dev nD) : W1 m ρ c (Proc.devRef .tc main_v6) = wcat (m ((c : Thread nD τ).loc main_arg5)) := by
  dsimp only [W1, hostOps0]; after_results <;> rfl
theorem v8_1 (c : Dev nD) : W1 m ρ c (Proc.devRef .tc main_v8) = zeroRow := by
  dsimp only [W1, hostOps0]; after_results <;> rfl
theorem v1_1 (c : Dev nD) : W1 m ρ c (Proc.devRef .tc main_v1) = srcOf (m ((c : Thread nD τ).loc main_arg3)) := by
  dsimp only [W1, hostOps0]; after_results <;> rfl
theorem v3_1 (c : Dev nD) : W1 m ρ c (Proc.devRef .tc main_v3) = dstOf (m ((c : Thread nD τ).loc main_arg3)) := by
  dsimp only [W1, hostOps0]; after_results <;> rfl

theorem v9_2 (c : Dev nD) : W2 m ρ c (Proc.devRef .tc main_v9) = kProj (m ((c : Thread nD τ).loc main_arg1)) (m ((c : Thread nD τ).loc main_arg5)) := by
  refine (W2_arr m ρ c 3).trans ((RegionValue.region0_out (V1 m ρ) c).trans ?_)
  show linear (W1 m ρ c (Proc.devRef .tc main_arg1)) (W1 m ρ c (Proc.devRef .tc main_v6)) (W1 m ρ c (Proc.devRef .tc main_v8)) = _
  rw [arg1_1, v6_1, v8_1]; rfl

theorem v10_3 (c : Dev nD) : W3 m ρ c (Proc.devRef .tc main_v10) = kHs (m ((c : Thread nD τ).loc main_arg1)) (m ((c : Thread nD τ).loc main_arg5)) := by
  have h : W3 m ρ c (Proc.devRef .tc main_v10) = extractStridedSlice S50000x200 ![0, 0] (W2 m ρ c (Proc.devRef .tc main_v9)) slices_S50000x400_S50000x200_0_0 := by
    dsimp only [W3, hostOps1]; after_results <;> rfl
  rw [h, v9_2]; rfl
theorem v11_3 (c : Dev nD) : W3 m ρ c (Proc.devRef .tc main_v11) = kHd (m ((c : Thread nD τ).loc main_arg1)) (m ((c : Thread nD τ).loc main_arg5)) := by
  have h : W3 m ρ c (Proc.devRef .tc main_v11) = extractStridedSlice S50000x200 ![0, 200] (W2 m ρ c (Proc.devRef .tc main_v9)) slices_S50000x400_S50000x200_0_200 := by
    dsimp only [W3, hostOps1]; after_results <;> rfl
  rw [h, v9_2]; rfl
theorem v12_3 (c : Dev nD) : W3 m ρ c (Proc.devRef .tc main_v12) = biasRow (m ((c : Thread nD τ).loc main_arg11)) := by
  have h : W3 m ρ c (Proc.devRef .tc main_v12) = biasRow (W2 m ρ c (Proc.devRef .tc main_arg11)) := by
    dsimp only [W3, hostOps1]; after_results <;> rfl
  rw [h, arg11_2]

theorem v13_4 (c : Dev nD) : W4 m ρ c (Proc.devRef .tc main_v13) = kEnt (m ((c : Thread nD τ).loc main_arg0)) (m ((c : Thread nD τ).loc main_arg10)) (m ((c : Thread nD τ).loc main_arg11)) := by
  refine (W4_arr m ρ c 3).trans ((RegionValue.region1_out (V3 m ρ) c).trans ?_)
  show linear (W3 m ρ c (Proc.devRef .tc main_arg0)) (W3 m ρ c (Proc.devRef .tc main_arg10)) (W3 m ρ c (Proc.devRef .tc main_v12)) = _
  rw [arg0_3, arg10_3, v12_3]; rfl
theorem v10_4 (c : Dev nD) : W4 m ρ c (Proc.devRef .tc main_v10) = kHs (m ((c : Thread nD τ).loc main_arg1)) (m ((c : Thread nD τ).loc main_arg5)) :=
  (W4_of_ne m ρ c main_v10 (by decide)).trans (v10_3 m ρ c)
theorem v11_4 (c : Dev nD) : W4 m ρ c (Proc.devRef .tc main_v11) = kHd (m ((c : Thread nD τ).loc main_arg1)) (m ((c : Thread nD τ).loc main_arg5)) :=
  (W4_of_ne m ρ c main_v11 (by decide)).trans (v11_3 m ρ c)
theorem v1_4 (c : Dev nD) : W4 m ρ c (Proc.devRef .tc main_v1) = srcOf (m ((c : Thread nD τ).loc main_arg3)) :=
  ((W4_of_ne m ρ c main_v1 (by decide)).trans ((keepH1 m ρ c main_v1 (by decide)).trans (W2_of_ne m ρ c main_v1 (by decide)))).trans (v1_1 m ρ c)
theorem v3_4 (c : Dev nD) : W4 m ρ c (Proc.devRef .tc main_v3) = dstOf (m ((c : Thread nD τ).loc main_arg3)) :=
  ((W4_of_ne m ρ c main_v3 (by decide)).trans ((keepH1 m ρ c main_v3 (by decide)).trans (W2_of_ne m ρ c main_v3 (by decide)))).trans (v3_1 m ρ c)

set_option maxHeartbeats 4000000 in
theorem v29_5 (c : Dev nD) : W5 m ρ c (Proc.devRef .tc main_v29) = kG1 (m ((c : Thread nD τ).loc main_arg1)) (m ((c : Thread nD τ).loc main_arg3)) (m ((c : Thread nD τ).loc main_arg5)) := by
  have h : W5 m ρ c (Proc.devRef .tc main_v29) = Host.gather gather_S50000x200_S800000x1_S800000x200_1_0_n_n_0_1_1200
      (W4 m ρ c (Proc.devRef .tc main_v10)) (wrapIdx 50000#32 (W4 m ρ c (Proc.devRef .tc main_v1))) := by
    dsimp only [W5, hostOps2]; after_results_simp <;> rfl
  rw [h, v10_4, v1_4]; rfl
set_option maxHeartbeats 4000000 in
theorem v36_5 (c : Dev nD) : W5 m ρ c (Proc.devRef .tc main_v36) = kG2 (m ((c : Thread nD τ).loc main_arg1)) (m ((c : Thread nD τ).loc main_arg3)) (m ((c : Thread nD τ).loc main_arg5)) := by
  have h : W5 m ρ c (Proc.devRef .tc main_v36) = Host.gather gather_S50000x200_S800000x1_S800000x200_1_0_n_n_0_1_1200
      (W4 m ρ c (Proc.devRef .tc main_v11)) (wrapIdx 50000#32 (W4 m ρ c (Proc.devRef .tc main_v3))) := by
    dsimp only [W5, hostOps2]; after_results_simp <;> rfl
  rw [h, v11_4, v3_4]; rfl
set_option maxHeartbeats 4000000 in
theorem v43_5 (c : Dev nD) : W5 m ρ c (Proc.devRef .tc main_v43) = kG3 (m ((c : Thread nD τ).loc main_arg2)) (m ((c : Thread nD τ).loc main_arg4)) (m ((c : Thread nD τ).loc main_arg5)) (m ((c : Thread nD τ).loc main_arg6)) := by
  have h : W5 m ρ c (Proc.devRef .tc main_v43) = Host.gather gather_S500x200_S800000x1_S800000x200_1_0_n_n_0_1_1200
      (relProj (W4 m ρ c (Proc.devRef .tc main_arg2)) (W4 m ρ c (Proc.devRef .tc main_arg5)) (W4 m ρ c (Proc.devRef .tc main_arg6)))
      (wrapIdx 500#32 (W4 m ρ c (Proc.devRef .tc main_arg4))) := by
    dsimp only [W5, hostOps2]; after_results_simp <;> rfl
  rw [h, arg2_4, arg5_4, arg6_4, arg4_4]; rfl
set_option maxHeartbeats 4000000 in
theorem v44_5 (c : Dev nD) : W5 m ρ c (Proc.devRef .tc main_v44) = attRow (m ((c : Thread nD τ).loc main_arg7)) := by
  have h : W5 m ρ c (Proc.devRef .tc main_v44) = attRow (W4 m ρ c (Proc.devRef .tc main_arg7)) := by
    dsimp only [W5, hostOps2]; after_results_simp <;> rfl
  rw [h, arg7_4]
set_option maxHeartbeats 4000000 in
theorem v22_5 (c : Dev nD) : W5 m ρ c (Proc.devRef .tc main_v22) = relOut (m ((c : Thread nD τ).loc main_arg2)) (m ((c : Thread nD τ).loc main_arg8)) (m ((c : Thread nD τ).loc main_arg9)) := by
  have h : W5 m ρ c (Proc.devRef .tc main_v22) = relOut (W4 m ρ c (Proc.devRef .tc main_arg2)) (W4 m ρ c (Proc.devRef .tc main_arg8)) (W4 m ρ c (Proc.devRef .tc main_arg9)) := by
    dsimp only [W5, hostOps2]; after_results_simp <;> rfl
  rw [h, arg2_4, arg8_4, arg9_4]

theorem v45_0_6 (c : Dev nD) : W6 m ρ c (Proc.devRef .tc main_v45_0) = kC (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 4).trans ((RegionValue.region2_sum (V5 m ρ) c).trans ?_)
  show sum3 (W5 m ρ c (Proc.devRef .tc main_v29)) (W5 m ρ c (Proc.devRef .tc main_v36)) (W5 m ρ c (Proc.devRef .tc main_v43)) = _
  rw [v29_5, v36_5, v43_5]; rfl
theorem v45_1_6 (c : Dev nD) : W6 m ρ c (Proc.devRef .tc main_v45_1) = kEw (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ((RegionValue.region2_weight (V5 m ρ) c).trans ?_)
  show edgeWeight (W5 m ρ c (Proc.devRef .tc main_v29)) (W5 m ρ c (Proc.devRef .tc main_v36)) (W5 m ρ c (Proc.devRef .tc main_v43)) (W5 m ρ c (Proc.devRef .tc main_v44)) = _
  rw [v29_5, v36_5, v43_5, v44_5]; rfl
theorem v1_6 (c : Dev nD) : W6 m ρ c (Proc.devRef .tc main_v1) = srcOf (m ((c : Thread nD τ).loc main_arg3)) :=
  ((W6_of_ne m ρ c main_v1 (by decide)).trans (keepH2 m ρ c main_v1 (by decide))).trans (v1_4 m ρ c)

set_option maxHeartbeats 4000000 in
theorem v56_7 (c : Dev nD) : W7 m ρ c (Proc.devRef .tc main_v56) = kAlpha (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W7 m ρ c (Proc.devRef .tc main_v56) = Host.divf (W6 m ρ c (Proc.devRef .tc main_v45_1))
      (Host.gather gather_S50000x2_S800000x1_S800000x2_1_0_n_n_0_1_12
        (Host.scatterAdd scatter_S50000x2_S800000x1_S800000x2_1_0_0_1 zeros2 (colIdx (W6 m ρ c (Proc.devRef .tc main_v1))) (W6 m ρ c (Proc.devRef .tc main_v45_1)))
        (wrapIdx 50000#32 (W6 m ρ c (Proc.devRef .tc main_v1)))) := by
    dsimp only [W7, hostOps3]; after_results_simp <;> rfl
  rw [h, v45_1_6, v1_6]; rfl
theorem v45_0_7 (c : Dev nD) : W7 m ρ c (Proc.devRef .tc main_v45_0) = kC (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keepH3 m ρ c main_v45_0 (by decide)).trans (v45_0_6 m ρ c)

theorem v57_8 (c : Dev nD) : W8 m ρ c (Proc.devRef .tc main_v57) = kWeighted (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((RegionValue.region3_out (V7 m ρ) c).trans ?_)
  show scaleHeads (W7 m ρ c (Proc.devRef .tc main_v45_0)) (W7 m ρ c (Proc.devRef .tc main_v56)) = _
  rw [v45_0_7, v56_7]; rfl
theorem v3_8 (c : Dev nD) : W8 m ρ c (Proc.devRef .tc main_v3) = dstOf (m ((c : Thread nD τ).loc main_arg3)) :=
  ((W8_of_ne m ρ c main_v3 (by decide)).trans ((keepH3 m ρ c main_v3 (by decide)).trans ((W6_of_ne m ρ c main_v3 (by decide)).trans (keepH2 m ρ c main_v3 (by decide))))).trans (v3_4 m ρ c)
theorem v13_8 (c : Dev nD) : W8 m ρ c (Proc.devRef .tc main_v13) = kEnt (m ((c : Thread nD τ).loc main_arg0)) (m ((c : Thread nD τ).loc main_arg10)) (m ((c : Thread nD τ).loc main_arg11)) :=
  ((W8_of_ne m ρ c main_v13 (by decide)).trans ((keepH3 m ρ c main_v13 (by decide)).trans ((W6_of_ne m ρ c main_v13 (by decide)).trans (keepH2 m ρ c main_v13 (by decide))))).trans (v13_4 m ρ c)

theorem v60_9 (c : Dev nD) : W9 m ρ c (Proc.devRef .tc main_v60) = kAgg (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W9 m ρ c (Proc.devRef .tc main_v60) = Host.scatterAdd scatter_S50000x200_S800000x1_S800000x200_1_0_0_1 zeros200
      (colIdx (W8 m ρ c (Proc.devRef .tc main_v3))) (W8 m ρ c (Proc.devRef .tc main_v57)) := by
    dsimp only [W9, hostOps4]; after_results <;> rfl
  rw [h, v3_8, v57_8]; rfl
theorem v61_9 (c : Dev nD) : W9 m ρ c (Proc.devRef .tc main_v61) =
    concatenate S50000x200 1 [⟨S50000x100, kEnt (m ((c : Thread nD τ).loc main_arg0)) (m ((c : Thread nD τ).loc main_arg10)) (m ((c : Thread nD τ).loc main_arg11))⟩, ⟨S50000x100, kEnt (m ((c : Thread nD τ).loc main_arg0)) (m ((c : Thread nD τ).loc main_arg10)) (m ((c : Thread nD τ).loc main_arg11))⟩] concatenates_S50000x100_S50000x100_S50000x200_d1 := by
  have h : W9 m ρ c (Proc.devRef .tc main_v61) = concatenate S50000x200 1 [⟨S50000x100, W8 m ρ c (Proc.devRef .tc main_v13)⟩, ⟨S50000x100, W8 m ρ c (Proc.devRef .tc main_v13)⟩] concatenates_S50000x100_S50000x100_S50000x200_d1 := by
    dsimp only [W9, hostOps4]; after_results <;> rfl
  rw [h, v13_8]

/-- The first result's buffer at the end of the program. -/
theorem out_final (c : Dev nD) : W10 m ρ c (Proc.devRef .tc main_v62) =
    kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  refine (W10_arr m ρ c 2).trans ((RegionValue.region4_out (V9 m ρ) c).trans ?_)
  show tanhSum (W9 m ρ c (Proc.devRef .tc main_v61)) (W9 m ρ c (Proc.devRef .tc main_v60)) = _
  rw [v61_9, v60_9]; rfl
/-- The second result's buffer at the end of the program. -/
theorem rel_final (c : Dev nD) : W10 m ρ c (Proc.devRef .tc main_v22) = relOut (m ((c : Thread nD τ).loc main_arg2)) (m ((c : Thread nD τ).loc main_arg8)) (m ((c : Thread nD τ).loc main_arg9)) :=
  ((W10_of_ne m ρ c main_v22 (by decide)).trans ((keepH4 m ρ c main_v22 (by decide)).trans ((W8_of_ne m ρ c main_v22 (by decide)).trans ((keepH3 m ρ c main_v22 (by decide)).trans (W6_of_ne m ρ c main_v22 (by decide)))))).trans (v22_5 m ρ c)

end Cert.KernelIdeal.Fold
end
-- ==== Proof.RefRead.lean ====
/-
  The idealized reference program read at an index, stage by stage.

  The reference projects the node features through two blocks of a stacked weight (`x1 · W[0:200]` and
  `x1 · W[200:400]`), forms a per-edge, per-head logit as the sum over the head's 100 columns of an attention
  vector times the edge's summed features, passes it through the leaky rectifier and the exponential, normalises by
  a per-destination total, scales each head's 100 columns by the normalised weight, sums the scaled rows per
  destination, adds an affine image of the entity features and applies the hyperbolic tangent. Each lemma here reads
  one of these stages at an entry, with every layout operation's index arithmetic carried out, over the extended reals.
-/
import proofs.«172343_j88055419502884_1_alg».proof.Proof.Gen.ReferenceIdeal.Read
import proofs.«172343_j88055419502884_1_alg».proof.Proof.RegionSpec
import Idealize.ShloMosaic.Lib.ValueIdx
import Idealize.ShloMosaic.PureOps.Ideal.Laws

noncomputable section

open scoped BigOperators

namespace Cert.ReferenceIdeal.RefRead

open Cert.ReferenceIdeal Cert.ReferenceIdeal.Read Idealize.ShloMosaic Idealize.ShloMosaic.ValueIdx

/-! ## The two projections of the node features -/

/-- The source projection at `(n, j)`: row `n` of the features against column `j` of the weight's first 200 rows. -/
theorem ref_proj_src (x1 : (⟨S50000x200, .f32⟩ : BufTy).Contents (Elt Ideal))
    (x5 : (⟨S600x200, .f32⟩ : BufTy).Contents (Elt Ideal)) (n : Fin 50000) (j : Fin 200) :
    val_main_v5 (F := Ideal) x1 x5 (ix2 n j)
      = ∑ k : Fin 200, x1 (ix2 n k) * x5 (ix2 (⟨k.val, by have := k.isLt; omega⟩ : Fin 600) j) := by
  rw [val_main_v5_apply]
  refine Finset.sum_congr rfl fun k _ => ?_
  rw [val_main_v4_apply]
  have hl : lidx_main_v5 (ix2 n j) k = ix2 n k :=
    funext fun a => Fin.ext (by match a with | ⟨0, _⟩ => rfl | ⟨1, _⟩ => rfl)
  have hr : idx_main_v4 (ridx_main_v5 (ix2 n j) k) = ix2 (⟨k.val, by have := k.isLt; omega⟩ : Fin 600) j :=
    funext fun a => Fin.ext (by match a with | ⟨0, _⟩ => rfl | ⟨1, _⟩ => rfl)
  rw [hl, hr]

/-- The destination projection at `(n, j)`: row `n` of the features against column `j` of the weight's rows 200–399. -/
theorem ref_proj_dst (x1 : (⟨S50000x200, .f32⟩ : BufTy).Contents (Elt Ideal))
    (x5 : (⟨S600x200, .f32⟩ : BufTy).Contents (Elt Ideal)) (n : Fin 50000) (j : Fin 200) :
    val_main_v7 (F := Ideal) x1 x5 (ix2 n j)
      = ∑ k : Fin 200, x1 (ix2 n k) * x5 (ix2 (⟨200 + k.val, by have := k.isLt; omega⟩ : Fin 600) j) := by
  rw [val_main_v7_apply]
  refine Finset.sum_congr rfl fun k _ => ?_
  rw [val_main_v6_apply]
  have hl : lidx_main_v7 (ix2 n j) k = ix2 n k :=
    funext fun a => Fin.ext (by match a with | ⟨0, _⟩ => rfl | ⟨1, _⟩ => rfl)
  have hr : idx_main_v6 (ridx_main_v7 (ix2 n j) k) = ix2 (⟨200 + k.val, by have := k.isLt; omega⟩ : Fin 600) j :=
    funext fun a => Fin.ext (by match a with | ⟨0, _⟩ => rfl | ⟨1, _⟩ => rfl)
  rw [hl, hr]

/-! ## The affine image of the entity features -/

/-- The entity term at `(n, o)`: row `n` of the entity features against column `o` of the weight, plus the bias. -/
theorem ref_ent (x0 : (⟨S50000x100, .f32⟩ : BufTy).Contents (Elt Ideal))
    (x10 : (⟨S100x100, .f32⟩ : BufTy).Contents (Elt Ideal)) (x11 : (⟨S100, .f32⟩ : BufTy).Contents (Elt Ideal))
    (n : Fin 50000) (o : Fin 100) :
    val_main_v66 (F := Ideal) x0 x10 x11 (ix2 n o)
      = (∑ k : Fin 100, x0 (ix2 n k) * x10 (ix2 k o)) + x11 (ix1 o) := by
  rw [val_main_v66_apply, val_main_v63_apply, val_main_v65_apply, val_main_v64_apply, Ideal.addf_def]
  have hb : idx_main_v64 (idx_main_v65 (ix2 n o)) = ix1 o :=
    funext fun a => Fin.ext (by match a with | ⟨0, _⟩ => rfl)
  rw [hb]
  refine congrArg (· + x11 (ix1 o)) (Finset.sum_congr rfl fun k _ => ?_)
  have hl : lidx_main_v63 (ix2 n o) k = ix2 n k :=
    funext fun a => Fin.ext (by match a with | ⟨0, _⟩ => rfl | ⟨1, _⟩ => rfl)
  have hr : ridx_main_v63 (ix2 n o) k = ix2 k o :=
    funext fun a => Fin.ext (by match a with | ⟨0, _⟩ => rfl | ⟨1, _⟩ => rfl)
  rw [hl, hr]

/-! ## The edge weights -/

/-- The head logit of edge `e`, head `h`: the sum over the head's 100 columns of the attention vector times the
    edge's summed features. -/
theorem ref_logit (x1 : (⟨S50000x200, .f32⟩ : BufTy).Contents (Elt Ideal)) (x2 : (⟨S500x200, .f32⟩ : BufTy).Contents (Elt Ideal))
    (x3 : (⟨S2x800000, .i32⟩ : BufTy).Contents (Elt Ideal)) (x4 : (⟨S800000, .i32⟩ : BufTy).Contents (Elt Ideal))
    (x5 : (⟨S600x200, .f32⟩ : BufTy).Contents (Elt Ideal)) (x6 : (⟨S200, .f32⟩ : BufTy).Contents (Elt Ideal))
    (x7 : (⟨S1x2x100, .f32⟩ : BufTy).Contents (Elt Ideal))
    (e : Fin 800000) (h : Fin 2) :
    val_main_v40 (F := Ideal) x1 x2 x3 x4 x5 x6 x7 (ix3 e h (0 : Fin 1))
      = ∑ o : Fin 100, x7 (ix3 (0 : Fin 1) h o)
          * val_main_v35 (F := Ideal) x1 x2 x3 x4 x5 x6 (ix2 e (Cert.KernelIdeal.Spec.headCol h o)) := by
  rw [val_main_v40_apply, val_main_v39_apply, val_main_cst_apply, Ideal.ofBits_def, Ideal.ofBits_zero_f32, zero_add]
  refine Finset.sum_congr rfl fun o _ => ?_
  rw [val_main_v38_apply, Ideal.mulf_def, val_main_v37_apply, val_main_v36_apply]
  have h7 : idx_main_v37 (idx_main_v39 (idx_main_v40 (ix3 e h (0 : Fin 1))) o) = ix3 (0 : Fin 1) h o :=
    funext fun a => Fin.ext (by match a with | ⟨0, _⟩ => rfl | ⟨1, _⟩ => rfl | ⟨2, _⟩ => rfl)
  have h35 : idx_main_v36 (idx_main_v39 (idx_main_v40 (ix3 e h (0 : Fin 1))) o)
      = ix2 e (Cert.KernelIdeal.Spec.headCol h o) :=
    funext fun a => Fin.ext (by
      match a with
      | ⟨0, _⟩ =>
        show ((e.val * 2 + h.val) * 100 + o.val) / 200 = e.val
        have := h.isLt; have := o.isLt; omega
      | ⟨1, _⟩ =>
        show ((e.val * 2 + h.val) * 100 + o.val) % 200 = 100 * h.val + o.val
        have := h.isLt; have := o.isLt; omega)
  rw [h7, h35]

/-- The weight of edge `e`, head `h`: the exponential of the leaky rectifier of the head logit. -/
theorem ref_weight (x1 : (⟨S50000x200, .f32⟩ : BufTy).Contents (Elt Ideal)) (x2 : (⟨S500x200, .f32⟩ : BufTy).Contents (Elt Ideal))
    (x3 : (⟨S2x800000, .i32⟩ : BufTy).Contents (Elt Ideal)) (x4 : (⟨S800000, .i32⟩ : BufTy).Contents (Elt Ideal))
    (x5 : (⟨S600x200, .f32⟩ : BufTy).Contents (Elt Ideal)) (x6 : (⟨S200, .f32⟩ : BufTy).Contents (Elt Ideal))
    (x7 : (⟨S1x2x100, .f32⟩ : BufTy).Contents (Elt Ideal))
    (e : Fin 800000) (h : Fin 2) :
    val_main_v46 (F := Ideal) x1 x2 x3 x4 x5 x6 x7 (ix3 e h (0 : Fin 1))
      = Ideal.exp (Cert.KernelIdeal.Spec.leaky (∑ o : Fin 100, x7 (ix3 (0 : Fin 1) h o)
          * val_main_v35 (F := Ideal) x1 x2 x3 x4 x5 x6 (ix2 e (Cert.KernelIdeal.Spec.headCol h o)))) := by
  rw [val_main_v46_apply, Ideal.hostUnary_exp_def, val_main_v45_apply, val_main_v42_apply, val_main_v44_apply,
    val_main_v41_apply, val_main_v43_apply, val_main_cst_5_apply, val_main_cst_6_apply, ref_logit]
  simp only [Ideal.cmpf_def, Ideal.mulf_def, Ideal.ofBits_def]
  rfl

/-- The normalised weight of edge `e`, head `h`: the weight over the gathered per-destination total. -/
theorem ref_alpha (x1 : (⟨S50000x200, .f32⟩ : BufTy).Contents (Elt Ideal)) (x2 : (⟨S500x200, .f32⟩ : BufTy).Contents (Elt Ideal))
    (x3 : (⟨S2x800000, .i32⟩ : BufTy).Contents (Elt Ideal)) (x4 : (⟨S800000, .i32⟩ : BufTy).Contents (Elt Ideal))
    (x5 : (⟨S600x200, .f32⟩ : BufTy).Contents (Elt Ideal)) (x6 : (⟨S200, .f32⟩ : BufTy).Contents (Elt Ideal))
    (x7 : (⟨S1x2x100, .f32⟩ : BufTy).Contents (Elt Ideal))
    (e : Fin 800000) (h : Fin 2) :
    val_main_v57 (F := Ideal) x1 x2 x3 x4 x5 x6 x7 (ix3 e h (0 : Fin 1))
      = Ideal.div (val_main_v46 (F := Ideal) x1 x2 x3 x4 x5 x6 x7 (ix3 e h (0 : Fin 1)))
          (val_main_v56 (F := Ideal) x1 x2 x3 x4 x5 x6 x7 (ix3 e h (0 : Fin 1))) := by
  rw [val_main_v57_apply, Ideal.hostDivf_def]

/-- The scaled features of edge `e` at head `h`, offset `o`: the normalised weight of the head times the edge's
    summed feature in the head's column `o`. -/
theorem ref_weighted (x1 : (⟨S50000x200, .f32⟩ : BufTy).Contents (Elt Ideal)) (x2 : (⟨S500x200, .f32⟩ : BufTy).Contents (Elt Ideal))
    (x3 : (⟨S2x800000, .i32⟩ : BufTy).Contents (Elt Ideal)) (x4 : (⟨S800000, .i32⟩ : BufTy).Contents (Elt Ideal))
    (x5 : (⟨S600x200, .f32⟩ : BufTy).Contents (Elt Ideal)) (x6 : (⟨S200, .f32⟩ : BufTy).Contents (Elt Ideal))
    (x7 : (⟨S1x2x100, .f32⟩ : BufTy).Contents (Elt Ideal))
    (e : Fin 800000) (h : Fin 2) (o : Fin 100) :
    val_main_v59 (F := Ideal) x1 x2 x3 x4 x5 x6 x7 (ix3 e h o)
      = val_main_v57 (F := Ideal) x1 x2 x3 x4 x5 x6 x7 (ix3 e h (0 : Fin 1))
          * val_main_v35 (F := Ideal) x1 x2 x3 x4 x5 x6 (ix2 e (Cert.KernelIdeal.Spec.headCol h o)) := by
  rw [val_main_v59_apply, Ideal.mulf_def, val_main_v58_apply, val_main_v36_apply]
  have h58 : idx_main_v58 (ix3 e h o) = ix3 e h (0 : Fin 1) :=
    funext fun a => Fin.ext (by match a with | ⟨0, _⟩ => rfl | ⟨1, _⟩ => rfl | ⟨2, _⟩ => rfl)
  have h36 : idx_main_v36 (ix3 e h o) = ix2 e (Cert.KernelIdeal.Spec.headCol h o) :=
    funext fun a => Fin.ext (by
      match a with
      | ⟨0, _⟩ =>
        show ((e.val * 2 + h.val) * 100 + o.val) / 200 = e.val
        have := h.isLt; have := o.isLt; omega
      | ⟨1, _⟩ =>
        show ((e.val * 2 + h.val) * 100 + o.val) % 200 = 100 * h.val + o.val
        have := h.isLt; have := o.isLt; omega)
  rw [h58, h36]

/-! ## The output -/

/-- The output at `(n, q)`: the hyperbolic tangent of the entity term at the column's offset plus the per-destination
    sum of the scaled features at the column's head and offset. -/
theorem ref_out (x0 : (⟨S50000x100, .f32⟩ : BufTy).Contents (Elt Ideal))
    (x1 : (⟨S50000x200, .f32⟩ : BufTy).Contents (Elt Ideal)) (x2 : (⟨S500x200, .f32⟩ : BufTy).Contents (Elt Ideal))
    (x3 : (⟨S2x800000, .i32⟩ : BufTy).Contents (Elt Ideal)) (x4 : (⟨S800000, .i32⟩ : BufTy).Contents (Elt Ideal))
    (x5 : (⟨S600x200, .f32⟩ : BufTy).Contents (Elt Ideal)) (x6 : (⟨S200, .f32⟩ : BufTy).Contents (Elt Ideal))
    (x7 : (⟨S1x2x100, .f32⟩ : BufTy).Contents (Elt Ideal))
    (x10 : (⟨S100x100, .f32⟩ : BufTy).Contents (Elt Ideal)) (x11 : (⟨S100, .f32⟩ : BufTy).Contents (Elt Ideal))
    (n : Fin 50000) (q : Fin 200) :
    val_main_v71 (F := Ideal) x0 x1 x2 x3 x4 x5 x6 x7 x10 x11 (ix2 n q)
      = Ideal.tanh (val_main_v66 (F := Ideal) x0 x10 x11 (ix2 n (⟨q.val % 100, Nat.mod_lt _ (by decide)⟩ : Fin 100))
          + val_main_v62 (F := Ideal) x1 x2 x3 x4 x5 x6 x7
              (ix3 n (Cert.KernelIdeal.Spec.headOf q) (⟨q.val % 100, Nat.mod_lt _ (by decide)⟩ : Fin 100))) := by
  rw [val_main_v71_apply, Ideal.hostUnary_tanh_def, val_main_v70_apply]
  have h70 : idx_main_v70 (ix2 n q)
      = ix3 n (Cert.KernelIdeal.Spec.headOf q) (⟨q.val % 100, Nat.mod_lt _ (by decide)⟩ : Fin 100) :=
    funext fun a => Fin.ext (by
      match a with
      | ⟨0, _⟩ =>
        show (n.val * 200 + q.val) / 200 = n.val
        have := q.isLt; omega
      | ⟨1, _⟩ =>
        show (n.val * 200 + q.val) / 100 % 2 = q.val / 100
        have := q.isLt; omega
      | ⟨2, _⟩ =>
        show (n.val * 200 + q.val) % 100 = q.val % 100
        omega)
  rw [h70, val_main_v69_apply, Ideal.addf_def, val_main_v68_apply, val_main_v67_apply]
  have h67 : idx_main_v67 (idx_main_v68 (ix3 n (Cert.KernelIdeal.Spec.headOf q)
      (⟨q.val % 100, Nat.mod_lt _ (by decide)⟩ : Fin 100))) = ix2 n (⟨q.val % 100, Nat.mod_lt _ (by decide)⟩ : Fin 100) :=
    funext fun a => Fin.ext (by match a with | ⟨0, _⟩ => rfl | ⟨1, _⟩ => rfl)
  rw [h67]

end Cert.ReferenceIdeal.RefRead

end
-- ==== Proof.BridgeLinear.lean ====
/-
  The kernel program's linear stages are the reference's.

  The kernel program multiplies the node features once by the first two 200-row blocks of the weight matrix laid side
  by side, adds a zero bias row, and cuts the product into its left and right halves. Entry `(n, j)` of the left half is
  the sum over `k` of `x (n, k) · W (k, j)`, the reference's product with the first block; entry `(n, j)` of the right
  half is the sum of `x (n, k) · W (200 + k, j)`, the reference's product with the second block. The entity projection
  is a product plus a bias row on both sides, the bias row being the bias vector read as one row.
-/
import proofs.«172343_j88055419502884_1_alg».proof.Proof.KernelStages
import proofs.«172343_j88055419502884_1_alg».proof.Proof.Gen.ReferenceIdeal.Read
import proofs.«172343_j88055419502884_1_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Bridge

open Cert.KernelIdeal.Fold Cert.KernelIdeal.Spec Cert.ReferenceIdeal.Read Cert.ReferenceIdeal.RefRead
open Idealize.ShloMosaic Idealize.ShloMosaic.ValueIdx

/-! ## The side-by-side weight, the zero row and the bias row at an index -/

/-- A column in the left half of the side-by-side weight is the column of the first block. -/
theorem wcat_left (x5 : FVec Ideal Cert.KernelIdeal.S600x200 .f32) (k j : Fin 200) :
    wcat x5 (ix2 k (⟨j.val, by have := j.isLt; omega⟩ : Fin 400))
      = x5 (ix2 (⟨k.val, by have := k.isLt; omega⟩ : Fin 600) j) := by
  unfold wcat
  refine (concatenate_pair_apply_left (t := Cert.KernelIdeal.S200x400) (s₁ := Cert.KernelIdeal.S200x200)
    (s₂ := Cert.KernelIdeal.S200x200) (1 : Fin 2) _ _ _ (ix2 k (⟨j.val, by have := j.isLt; omega⟩ : Fin 400))
    (rfl : (2 : Nat) = 2) (ix2 k j) (fun b => ?_)).trans ?_
  · match b with
    | ⟨0, _⟩ => rfl
    | ⟨1, _⟩ => rfl
  · exact slice2_axis0_apply 0 x5 _ k j ⟨k.val, by have := k.isLt; omega⟩ (Nat.zero_add _).symm

/-- A column in the right half of the side-by-side weight is the column of the second block. -/
theorem wcat_right (x5 : FVec Ideal Cert.KernelIdeal.S600x200 .f32) (k j : Fin 200) :
    wcat x5 (ix2 k (⟨200 + j.val, by have := j.isLt; omega⟩ : Fin 400))
      = x5 (ix2 (⟨200 + k.val, by have := k.isLt; omega⟩ : Fin 600) j) := by
  unfold wcat
  refine (concatenate_pair_apply_right (t := Cert.KernelIdeal.S200x400) (s₁ := Cert.KernelIdeal.S200x200)
    (s₂ := Cert.KernelIdeal.S200x200) (1 : Fin 2) _ _ _ (ix2 k (⟨200 + j.val, by have := j.isLt; omega⟩ : Fin 400))
    (rfl : (2 : Nat) = 2) (rfl : (2 : Nat) = 2) (ix2 k j) (fun b hb => ?_) ?_).trans ?_
  · match b with
    | ⟨0, _⟩ => rfl
    | ⟨1, _⟩ => exact absurd rfl hb
  · show j.val + 200 = 200 + j.val
    omega
  · exact slice2_axis0_apply 200 x5 _ k j ⟨200 + k.val, by have := k.isLt; omega⟩ rfl

/-- The zero bias row is zero everywhere. -/
theorem zeroRow_apply (i : Cert.KernelIdeal.S1x400.Idx) : zeroRow i = 0 := by
  show Ideal.ofBits .f32 0x00000000#32 = 0
  exact Ideal.ofBits_zero_f32

/-- The bias row at column `o` is the bias vector at `o`. -/
theorem biasRow_apply (b : FVec Ideal Cert.KernelIdeal.S100 .f32) (o : Fin 100) : biasRow b (ix2 (0 : Fin 1) o) = b (ix1 o) := by
  unfold biasRow
  exact shapeCast_a_1a_apply b _ 0 o

/-! ## The three linear stages -/

/-- The left half of the kernel program's double projection is the reference's source projection. -/
theorem hs_eq (x1 : FVec Ideal Cert.KernelIdeal.S50000x200 .f32) (x5 : FVec Ideal Cert.KernelIdeal.S600x200 .f32) :
    kHs x1 x5 = val_main_v5 (F := Ideal) x1 x5 := by
  funext i
  obtain ⟨n, j, rfl⟩ : ∃ (n : Fin 50000) (j : Fin 200), i = ix2 n j := ⟨i 0, i 1, eq_ix2 i⟩
  rw [ref_proj_src]
  unfold kHs
  refine (slice2_axis1_apply 0 (kProj x1 x5) _ n j ⟨j.val, by have := j.isLt; omega⟩ (Nat.zero_add _).symm).trans ?_
  unfold kProj linear
  rw [zeroRow_apply, add_zero]
  refine Finset.sum_congr rfl fun k _ => ?_
  show x1 (ix2 n k) * wcat x5 (ix2 k (⟨j.val, by have := j.isLt; omega⟩ : Fin 400)) = _
  rw [wcat_left]

/-- The right half of the kernel program's double projection is the reference's destination projection. -/
theorem hd_eq (x1 : FVec Ideal Cert.KernelIdeal.S50000x200 .f32) (x5 : FVec Ideal Cert.KernelIdeal.S600x200 .f32) :
    kHd x1 x5 = val_main_v7 (F := Ideal) x1 x5 := by
  funext i
  obtain ⟨n, j, rfl⟩ : ∃ (n : Fin 50000) (j : Fin 200), i = ix2 n j := ⟨i 0, i 1, eq_ix2 i⟩
  rw [ref_proj_dst]
  unfold kHd
  refine (slice2_axis1_apply 200 (kProj x1 x5) _ n j ⟨200 + j.val, by have := j.isLt; omega⟩ rfl).trans ?_
  unfold kProj linear
  rw [zeroRow_apply, add_zero]
  refine Finset.sum_congr rfl fun k _ => ?_
  show x1 (ix2 n k) * wcat x5 (ix2 k (⟨200 + j.val, by have := j.isLt; omega⟩ : Fin 400)) = _
  rw [wcat_right]

/-- The kernel program's entity projection is the reference's, entry by entry. -/
theorem ent_at (x0 : FVec Ideal Cert.KernelIdeal.S50000x100 .f32) (x10 : FVec Ideal Cert.KernelIdeal.S100x100 .f32) (x11 : FVec Ideal Cert.KernelIdeal.S100 .f32)
    (n : Fin 50000) (o : Fin 100) :
    kEnt x0 x10 x11 (ix2 n o) = val_main_v66 (F := Ideal) x0 x10 x11 (ix2 n o) := by
  rw [ref_ent]
  unfold kEnt linear
  show (∑ k : Fin 100, x0 (ix2 n k) * x10 (ix2 k o)) + biasRow x11 (ix2 (0 : Fin 1) o) = _
  rw [biasRow_apply]

end Cert.Bridge

end
-- ==== Proof.LibRowIdx.lean ====
/-
  Row gathers and row scatters read at an index.

  A graph layer moves rows: `h[src]` gathers row `src e` of an `[N, C]` array for every edge `e`, and a segment sum
  scatters row `e` of an `[M, C]` array onto row `dst e` of an `[N, C]` array. The start indices come as an `[M, 1]`
  array of words. A gather reads its start index as a signed integer and clamps it into `[0, N - 1]`; a scatter
  reads it signed and DROPS the row when it is outside `[0, N)`. The same for a flat `[N]` array and `[M]` updates.
  Each statement is for the dimension numbers as a record over any extents; a program's own record is one of these
  at its literal extents.
-/
import Idealize.ShloMosaic.PureOps.ShapeOps
import Idealize.ShloMosaic.Lib.ValueIdx

noncomputable section

namespace Idealize.ShloMosaic.RowIdx

open Idealize.ShloMosaic.ValueIdx

variable {α : Type}

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_ne_zero_fin2 : (1 : Fin 2) ≠ 0 := by decide

/-! ## The four dimension-number records -/

/-- Rows of an `[N, C]` operand gathered at `[M, 1]` start indices into `[M, C]`. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Elements of an `[N]` operand gathered at `[M, 1]` start indices into `[M]`. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Rows of `[M, C]` updates scattered at `[M, 1]` indices onto an `[N, C]` operand. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Elements of `[M]` updates scattered at `[M, 1]` indices onto an `[N]` operand. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The row a gather reads for the start word `b`: `b` as a signed integer, clamped into `[0, N - 1]`. -/
def clampRow (N : Nat) {w : Nat} (hN : 0 < N) (b : BitVec w) : Fin N := ⟨min b.toInt.toNat (N - 1), by omega⟩

/-! ## The gathers -/

/-- The row gather at `(e, c)`: the operand at the clamped row of edge `e`, column `c`. -/
theorem rowGather_apply {N C M w : Nat} (hN : 0 < N) (wf) (x : (⟨2, ![N, C]⟩ : Shape).Idx → α) (idx : IVec ⟨2, ![M, 1]⟩ w)
    (e : Fin M) (c : Fin C) :
    Host.gather (rowGather N C M wf) x idx (ix2 e c) = x (ix2 (clampRow N hN (idx (ix2 e (0 : Fin 1)))) c) := by
  unfold Host.gather
  refine congrArg x (funext fun a => ?_)
  match a with
  | ⟨0, _⟩ =>
    refine Fin.ext ?_
    show (rowGather N C M wf).start (ix2 e c) idx 0 + (rowGather N C M wf).batchCoord (ix2 e c) 0
      + (rowGather N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e c) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C M wf).start (ix2 e c) idx 1 + (rowGather N C M wf).batchCoord (ix2 e c) 1
      + (rowGather N C M wf).offCoord (ix2 e c) 1 = c.val
    rw [GatherDims.batchCoord_eq_zero _ _ _ List.not_mem_nil]
    have hs : (rowGather N C M wf).start (ix2 e c) idx 1 = 0 := by
      unfold GatherDims.start
      rw [dif_neg (show (1 : Fin 2) ∉ (rowGather N C M wf).startIndexMap from fun h => one_ne_zero_fin2 (List.mem_singleton.mp h))]
    have ho : (rowGather N C M wf).offCoord (ix2 e c) 1 = c.val := by
      unfold GatherDims.offCoord
      rw [dif_pos ((GatherDims.mem_sKept _ _).mpr ⟨fun h => one_ne_zero_fin2 (List.mem_singleton.mp h), List.not_mem_nil⟩)]
      rfl
    rw [hs, ho]; omega

/-- The flat gather at `e`: the operand at the clamped start of edge `e`. -/
theorem vecGather_apply {N M w : Nat} (hN : 0 < N) (wf) (x : (⟨1, ![N]⟩ : Shape).Idx → α) (idx : IVec ⟨2, ![M, 1]⟩ w)
    (e : Fin M) :
    Host.gather (vecGather N M wf) x idx (ix1 e) = x (ix1 (clampRow N hN (idx (ix2 e (0 : Fin 1))))) := by
  unfold Host.gather
  refine congrArg x (funext fun a => ?_)
  match a with
  | ⟨0, _⟩ =>
    refine Fin.ext ?_
    show (vecGather N M wf).start (ix1 e) idx 0 + (vecGather N M wf).batchCoord (ix1 e) 0
      + (vecGather N M wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 e) ⟨List.idxOf (0 : Fin 1) (vecGather N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The scatters -/

/-- Where row `e`, column `c` of the updates lands: on row `idx e` read signed, same column, when that row is inside
    the operand; nowhere otherwise. -/
theorem rowScatter_resultIdx? {N C M w : Nat} (wf) (idx : IVec ⟨2, ![M, 1]⟩ w) (e : Fin M) (c : Fin C) :
    (rowScatter N C M wf).resultIdx? (ix2 e c) idx =
      if h : 0 ≤ (idx (ix2 e (0 : Fin 1))).toInt ∧ (idx (ix2 e (0 : Fin 1))).toInt < (N : Int) then
        some (ix2 (⟨(idx (ix2 e (0 : Fin 1))).toInt.toNat, by omega⟩ : Fin N) c)
      else none := by
  have hsi : (rowScatter N C M wf).siIdx (ix2 e c) ⟨List.idxOf (0 : Fin 2) (rowScatter N C M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl), hsi]
  have hs1 : (rowScatter N C M wf).start (ix2 e c) idx 1 = 0 := by
    unfold ScatterDims.start
    rw [dif_neg (show (1 : Fin 2) ∉ (rowScatter N C M wf).scatterDimsToOperandDims from fun h => one_ne_zero_fin2 (List.mem_singleton.mp h))]
  have hw0 : (rowScatter N C M wf).window (ix2 e c) 0 = 0 := by
    unfold ScatterDims.window
    rw [dif_neg (show (0 : Fin 2) ∉ (rowScatter N C M wf).sKept from fun h => (mem_kept _ _).mp h (List.mem_singleton.mpr rfl))]
  have hw1 : (rowScatter N C M wf).window (ix2 e c) 1 = c.val := by
    unfold ScatterDims.window
    rw [dif_pos (show (1 : Fin 2) ∈ (rowScatter N C M wf).sKept from (mem_kept _ _).mpr fun h => one_ne_zero_fin2 (List.mem_singleton.mp h))]
    rfl
  unfold ScatterDims.resultIdx?
  by_cases h : 0 ≤ (idx (ix2 e (0 : Fin 1))).toInt ∧ (idx (ix2 e (0 : Fin 1))).toInt < (N : Int)
  · have hall : ∀ a, 0 ≤ (rowScatter N C M wf).start (ix2 e c) idx a + (rowScatter N C M wf).window (ix2 e c) a ∧
        (rowScatter N C M wf).start (ix2 e c) idx a + (rowScatter N C M wf).window (ix2 e c) a
          < (⟨2, ![N, C]⟩ : Shape).size a := by
      intro a
      match a with
      | ⟨0, _⟩ =>
        show 0 ≤ (rowScatter N C M wf).start (ix2 e c) idx 0 + ((rowScatter N C M wf).window (ix2 e c) 0 : Int) ∧
          (rowScatter N C M wf).start (ix2 e c) idx 0 + ((rowScatter N C M wf).window (ix2 e c) 0 : Int) < (N : Int)
        rw [hs0, hw0]; omega
      | ⟨1, _⟩ =>
        show 0 ≤ (rowScatter N C M wf).start (ix2 e c) idx 1 + ((rowScatter N C M wf).window (ix2 e c) 1 : Int) ∧
          (rowScatter N C M wf).start (ix2 e c) idx 1 + ((rowScatter N C M wf).window (ix2 e c) 1 : Int) < (C : Int)
        rw [hs1, hw1]; have := c.isLt; omega
    rw [dif_pos hall, dif_pos h]
    refine congrArg some (funext fun a => ?_)
    match a with
    | ⟨0, _⟩ =>
      refine Fin.ext ?_
      show ((rowScatter N C M wf).start (ix2 e c) idx 0 + ((rowScatter N C M wf).window (ix2 e c) 0 : Int)).toNat
        = (idx (ix2 e (0 : Fin 1))).toInt.toNat
      rw [hs0, hw0]; simp
    | ⟨1, _⟩ =>
      refine Fin.ext ?_
      show ((rowScatter N C M wf).start (ix2 e c) idx 1 + ((rowScatter N C M wf).window (ix2 e c) 1 : Int)).toNat = c.val
      rw [hs1, hw1]; simp
  · rw [dif_neg h, dif_neg]
    intro hall
    have h0 := hall 0
    have h0' : 0 ≤ (rowScatter N C M wf).start (ix2 e c) idx 0 + ((rowScatter N C M wf).window (ix2 e c) 0 : Int) ∧
        (rowScatter N C M wf).start (ix2 e c) idx 0 + ((rowScatter N C M wf).window (ix2 e c) 0 : Int) < (N : Int) := h0
    rw [hs0, hw0] at h0'
    exact h ⟨by omega, by omega⟩

/-- Where element `e` of the updates lands: on `idx e` read signed, when that is inside the operand. -/
theorem vecScatter_resultIdx? {N M w : Nat} (wf) (idx : IVec ⟨2, ![M, 1]⟩ w) (e : Fin M) :
    (vecScatter N M wf).resultIdx? (ix1 e) idx =
      if h : 0 ≤ (idx (ix2 e (0 : Fin 1))).toInt ∧ (idx (ix2 e (0 : Fin 1))).toInt < (N : Int) then
        some (ix1 (⟨(idx (ix2 e (0 : Fin 1))).toInt.toNat, by omega⟩ : Fin N))
      else none := by
  have hsi : (vecScatter N M wf).siIdx (ix1 e) ⟨List.idxOf (0 : Fin 1) (vecScatter N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl), hsi]
  have hw0 : (vecScatter N M wf).window (ix1 e) 0 = 0 := by
    unfold ScatterDims.window
    rw [dif_neg (show (0 : Fin 1) ∉ (vecScatter N M wf).sKept from fun h => (mem_kept _ _).mp h (List.mem_singleton.mpr rfl))]
  unfold ScatterDims.resultIdx?
  by_cases h : 0 ≤ (idx (ix2 e (0 : Fin 1))).toInt ∧ (idx (ix2 e (0 : Fin 1))).toInt < (N : Int)
  · have hall : ∀ a, 0 ≤ (vecScatter N M wf).start (ix1 e) idx a + (vecScatter N M wf).window (ix1 e) a ∧
        (vecScatter N M wf).start (ix1 e) idx a + (vecScatter N M wf).window (ix1 e) a
          < (⟨1, ![N]⟩ : Shape).size a := by
      intro a
      match a with
      | ⟨0, _⟩ =>
        show 0 ≤ (vecScatter N M wf).start (ix1 e) idx 0 + ((vecScatter N M wf).window (ix1 e) 0 : Int) ∧
          (vecScatter N M wf).start (ix1 e) idx 0 + ((vecScatter N M wf).window (ix1 e) 0 : Int) < (N : Int)
        rw [hs0, hw0]; omega
    rw [dif_pos hall, dif_pos h]
    refine congrArg some (funext fun a => ?_)
    match a with
    | ⟨0, _⟩ =>
      refine Fin.ext ?_
      show ((vecScatter N M wf).start (ix1 e) idx 0 + ((vecScatter N M wf).window (ix1 e) 0 : Int)).toNat
        = (idx (ix2 e (0 : Fin 1))).toInt.toNat
      rw [hs0, hw0]; simp
  · rw [dif_neg h, dif_neg]
    intro hall
    have h0 := hall 0
    have h0' : 0 ≤ (vecScatter N M wf).start (ix1 e) idx 0 + ((vecScatter N M wf).window (ix1 e) 0 : Int) ∧
        (vecScatter N M wf).start (ix1 e) idx 0 + ((vecScatter N M wf).window (ix1 e) 0 : Int) < (N : Int) := h0
    rw [hs0, hw0] at h0'
    exact h ⟨by omega, by omega⟩

end Idealize.ShloMosaic.RowIdx

end
-- ==== Proof.LibScatterAdd.lean ====
/-
  The host's accumulating float scatter at the exact instance, and a nonnegative finite factor moved across it.

  At the exact instance `hostScatterAdd d x idx upd` read at `i` is `x i` plus the sum of the updates that land on
  `i`. The extended reals are not a ring: `(y + z) * a = y * a + z * a` can fail when `a` is infinite or negative
  and `y`, `z` are infinities of opposite signs. For `0 ≤ a < ⊤` it holds for all `y`, `z`, so such an `a` moves
  across a finite sum, and across the scatter: scaling the operand's element and every landing update by `a` scales
  the result's element by `a`.

  Also here: the reciprocal square root of a positive natural number is a nonnegative finite real, and the scatter
  of ones from zeros counts the landing updates.
-/
import Idealize.ShloMosaic.PureOps.Ideal

noncomputable section

namespace Idealize.ShloMosaic.ScatterAddLaws

open scoped BigOperators

/-- A nonnegative finite factor distributes over a finite sum of extended reals. -/
theorem sum_mul_of_nonneg_ne_top {ι : Type} (S : Finset ι) (f : ι → EReal) {a : EReal} (ha0 : 0 ≤ a) (hat : a ≠ ⊤) :
    (∑ j ∈ S, f j) * a = ∑ j ∈ S, f j * a := by
  classical
  induction S using Finset.induction_on with
  | empty => simp
  | insert j S hj ih =>
    rw [Finset.sum_insert hj, Finset.sum_insert hj, EReal.right_distrib_of_nonneg_of_ne_top ha0 hat, ih]

/-- The accumulating scatter at the exact instance, read at an element. -/
theorem hostScatterAdd_apply {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- Scaling the operand's element at `i` and every update that lands on `i` by a nonnegative finite `a` scales the
    scatter's element at `i` by `a`. -/
theorem hostScatterAdd_mul_right {s si su : Shape} (d : ScatterDims s si su) {w : Nat} (idx : IVec si w)
    (x x' : s.Idx → EReal) (u u' : su.Idx → EReal) (i : s.Idx) {a : EReal} (ha0 : 0 ≤ a) (hat : a ≠ ⊤)
    (hx : x' i = x i * a) (hu : ∀ j, d.resultIdx? j idx = some i → u' j = u j * a) :
    Ideal.hostScatterAdd d x' idx u' i = Ideal.hostScatterAdd d x idx u i * a := by
  rw [hostScatterAdd_apply, hostScatterAdd_apply, EReal.right_distrib_of_nonneg_of_ne_top ha0 hat,
    sum_mul_of_nonneg_ne_top _ _ ha0 hat, hx]
  refine congrArg _ (Finset.sum_congr rfl fun j hj => hu j (Finset.mem_filter.mp hj).2)

/-- Two scatters through the same indices whose operands agree at `i` and whose updates agree wherever they land on
    `i` agree at `i`. -/
theorem hostScatterAdd_congr_at {s si su : Shape} (d : ScatterDims s si su) {w : Nat} (idx : IVec si w)
    (x x' : s.Idx → EReal) (u u' : su.Idx → EReal) (i : s.Idx)
    (hx : x' i = x i) (hu : ∀ j, d.resultIdx? j idx = some i → u' j = u j) :
    Ideal.hostScatterAdd d x' idx u' i = Ideal.hostScatterAdd d x idx u i := by
  rw [hostScatterAdd_apply, hostScatterAdd_apply, hx]
  refine congrArg _ (Finset.sum_congr rfl fun j hj => hu j (Finset.mem_filter.mp hj).2)

/-- The scatter of ones from zero counts the updates that land on `i`. -/
theorem hostScatterAdd_ones {s si su : Shape} (d : ScatterDims s si su) {w : Nat} (idx : IVec si w)
    (x : s.Idx → EReal) (u : su.Idx → EReal) (i : s.Idx) (hx : x i = 0) (hu : ∀ j, u j = 1) :
    Ideal.hostScatterAdd d x idx u i
      = (((Finset.univ.filter (fun j => d.resultIdx? j idx = some i)).card : ℝ) : EReal) := by
  rw [hostScatterAdd_apply, hx, zero_add, Finset.sum_congr rfl (fun j _ => hu j), Finset.sum_const, EReal.nsmul_eq_mul, mul_one]
  norm_cast

/-- The reciprocal square root of a positive natural number is a nonnegative finite extended real. -/
theorem rsqrt_natCast_pos {n : ℕ} (hn : 0 < n) :
    0 ≤ Ideal.rsqrt (((n : ℝ) : EReal)) ∧ Ideal.rsqrt (((n : ℝ) : EReal)) ≠ ⊤ := by
  have hpos : (0 : ℝ) < (n : ℝ) := by exact_mod_cast hn
  have e : Ideal.rsqrt (((n : ℝ) : EReal)) = (((Real.sqrt (n : ℝ))⁻¹ : ℝ) : EReal) := by
    show (if (n : ℝ) < 0 then (⊥ : EReal) else if (n : ℝ) = 0 then ⊤ else ((Real.sqrt (n : ℝ))⁻¹ : ℝ)) = _
    rw [if_neg (not_lt.mpr hpos.le), if_neg hpos.ne']
  rw [e]
  refine ⟨?_, EReal.coe_ne_top _⟩
  exact_mod_cast inv_nonneg.mpr (Real.sqrt_nonneg _)

end Idealize.ShloMosaic.ScatterAddLaws

end
-- ==== Proof.LibSlabIdx.lean ====
/-
  Row scatters that accumulate, and slab gathers and scatters, read at an index.

  A segment sum scatters row `e` of an `[M, C]` array of updates onto row `dst e` of an `[N, C]` array and adds the rows
  that meet. Read at the entry `(n, c)` the result is the operand's entry plus the sum, over the update rows `e` whose
  index word read signed is the row `n`, of the update's entry `(e, c)`: a row whose index is outside `[0, N)`
  contributes nothing. The predicate `lands` says that a word, read signed, is a given row.

  The same one rank up: an `[N, H, C]` operand whose slabs `[H, C]` are gathered at, or scattered onto, `[M, 1]` start
  indices. A gather reads its start index signed and clamps it into `[0, N - 1]`; a scatter reads it signed and drops
  the slab when it is outside `[0, N)`. Each statement is for the dimension numbers as a record over any extents.
-/
import proofs.«172343_j88055419502884_1_alg».proof.Proof.LibRowIdx
import proofs.«172343_j88055419502884_1_alg».proof.Proof.LibScatterAdd

noncomputable section

open scoped BigOperators

namespace Idealize.ShloMosaic.SlabIdx

open Idealize.ShloMosaic.ValueIdx

/-! ## A word that is a row -/

/-- The word `b`, read as a signed integer, is the row `n` of an array with `N` rows. -/
def lands (N : Nat) {w : Nat} (b : BitVec w) (n : Fin N) : Prop :=
  0 ≤ b.toInt ∧ b.toInt < (N : Int) ∧ b.toInt.toNat = n.val

instance (N : Nat) {w : Nat} (b : BitVec w) (n : Fin N) : Decidable (lands N b n) := by
  unfold lands; infer_instance

/-! ## The accumulating row scatter -/

/-- Update `(e, c')` lands on `(n, c)` exactly when the index word of row `e` is the row `n` and the columns agree. -/
theorem rowScatter_resultIdx?_eq_some_iff {N C M w : Nat} (wf) (idx : IVec ⟨2, ![M, 1]⟩ w) (e : Fin M) (c' : Fin C)
    (n : Fin N) (c : Fin C) :
    (RowIdx.rowScatter N C M wf).resultIdx? (ix2 e c') idx = some (ix2 n c)
      ↔ lands N (idx (ix2 e (0 : Fin 1))) n ∧ c' = c := by
  rw [RowIdx.rowScatter_resultIdx?]
  unfold lands
  constructor
  · intro h
    by_cases hb : 0 ≤ (idx (ix2 e (0 : Fin 1))).toInt ∧ (idx (ix2 e (0 : Fin 1))).toInt < (N : Int)
    · rw [dif_pos hb] at h
      have h' := Option.some.inj h
      have h0 := congrFun h' 0
      have h1 := congrFun h' 1
      exact ⟨⟨hb.1, hb.2, congrArg Fin.val h0⟩, h1⟩
    · rw [dif_neg hb] at h
      exact absurd h (by simp)
  · rintro ⟨⟨h0, h1, h2⟩, rfl⟩
    rw [dif_pos ⟨h0, h1⟩]
    exact congrArg (fun r => some (ix2 r c')) (Fin.ext h2)

/-- The accumulating row scatter at `(n, c)`: the operand's entry plus the entries `(e, c)` of the update rows `e`
    whose index word is the row `n`. -/
theorem rowScatterAdd_apply {N C M w : Nat} (wf) (x : (⟨2, ![N, C]⟩ : Shape).Idx → EReal) (idx : IVec ⟨2, ![M, 1]⟩ w)
    (u : (⟨2, ![M, C]⟩ : Shape).Idx → EReal) (n : Fin N) (c : Fin C) :
    Ideal.hostScatterAdd (RowIdx.rowScatter N C M wf) x idx u (ix2 n c)
      = x (ix2 n c) + ∑ e : Fin M, if lands N (idx (ix2 e (0 : Fin 1))) n then u (ix2 e c) else 0 := by
  rw [ScatterAddLaws.hostScatterAdd_apply, Finset.sum_filter, sum_idx2]
  refine congrArg _ (Finset.sum_congr rfl fun e _ => ?_)
  rw [Finset.sum_eq_single c]
  · by_cases h : lands N (idx (ix2 e (0 : Fin 1))) n
    · rw [if_pos h, if_pos ((rowScatter_resultIdx?_eq_some_iff wf idx e c n c).mpr ⟨h, rfl⟩)]
    · rw [if_neg h, if_neg fun hh => h ((rowScatter_resultIdx?_eq_some_iff wf idx e c n c).mp hh).1]
  · intro c' _ hc
    rw [if_neg fun hh => hc ((rowScatter_resultIdx?_eq_some_iff wf idx e c' n c).mp hh).2]
  · intro hc
    exact absurd (Finset.mem_univ c) hc

/-! ## Rank-3 index sets -/

theorem one_ne_zero_fin3 : (1 : Fin 3) ≠ 0 := by decide
theorem two_ne_zero_fin3 : (2 : Fin 3) ≠ 0 := by decide

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two slab records -/

/-- Slabs `[H, C]` of an `[N, H, C]` operand gathered at `[M, 1]` start indices into `[M, H, C]`. -/
abbrev slabGather (N H C M : Nat)
    (wf : GatherDims.WF ⟨3, ![N, H, C]⟩ ⟨2, ![M, 1]⟩ ⟨3, ![M, H, C]⟩ [1, 2] [0] [] [0] [] 1 ![1, H, C]) :
    GatherDims ⟨3, ![N, H, C]⟩ ⟨2, ![M, 1]⟩ ⟨3, ![M, H, C]⟩ where
  offsetDims := [1, 2]
  collapsedSliceDims := [0]
  operandBatchingDims := []
  startIndicesBatchingDims := []
  startIndexMap := [0]
  indexVectorDim := 1
  sliceSizes := ![1, H, C]
  wf := wf

/-- Slabs `[H, C]` of `[M, H, C]` updates scattered at `[M, 1]` indices onto an `[N, H, C]` operand. -/
abbrev slabScatter (N H C M : Nat)
    (wf : ScatterDims.WF ⟨3, ![N, H, C]⟩ ⟨2, ![M, 1]⟩ ⟨3, ![M, H, C]⟩ [1, 2] [0] [0] 1) :
    ScatterDims ⟨3, ![N, H, C]⟩ ⟨2, ![M, 1]⟩ ⟨3, ![M, H, C]⟩ where
  updateWindowDims := [1, 2]
  insertedWindowDims := [0]
  scatterDimsToOperandDims := [0]
  indexVectorDim := 1
  wf := wf

/-! ## The slab gather -/

/-- The slab gather at `(e, h, c)`: the operand at the clamped row of edge `e`, same `h` and `c`. -/
theorem slabGather_apply {N H C M w : Nat} (hN : 0 < N) (wf) {α : Type} (x : (⟨3, ![N, H, C]⟩ : Shape).Idx → α)
    (idx : IVec ⟨2, ![M, 1]⟩ w) (e : Fin M) (h : Fin H) (c : Fin C) :
    Host.gather (slabGather N H C M wf) x idx (ix3 e h c)
      = x (ix3 (RowIdx.clampRow N hN (idx (ix2 e (0 : Fin 1)))) h c) := by
  unfold Host.gather
  refine congrArg x (funext fun a => ?_)
  match a with
  | ⟨0, _⟩ =>
    refine Fin.ext ?_
    show (slabGather N H C M wf).start (ix3 e h c) idx 0 + (slabGather N H C M wf).batchCoord (ix3 e h c) 0
      + (slabGather N H C M wf).offCoord (ix3 e h c) 0 = min (idx (ix2 e (0 : Fin 1))).toInt.toNat (N - 1)
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 3) ∈ (slabGather N H C M wf).startIndexMap from List.mem_singleton.mpr rfl)]
    have hsi : (slabGather N H C M wf).siIdx (ix3 e h c) ⟨List.idxOf (0 : Fin 3) (slabGather N H C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (slabGather N H C M wf).start (ix3 e h c) idx 1 + (slabGather N H C M wf).batchCoord (ix3 e h c) 1
      + (slabGather N H C M wf).offCoord (ix3 e h c) 1 = h.val
    rw [GatherDims.batchCoord_eq_zero _ _ _ List.not_mem_nil]
    have hs : (slabGather N H C M wf).start (ix3 e h c) idx 1 = 0 := by
      unfold GatherDims.start
      rw [dif_neg (show (1 : Fin 3) ∉ (slabGather N H C M wf).startIndexMap from
        fun hm => one_ne_zero_fin3 (List.mem_singleton.mp hm))]
    have ho : (slabGather N H C M wf).offCoord (ix3 e h c) 1 = h.val := by
      unfold GatherDims.offCoord
      rw [dif_pos ((GatherDims.mem_sKept _ _).mpr
        ⟨fun hm => one_ne_zero_fin3 (List.mem_singleton.mp hm), List.not_mem_nil⟩)]
      rfl
    rw [hs, ho]; omega
  | ⟨2, _⟩ =>
    refine Fin.ext ?_
    show (slabGather N H C M wf).start (ix3 e h c) idx 2 + (slabGather N H C M wf).batchCoord (ix3 e h c) 2
      + (slabGather N H C M wf).offCoord (ix3 e h c) 2 = c.val
    rw [GatherDims.batchCoord_eq_zero _ _ _ List.not_mem_nil]
    have hs : (slabGather N H C M wf).start (ix3 e h c) idx 2 = 0 := by
      unfold GatherDims.start
      rw [dif_neg (show (2 : Fin 3) ∉ (slabGather N H C M wf).startIndexMap from
        fun hm => two_ne_zero_fin3 (List.mem_singleton.mp hm))]
    have ho : (slabGather N H C M wf).offCoord (ix3 e h c) 2 = c.val := by
      unfold GatherDims.offCoord
      rw [dif_pos ((GatherDims.mem_sKept _ _).mpr
        ⟨fun hm => two_ne_zero_fin3 (List.mem_singleton.mp hm), List.not_mem_nil⟩)]
      rfl
    rw [hs, ho]; omega

/-! ## The slab scatter -/

/-- Where entry `(e, h, c)` of the updates lands: on row `idx e` read signed, same `h` and `c`, when that row is
    inside the operand; nowhere otherwise. -/
theorem slabScatter_resultIdx? {N H C M w : Nat} (wf) (idx : IVec ⟨2, ![M, 1]⟩ w) (e : Fin M) (h : Fin H) (c : Fin C) :
    (slabScatter N H C M wf).resultIdx? (ix3 e h c) idx =
      if hb : 0 ≤ (idx (ix2 e (0 : Fin 1))).toInt ∧ (idx (ix2 e (0 : Fin 1))).toInt < (N : Int) then
        some (ix3 (⟨(idx (ix2 e (0 : Fin 1))).toInt.toNat, by omega⟩ : Fin N) h c)
      else none := by
  have hsi : (slabScatter N H C M wf).siIdx (ix3 e h c)
      ⟨List.idxOf (0 : Fin 3) (slabScatter N H C M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  have hs0 : (slabScatter N H C M wf).start (ix3 e h c) idx 0 = (idx (ix2 e (0 : Fin 1))).toInt := by
    unfold ScatterDims.start
    rw [dif_pos (show (0 : Fin 3) ∈ (slabScatter N H C M wf).scatterDimsToOperandDims from List.mem_singleton.mpr rfl), hsi]
  have hs1 : (slabScatter N H C M wf).start (ix3 e h c) idx 1 = 0 := by
    unfold ScatterDims.start
    rw [dif_neg (show (1 : Fin 3) ∉ (slabScatter N H C M wf).scatterDimsToOperandDims from
      fun hm => one_ne_zero_fin3 (List.mem_singleton.mp hm))]
  have hs2 : (slabScatter N H C M wf).start (ix3 e h c) idx 2 = 0 := by
    unfold ScatterDims.start
    rw [dif_neg (show (2 : Fin 3) ∉ (slabScatter N H C M wf).scatterDimsToOperandDims from
      fun hm => two_ne_zero_fin3 (List.mem_singleton.mp hm))]
  have hw0 : (slabScatter N H C M wf).window (ix3 e h c) 0 = 0 := by
    unfold ScatterDims.window
    rw [dif_neg (show (0 : Fin 3) ∉ (slabScatter N H C M wf).sKept from
      fun hm => (RowIdx.mem_kept _ _).mp hm (List.mem_singleton.mpr rfl))]
  have hw1 : (slabScatter N H C M wf).window (ix3 e h c) 1 = h.val := by
    unfold ScatterDims.window
    rw [dif_pos (show (1 : Fin 3) ∈ (slabScatter N H C M wf).sKept from
      (RowIdx.mem_kept _ _).mpr fun hm => one_ne_zero_fin3 (List.mem_singleton.mp hm))]
    rfl
  have hw2 : (slabScatter N H C M wf).window (ix3 e h c) 2 = c.val := by
    unfold ScatterDims.window
    rw [dif_pos (show (2 : Fin 3) ∈ (slabScatter N H C M wf).sKept from
      (RowIdx.mem_kept _ _).mpr fun hm => two_ne_zero_fin3 (List.mem_singleton.mp hm))]
    rfl
  unfold ScatterDims.resultIdx?
  by_cases hb : 0 ≤ (idx (ix2 e (0 : Fin 1))).toInt ∧ (idx (ix2 e (0 : Fin 1))).toInt < (N : Int)
  · have hall : ∀ a, 0 ≤ (slabScatter N H C M wf).start (ix3 e h c) idx a + (slabScatter N H C M wf).window (ix3 e h c) a ∧
        (slabScatter N H C M wf).start (ix3 e h c) idx a + (slabScatter N H C M wf).window (ix3 e h c) a
          < (⟨3, ![N, H, C]⟩ : Shape).size a := by
      intro a
      match a with
      | ⟨0, _⟩ =>
        show 0 ≤ (slabScatter N H C M wf).start (ix3 e h c) idx 0 + ((slabScatter N H C M wf).window (ix3 e h c) 0 : Int) ∧
          (slabScatter N H C M wf).start (ix3 e h c) idx 0 + ((slabScatter N H C M wf).window (ix3 e h c) 0 : Int) < (N : Int)
        rw [hs0, hw0]; omega
      | ⟨1, _⟩ =>
        show 0 ≤ (slabScatter N H C M wf).start (ix3 e h c) idx 1 + ((slabScatter N H C M wf).window (ix3 e h c) 1 : Int) ∧
          (slabScatter N H C M wf).start (ix3 e h c) idx 1 + ((slabScatter N H C M wf).window (ix3 e h c) 1 : Int) < (H : Int)
        rw [hs1, hw1]; have := h.isLt; omega
      | ⟨2, _⟩ =>
        show 0 ≤ (slabScatter N H C M wf).start (ix3 e h c) idx 2 + ((slabScatter N H C M wf).window (ix3 e h c) 2 : Int) ∧
          (slabScatter N H C M wf).start (ix3 e h c) idx 2 + ((slabScatter N H C M wf).window (ix3 e h c) 2 : Int) < (C : Int)
        rw [hs2, hw2]; have := c.isLt; omega
    rw [dif_pos hall, dif_pos hb]
    refine congrArg some (funext fun a => ?_)
    match a with
    | ⟨0, _⟩ =>
      refine Fin.ext ?_
      show ((slabScatter N H C M wf).start (ix3 e h c) idx 0 + ((slabScatter N H C M wf).window (ix3 e h c) 0 : Int)).toNat
        = (idx (ix2 e (0 : Fin 1))).toInt.toNat
      rw [hs0, hw0]; simp
    | ⟨1, _⟩ =>
      refine Fin.ext ?_
      show ((slabScatter N H C M wf).start (ix3 e h c) idx 1 + ((slabScatter N H C M wf).window (ix3 e h c) 1 : Int)).toNat = h.val
      rw [hs1, hw1]; simp
    | ⟨2, _⟩ =>
      refine Fin.ext ?_
      show ((slabScatter N H C M wf).start (ix3 e h c) idx 2 + ((slabScatter N H C M wf).window (ix3 e h c) 2 : Int)).toNat = c.val
      rw [hs2, hw2]; simp
  · rw [dif_neg hb, dif_neg]
    intro hall
    have h0 := hall 0
    have h0' : 0 ≤ (slabScatter N H C M wf).start (ix3 e h c) idx 0 + ((slabScatter N H C M wf).window (ix3 e h c) 0 : Int) ∧
        (slabScatter N H C M wf).start (ix3 e h c) idx 0 + ((slabScatter N H C M wf).window (ix3 e h c) 0 : Int) < (N : Int) := h0
    rw [hs0, hw0] at h0'
    exact hb ⟨by omega, by omega⟩

/-- Update `(e, h', c')` lands on `(n, h, c)` exactly when the index word of row `e` is the row `n` and the other two
    coordinates agree. -/
theorem slabScatter_resultIdx?_eq_some_iff {N H C M w : Nat} (wf) (idx : IVec ⟨2, ![M, 1]⟩ w) (e : Fin M)
    (h' : Fin H) (c' : Fin C) (n : Fin N) (h : Fin H) (c : Fin C) :
    (slabScatter N H C M wf).resultIdx? (ix3 e h' c') idx = some (ix3 n h c)
      ↔ lands N (idx (ix2 e (0 : Fin 1))) n ∧ h' = h ∧ c' = c := by
  rw [slabScatter_resultIdx?]
  unfold lands
  constructor
  · intro hh
    by_cases hb : 0 ≤ (idx (ix2 e (0 : Fin 1))).toInt ∧ (idx (ix2 e (0 : Fin 1))).toInt < (N : Int)
    · rw [dif_pos hb] at hh
      have hi := Option.some.inj hh
      have h0 := congrFun hi 0
      have h1 := congrFun hi 1
      have h2 := congrFun hi 2
      exact ⟨⟨hb.1, hb.2, congrArg Fin.val h0⟩, h1, h2⟩
    · rw [dif_neg hb] at hh
      exact absurd hh (by simp)
  · rintro ⟨⟨h0, h1, h2⟩, rfl, rfl⟩
    rw [dif_pos ⟨h0, h1⟩]
    exact congrArg (fun r => some (ix3 r h' c')) (Fin.ext h2)

/-- The accumulating slab scatter at `(n, h, c)`: the operand's entry plus the entries `(e, h, c)` of the update
    slabs `e` whose index word is the row `n`. -/
theorem slabScatterAdd_apply {N H C M w : Nat} (wf) (x : (⟨3, ![N, H, C]⟩ : Shape).Idx → EReal)
    (idx : IVec ⟨2, ![M, 1]⟩ w) (u : (⟨3, ![M, H, C]⟩ : Shape).Idx → EReal) (n : Fin N) (h : Fin H) (c : Fin C) :
    Ideal.hostScatterAdd (slabScatter N H C M wf) x idx u (ix3 n h c)
      = x (ix3 n h c) + ∑ e : Fin M, if lands N (idx (ix2 e (0 : Fin 1))) n then u (ix3 e h c) else 0 := by
  rw [ScatterAddLaws.hostScatterAdd_apply, Finset.sum_filter, sum_idx3]
  refine congrArg _ (Finset.sum_congr rfl fun e _ => ?_)
  rw [Finset.sum_eq_single h]
  · rw [Finset.sum_eq_single c]
    · by_cases hl : lands N (idx (ix2 e (0 : Fin 1))) n
      · rw [if_pos hl, if_pos ((slabScatter_resultIdx?_eq_some_iff wf idx e h c n h c).mpr ⟨hl, rfl, rfl⟩)]
      · rw [if_neg hl, if_neg fun hh => hl ((slabScatter_resultIdx?_eq_some_iff wf idx e h c n h c).mp hh).1]
    · intro c' _ hc
      rw [if_neg fun hh => hc ((slabScatter_resultIdx?_eq_some_iff wf idx e h c' n h c).mp hh).2.2]
    · intro hc
      exact absurd (Finset.mem_univ c) hc
  · intro h' _ hne
    refine Finset.sum_eq_zero fun c' _ => ?_
    rw [if_neg fun hh => hne ((slabScatter_resultIdx?_eq_some_iff wf idx e h' c' n h c).mp hh).2.1]
  · intro hne
    exact absurd (Finset.mem_univ h) hne

end Idealize.ShloMosaic.SlabIdx

end
-- ==== Proof.BridgeSegment.lean ====
/-
  The segment sums and the gather of the normaliser, the kernel program's against the reference's.

  The kernel program keeps a head's 100 columns side by side in rank-2 arrays (`[N, 2]` for the per-head weights,
  `[N, 200]` for the features); the reference keeps a head as an axis of its own (`[N, 2, 1]`, `[N, 2, 100]`).
  A segment sum read at an entry is the zero start plus the sum, over ALL edges `e`, of the update's entry when the
  index word of edge `e`, read signed, is the entry's row; both programs scatter through the same column of index
  words, so the two sums have the same terms as soon as the updates agree entry by entry. A gather reads the row its
  index word names, clamped into range; both programs gather through the same column of wrapped index words.
-/
import proofs.«172343_j88055419502884_1_alg».proof.Proof.KernelStages
import proofs.«172343_j88055419502884_1_alg».proof.Proof.Gen.ReferenceIdeal.Read
import proofs.«172343_j88055419502884_1_alg».proof.Proof.RefRead
import proofs.«172343_j88055419502884_1_alg».proof.Proof.LibRowIdx
import proofs.«172343_j88055419502884_1_alg».proof.Proof.LibSlabIdx
import proofs.«172343_j88055419502884_1_alg».proof.Proof.LibScatterAdd
import Idealize.ShloMosaic.Lib.ValueIdx

noncomputable section

open scoped BigOperators

namespace Cert.Bridge

open Cert.KernelIdeal.Fold Cert.KernelIdeal.Spec Cert.ReferenceIdeal.Read Cert.ReferenceIdeal.RefRead
open Idealize.ShloMosaic Idealize.ShloMosaic.ValueIdx

/-! ## The index columns and the zero starts are the same on both sides -/

/-- The column of source words a segment sum scatters through. -/
theorem srcCol_eq (x3 : IVec Cert.KernelIdeal.S2x800000 32) : colIdx (srcOf x3) = val_main_v48 (F := Ideal) x3 := rfl
/-- The column of destination words a segment sum scatters through. -/
theorem dstCol_eq (x3 : IVec Cert.KernelIdeal.S2x800000 32) : colIdx (dstOf x3) = val_main_v61 (F := Ideal) x3 := rfl
/-- The column of wrapped source words a gather reads through. -/
theorem srcWrap_eq (x3 : IVec Cert.KernelIdeal.S2x800000 32) : wrapIdx 50000#32 (srcOf x3) = val_main_v55 (F := Ideal) x3 := rfl

/-- The kernel program's `[N, 2]` start is zero everywhere. -/
theorem zeros2_apply (i : Cert.KernelIdeal.S50000x2.Idx) : zeros2 i = 0 := by
  unfold zeros2
  refine (broadcastInDim_apply _ _ _ i (fun a => a.elim0) (fun a => a.elim0)).trans ?_
  exact Ideal.ofBits_zero_f32
/-- The kernel program's `[N, 200]` start is zero everywhere. -/
theorem zeros200_apply (i : Cert.KernelIdeal.S50000x200.Idx) : zeros200 i = 0 := by
  unfold zeros200
  refine (broadcastInDim_apply _ _ _ i (fun a => a.elim0) (fun a => a.elim0)).trans ?_
  exact Ideal.ofBits_zero_f32
/-- The reference's `[N, 2, 1]` start is zero everywhere. -/
theorem ref_zeros2_apply (i : Cert.ReferenceIdeal.S50000x2x1.Idx) : val_main_v47 (F := Ideal) i = 0 := by
  rw [val_main_v47_apply, val_main_cst_7_apply, Ideal.ofBits_def, Ideal.ofBits_zero_f32]
/-- The reference's `[N, 2, 100]` start is zero everywhere. -/
theorem ref_zeros200_apply (i : Cert.ReferenceIdeal.S50000x2x100.Idx) : val_main_v60 (F := Ideal) i = 0 := by
  rw [val_main_v60_apply, val_main_cst_10_apply, Ideal.ofBits_def, Ideal.ofBits_zero_f32]

/-! ## The two programs' dimension records are the generic row and slab records at literal extents -/

/-- A segment sum over rank-2 arrays through a record that is the row scatter, read at an entry. -/
theorem rowScatterAdd_at {N C M w : Nat} (d : ScatterDims ⟨2, ![N, C]⟩ ⟨2, ![M, 1]⟩ ⟨2, ![M, C]⟩) (wf)
    (hd : d = RowIdx.rowScatter N C M wf) (x : FVec Ideal ⟨2, ![N, C]⟩ .f32) (idx : IVec ⟨2, ![M, 1]⟩ w)
    (u : FVec Ideal ⟨2, ![M, C]⟩ .f32) (n : Fin N) (c : Fin C) :
    Host.scatterAdd d x idx u (ix2 n c)
      = x (ix2 n c) + ∑ e : Fin M, if SlabIdx.lands N (idx (ix2 e (0 : Fin 1))) n then u (ix2 e c) else 0 := by
  subst hd
  exact SlabIdx.rowScatterAdd_apply wf x idx u n c

/-- A segment sum over rank-3 arrays through a record that is the slab scatter, read at an entry. -/
theorem slabScatterAdd_at {N H C M w : Nat} (d : ScatterDims ⟨3, ![N, H, C]⟩ ⟨2, ![M, 1]⟩ ⟨3, ![M, H, C]⟩) (wf)
    (hd : d = SlabIdx.slabScatter N H C M wf) (x : FVec Ideal ⟨3, ![N, H, C]⟩ .f32) (idx : IVec ⟨2, ![M, 1]⟩ w)
    (u : FVec Ideal ⟨3, ![M, H, C]⟩ .f32) (n : Fin N) (h : Fin H) (c : Fin C) :
    Host.scatterAdd d x idx u (ix3 n h c)
      = x (ix3 n h c) + ∑ e : Fin M, if SlabIdx.lands N (idx (ix2 e (0 : Fin 1))) n then u (ix3 e h c) else 0 := by
  subst hd
  exact SlabIdx.slabScatterAdd_apply wf x idx u n h c

/-- A gather of rows through a record that is the row gather, read at an entry. -/
theorem rowGather_at {N C M w : Nat} (hN : 0 < N) (d : GatherDims ⟨2, ![N, C]⟩ ⟨2, ![M, 1]⟩ ⟨2, ![M, C]⟩) (wf)
    (hd : d = RowIdx.rowGather N C M wf) (x : FVec Ideal ⟨2, ![N, C]⟩ .f32) (idx : IVec ⟨2, ![M, 1]⟩ w)
    (e : Fin M) (c : Fin C) :
    Host.gather d x idx (ix2 e c) = x (ix2 (RowIdx.clampRow N hN (idx (ix2 e (0 : Fin 1)))) c) := by
  subst hd
  exact RowIdx.rowGather_apply hN wf x idx e c

/-- A gather of slabs through a record that is the slab gather, read at an entry. -/
theorem slabGather_at {N H C M w : Nat} (hN : 0 < N) (d : GatherDims ⟨3, ![N, H, C]⟩ ⟨2, ![M, 1]⟩ ⟨3, ![M, H, C]⟩) (wf)
    (hd : d = SlabIdx.slabGather N H C M wf) (x : FVec Ideal ⟨3, ![N, H, C]⟩ .f32) (idx : IVec ⟨2, ![M, 1]⟩ w)
    (e : Fin M) (h : Fin H) (c : Fin C) :
    Host.gather d x idx (ix3 e h c) = x (ix3 (RowIdx.clampRow N hN (idx (ix2 e (0 : Fin 1)))) h c) := by
  subst hd
  exact SlabIdx.slabGather_apply hN wf x idx e h c

/-- The host's division read at an entry is the division of the entries. -/
theorem hostDivf_at {s : Shape} (a b : FVec Ideal s .f32) (i : s.Idx) : Host.divf a b i = Ideal.div (a i) (b i) := rfl

/-! ## The per-source sums of the edge weights -/

/-- THE NORMALISER: the sum over the edges with source `n` of the weight of head `h`, on both sides, when the
    weights agree edge by edge. -/
theorem rowsum_at (x1 : FVec Ideal Cert.KernelIdeal.S50000x200 .f32) (x2 : FVec Ideal Cert.KernelIdeal.S500x200 .f32)
    (x3 : IVec Cert.KernelIdeal.S2x800000 32) (x4 : IVec Cert.KernelIdeal.S800000 32)
    (x5 : FVec Ideal Cert.KernelIdeal.S600x200 .f32) (x6 : FVec Ideal Cert.KernelIdeal.S200 .f32)
    (x7 : FVec Ideal Cert.KernelIdeal.S1x2x100 .f32)
    (hw : ∀ (e : Fin 800000) (h : Fin 2), kEw x1 x2 x3 x4 x5 x6 x7 (ix2 e h)
      = val_main_v46 (F := Ideal) x1 x2 x3 x4 x5 x6 x7 (ix3 e h (0 : Fin 1)))
    (n : Fin 50000) (h : Fin 2) :
    kRowSum x1 x2 x3 x4 x5 x6 x7 (ix2 n h) = val_main_v49 (F := Ideal) x1 x2 x3 x4 x5 x6 x7 (ix3 n h (0 : Fin 1)) := by
  unfold kRowSum val_main_v49
  refine (rowScatterAdd_at (N := 50000) (C := 2) (M := 800000) Cert.KernelIdeal.scatter_S50000x2_S800000x1_S800000x2_1_0_0_1 _ rfl
    zeros2 (colIdx (srcOf x3)) (kEw x1 x2 x3 x4 x5 x6 x7) n h).trans ?_
  refine Eq.trans ?_ (slabScatterAdd_at (N := 50000) (H := 2) (C := 1) (M := 800000)
    Cert.ReferenceIdeal.scatter_S50000x2x1_S800000x1_S800000x2x1_12_0_0_1 _ rfl
    (val_main_v47 (F := Ideal)) (val_main_v48 (F := Ideal) x3) (val_main_v46 (F := Ideal) x1 x2 x3 x4 x5 x6 x7) n h (0 : Fin 1)).symm
  rw [zeros2_apply, ref_zeros2_apply, zero_add, zero_add, srcCol_eq]
  refine Finset.sum_congr rfl fun e _ => ?_
  rw [hw e h]

/-! ## The normalised weights -/

/-- THE NORMALISED WEIGHT of edge `e`, head `h`: the weight over the normaliser gathered at the edge's source, on both
    sides, when the weights agree edge by edge. -/
theorem alpha_at (x1 : FVec Ideal Cert.KernelIdeal.S50000x200 .f32) (x2 : FVec Ideal Cert.KernelIdeal.S500x200 .f32)
    (x3 : IVec Cert.KernelIdeal.S2x800000 32) (x4 : IVec Cert.KernelIdeal.S800000 32)
    (x5 : FVec Ideal Cert.KernelIdeal.S600x200 .f32) (x6 : FVec Ideal Cert.KernelIdeal.S200 .f32)
    (x7 : FVec Ideal Cert.KernelIdeal.S1x2x100 .f32)
    (hw : ∀ (e : Fin 800000) (h : Fin 2), kEw x1 x2 x3 x4 x5 x6 x7 (ix2 e h)
      = val_main_v46 (F := Ideal) x1 x2 x3 x4 x5 x6 x7 (ix3 e h (0 : Fin 1)))
    (e : Fin 800000) (h : Fin 2) :
    kAlpha x1 x2 x3 x4 x5 x6 x7 (ix2 e h) = val_main_v57 (F := Ideal) x1 x2 x3 x4 x5 x6 x7 (ix3 e h (0 : Fin 1)) := by
  rw [ref_alpha]
  unfold kAlpha
  refine (hostDivf_at _ _ (ix2 e h)).trans ?_
  rw [hw e h]
  refine congrArg (Ideal.div _) ?_
  unfold val_main_v56
  refine (rowGather_at (N := 50000) (C := 2) (M := 800000) (by decide)
    Cert.KernelIdeal.gather_S50000x2_S800000x1_S800000x2_1_0_n_n_0_1_12 _ rfl
    (kRowSum x1 x2 x3 x4 x5 x6 x7) (wrapIdx 50000#32 (srcOf x3)) e h).trans ?_
  refine Eq.trans ?_ (slabGather_at (N := 50000) (H := 2) (C := 1) (M := 800000) (by decide)
    Cert.ReferenceIdeal.gather_S50000x2x1_S800000x1_S800000x2x1_12_0_n_n_0_1_121 _ rfl
    (val_main_v49 (F := Ideal) x1 x2 x3 x4 x5 x6 x7) (val_main_v55 (F := Ideal) x3) e h (0 : Fin 1)).symm
  rw [srcWrap_eq]
  exact rowsum_at x1 x2 x3 x4 x5 x6 x7 hw _ h

/-! ## The per-destination sums of the weighted messages -/

/-- THE AGGREGATE: the sum over the edges with destination `n` of the weighted message's entry in head `h`, offset
    `o`, on both sides, when the weighted messages agree entry by entry. -/
theorem agg_at (x1 : FVec Ideal Cert.KernelIdeal.S50000x200 .f32) (x2 : FVec Ideal Cert.KernelIdeal.S500x200 .f32)
    (x3 : IVec Cert.KernelIdeal.S2x800000 32) (x4 : IVec Cert.KernelIdeal.S800000 32)
    (x5 : FVec Ideal Cert.KernelIdeal.S600x200 .f32) (x6 : FVec Ideal Cert.KernelIdeal.S200 .f32)
    (x7 : FVec Ideal Cert.KernelIdeal.S1x2x100 .f32)
    (hwt : ∀ (e : Fin 800000) (h : Fin 2) (o : Fin 100), kWeighted x1 x2 x3 x4 x5 x6 x7 (ix2 e (headCol h o))
      = val_main_v59 (F := Ideal) x1 x2 x3 x4 x5 x6 x7 (ix3 e h o))
    (n : Fin 50000) (h : Fin 2) (o : Fin 100) :
    kAgg x1 x2 x3 x4 x5 x6 x7 (ix2 n (headCol h o)) = val_main_v62 (F := Ideal) x1 x2 x3 x4 x5 x6 x7 (ix3 n h o) := by
  unfold kAgg val_main_v62
  refine (rowScatterAdd_at (N := 50000) (C := 200) (M := 800000) Cert.KernelIdeal.scatter_S50000x200_S800000x1_S800000x200_1_0_0_1 _ rfl
    zeros200 (colIdx (dstOf x3)) (kWeighted x1 x2 x3 x4 x5 x6 x7) n (headCol h o)).trans ?_
  refine Eq.trans ?_ (slabScatterAdd_at (N := 50000) (H := 2) (C := 100) (M := 800000)
    Cert.ReferenceIdeal.scatter_S50000x2x100_S800000x1_S800000x2x100_12_0_0_1 _ rfl
    (val_main_v60 (F := Ideal)) (val_main_v61 (F := Ideal) x3) (val_main_v59 (F := Ideal) x1 x2 x3 x4 x5 x6 x7) n h o).symm
  rw [zeros200_apply, ref_zeros200_apply, zero_add, zero_add, dstCol_eq]
  refine Finset.sum_congr rfl fun e _ => ?_
  rw [hwt e h o]

end Cert.Bridge

end
-- ==== Proof.BridgeAttn.lean ====
/-
  The attention weights and the weighted messages of the two programs, entry by entry.

  For edge `e` and head `k` both programs form the logit `Σ_o c e (100 k + o) · att k o` over the head's 100
  columns, where `c e` is the edge's summed feature row and `att` the attention vector, pass it through the leaky
  rectifier and the exponential, and later scale column `100 k + o` of `c e` by the normalised weight of head `k`.
  One program keeps the attention vector as a row of 200 entries and multiplies feature by attention entry, the other
  keeps it as 2 × 100 and multiplies attention entry by feature: entry `100 k + o` of the row is entry `(k, o)` of the
  2 × 100 array (same place in row-major order), and the products agree because multiplication of extended reals is
  commutative. So once the summed feature rows agree, the weights agree; and once the normalised weights agree as
  well, so do the weighted messages.
-/
import proofs.«172343_j88055419502884_1_alg».proof.Proof.KernelStages
import proofs.«172343_j88055419502884_1_alg».proof.Proof.Gen.ReferenceIdeal.Read
import proofs.«172343_j88055419502884_1_alg».proof.Proof.RefRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.Bridge

open Cert.KernelIdeal.Fold Cert.KernelIdeal.Spec Cert.ReferenceIdeal.Read Cert.ReferenceIdeal.RefRead
open Idealize.ShloMosaic Idealize.ShloMosaic.ValueIdx

/-- Entry `100 k + o` of the attention vector laid out as one row of 200 is entry `(k, o)` of the 2 × 100 array: the
    two places have the same position in row-major order. -/
theorem attRow_apply (x7 : FVec Ideal Cert.KernelIdeal.S1x2x100 .f32) (h : Fin 2) (o : Fin 100) :
    attRow x7 (ix2 (0 : Fin 1) (headCol h o)) = x7 (ix3 (0 : Fin 1) h o) := by
  unfold attRow
  refine shapeCast_apply x7 _ _ (ix3 (0 : Fin 1) h o) ?_
  rw [Shape.rowMajor_val_three, Shape.rowMajor_val_two]
  show (0 * 2 + h.val) * 100 + o.val = 0 * 200 + (100 * h.val + o.val)
  omega

/-- The head of column `100 k + o` is `k`. -/
theorem headOf_headCol (h : Fin 2) (o : Fin 100) : headOf (headCol h o) = h :=
  Fin.ext (by show (100 * h.val + o.val) / 100 = h.val; have := o.isLt; omega)

/-- The unnormalised attention weight of edge `e`, head `k` is the same in both programs once the edges' summed
    feature rows are: the logits are sums of the same products with the factors in the other order. -/
theorem weight_at (x1 : FVec Ideal Cert.KernelIdeal.S50000x200 .f32) (x2 : FVec Ideal Cert.KernelIdeal.S500x200 .f32)
    (x3 : IVec Cert.KernelIdeal.S2x800000 32) (x4 : IVec Cert.KernelIdeal.S800000 32)
    (x5 : FVec Ideal Cert.KernelIdeal.S600x200 .f32) (x6 : FVec Ideal Cert.KernelIdeal.S200 .f32)
    (x7 : FVec Ideal Cert.KernelIdeal.S1x2x100 .f32)
    (hc : kC x1 x2 x3 x4 x5 x6 = val_main_v35 (F := Ideal) x1 x2 x3 x4 x5 x6) (e : Fin 800000) (h : Fin 2) :
    kEw x1 x2 x3 x4 x5 x6 x7 (ix2 e h) = val_main_v46 (F := Ideal) x1 x2 x3 x4 x5 x6 x7 (ix3 e h (0 : Fin 1)) := by
  rw [ref_weight]
  show Ideal.exp (leaky (∑ o : Fin 100, kC x1 x2 x3 x4 x5 x6 (ix2 e (headCol h o)) * attRow x7 (ix2 (0 : Fin 1) (headCol h o)))) = _
  refine congrArg (fun s => Ideal.exp (leaky s)) (Finset.sum_congr rfl fun o _ => ?_)
  rw [attRow_apply, hc]
  exact mul_comm _ _

/-- The weighted message of edge `e` at column `100 k + o` is the same in both programs once the summed feature rows
    and the normalised weights are: the feature times the head's weight, with the factors in the other order. -/
theorem weighted_at (x1 : FVec Ideal Cert.KernelIdeal.S50000x200 .f32) (x2 : FVec Ideal Cert.KernelIdeal.S500x200 .f32)
    (x3 : IVec Cert.KernelIdeal.S2x800000 32) (x4 : IVec Cert.KernelIdeal.S800000 32)
    (x5 : FVec Ideal Cert.KernelIdeal.S600x200 .f32) (x6 : FVec Ideal Cert.KernelIdeal.S200 .f32)
    (x7 : FVec Ideal Cert.KernelIdeal.S1x2x100 .f32)
    (hc : kC x1 x2 x3 x4 x5 x6 = val_main_v35 (F := Ideal) x1 x2 x3 x4 x5 x6)
    (hal : ∀ (e : Fin 800000) (h : Fin 2), kAlpha x1 x2 x3 x4 x5 x6 x7 (ix2 e h)
      = val_main_v57 (F := Ideal) x1 x2 x3 x4 x5 x6 x7 (ix3 e h (0 : Fin 1)))
    (e : Fin 800000) (h : Fin 2) (o : Fin 100) :
    kWeighted x1 x2 x3 x4 x5 x6 x7 (ix2 e (headCol h o))
      = val_main_v59 (F := Ideal) x1 x2 x3 x4 x5 x6 x7 (ix3 e h o) := by
  rw [ref_weighted]
  show kC x1 x2 x3 x4 x5 x6 (ix2 e (headCol h o)) * kAlpha x1 x2 x3 x4 x5 x6 x7 (ix2 e (headOf (headCol h o))) = _
  rw [headOf_headCol, hal, hc]
  exact mul_comm _ _

end Cert.Bridge

end
-- ==== Proof.BridgeOut.lean ====
/-
  The first results of the two programs agree, entry by entry, once the entity projections agree and the
  per-destination sums agree.

  The kernel program's first result at `(n, q)` is the hyperbolic tangent of the entity projection, laid twice side
  by side, at `(n, q)` plus the per-destination sum at `(n, q)`. Two copies of a 100-column array side by side, read
  at column `q`, give the array at column `q mod 100`: the first copy for `q < 100`, the second at `q - 100`
  otherwise. The reference's first result at `(n, q)` is the hyperbolic tangent of its entity term at
  `(n, q mod 100)` plus its per-destination sum at `(n, q / 100, q mod 100)`. Since `q = 100 (q / 100) + q mod 100`,
  the two hypotheses identify the summands.
-/
import proofs.«172343_j88055419502884_1_alg».proof.Proof.KernelStages
import proofs.«172343_j88055419502884_1_alg».proof.Proof.Gen.ReferenceIdeal.Read
import proofs.«172343_j88055419502884_1_alg».proof.Proof.RefRead
import Idealize.ShloMosaic.Lib.ValueIdx
import Idealize.ShloMosaic.Lib.Pipeline.Value
import Idealize.ShloMosaic.Lib.ValueLayout
import Idealize.ShloMosaic.PureOps.Ideal.Laws

noncomputable section

namespace Cert.Bridge

open Cert.KernelIdeal.Fold Cert.KernelIdeal.Spec Cert.ReferenceIdeal.Read Cert.ReferenceIdeal.RefRead
open Idealize.ShloMosaic Idealize.ShloMosaic.ValueIdx

/-- Two copies of a 100-column array side by side, read at column `q`, give the array at column `q mod 100`. -/
theorem twice_apply (E : FVec Ideal Cert.KernelIdeal.S50000x100 .f32)
    (hc : Shape.Concatenates [Cert.KernelIdeal.S50000x100, Cert.KernelIdeal.S50000x100] Cert.KernelIdeal.S50000x200 1)
    (n : Fin 50000) (q : Fin 200) :
    concatenate Cert.KernelIdeal.S50000x200 1
        [⟨Cert.KernelIdeal.S50000x100, E⟩, ⟨Cert.KernelIdeal.S50000x100, E⟩] hc (ix2 n q)
      = E (ix2 n (⟨q.val % 100, Nat.mod_lt _ (by decide)⟩ : Fin 100)) := by
  have hq200 : q.val < 200 := q.isLt
  by_cases hq : q.val < 100
  · exact concatenate_pair_apply_left (t := Cert.KernelIdeal.S50000x200) (s₁ := Cert.KernelIdeal.S50000x100)
      (s₂ := Cert.KernelIdeal.S50000x100) (1 : Fin 2) E E hc (ix2 n q) rfl
      (ix2 n (⟨q.val % 100, Nat.mod_lt _ (by decide)⟩ : Fin 100) : Cert.KernelIdeal.S50000x100.Idx)
      (fun b => match b with
        | ⟨0, _⟩ => rfl
        | ⟨1, _⟩ => by show q.val % 100 = q.val; exact Nat.mod_eq_of_lt hq)
  · exact concatenate_pair_apply_right (t := Cert.KernelIdeal.S50000x200) (s₁ := Cert.KernelIdeal.S50000x100)
      (s₂ := Cert.KernelIdeal.S50000x100) (1 : Fin 2) E E hc (ix2 n q) rfl rfl
      (ix2 n (⟨q.val % 100, Nat.mod_lt _ (by decide)⟩ : Fin 100) : Cert.KernelIdeal.S50000x100.Idx)
      (fun b => match b with
        | ⟨0, _⟩ => fun _ => rfl
        | ⟨1, _⟩ => fun hb => absurd rfl hb)
      (by show q.val % 100 + 100 = q.val; omega)

/-- A column is its head's column at its offset: `q = 100 (q / 100) + q mod 100`. -/
theorem col_eq_headCol (q : Fin 200) :
    q = headCol (headOf q) (⟨q.val % 100, Nat.mod_lt _ (by decide)⟩ : Fin 100) :=
  Fin.ext (by show q.val = 100 * (q.val / 100) + q.val % 100; omega)

/-- THE FIRST RESULTS AGREE, given the entity projections and the per-destination sums agree entry by entry. -/
theorem out_eq (x0 : FVec Ideal Cert.KernelIdeal.S50000x100 .f32) (x1 : FVec Ideal Cert.KernelIdeal.S50000x200 .f32)
    (x2 : FVec Ideal Cert.KernelIdeal.S500x200 .f32) (x3 : IVec Cert.KernelIdeal.S2x800000 32)
    (x4 : IVec Cert.KernelIdeal.S800000 32) (x5 : FVec Ideal Cert.KernelIdeal.S600x200 .f32)
    (x6 : FVec Ideal Cert.KernelIdeal.S200 .f32) (x7 : FVec Ideal Cert.KernelIdeal.S1x2x100 .f32)
    (x10 : FVec Ideal Cert.KernelIdeal.S100x100 .f32) (x11 : FVec Ideal Cert.KernelIdeal.S100 .f32)
    (hent : ∀ (n : Fin 50000) (o : Fin 100),
      kEnt x0 x10 x11 (ix2 n o) = val_main_v66 (F := Ideal) x0 x10 x11 (ix2 n o))
    (hagg : ∀ (n : Fin 50000) (h : Fin 2) (o : Fin 100),
      kAgg x1 x2 x3 x4 x5 x6 x7 (ix2 n (headCol h o)) = val_main_v62 (F := Ideal) x1 x2 x3 x4 x5 x6 x7 (ix3 n h o)) :
    kOut x0 x1 x2 x3 x4 x5 x6 x7 x10 x11 = val_main_v71 (F := Ideal) x0 x1 x2 x3 x4 x5 x6 x7 x10 x11 := by
  funext i
  obtain ⟨n, q, rfl⟩ : ∃ (n : Fin 50000) (q : Fin 200), i = ix2 n q := ⟨i 0, i 1, eq_ix2 i⟩
  refine Eq.trans ?_ (ref_out x0 x1 x2 x3 x4 x5 x6 x7 x10 x11 n q).symm
  rw [← hent, ← hagg, ← col_eq_headCol]
  unfold kOut
  exact congrArg (fun a => Ideal.tanh (a + kAgg x1 x2 x3 x4 x5 x6 x7 (ix2 n q)))
    (twice_apply (kEnt x0 x10 x11) _ n q)

end Cert.Bridge

end
-- ==== Proof.Bridge.lean ====
/-
  The idealized kernel program and the idealized reference compute the same two arrays.

  Both programs are the same graph attention layer. They differ in how the work is laid out: the kernel multiplies the
  node features by two weight blocks at once and cuts the result in two, keeps the two attention heads as 200 columns
  of one row where the reference keeps a 2 × 100 table, and runs its segment sums over [N, 2] and [N, 200] arrays where
  the reference's are [N, 2, 1] and [N, 2, 100]. Stage by stage the arrays agree entry by entry: the projections as
  sums of products, the per-edge gathers because both read the same rows through the same index columns, the attention
  logits up to the order of the two factors of each product, the segment sums term by term over the edges, and the final
  hyperbolic tangent. The only laws used are the commutativity of multiplication and the neutrality of zero, which
  hold for all extended reals, so no finiteness of the inputs is needed.
-/
import proofs.«172343_j88055419502884_1_alg».proof.Proof.KernelStages
import proofs.«172343_j88055419502884_1_alg».proof.Proof.Gen.ReferenceIdeal.Read
import proofs.«172343_j88055419502884_1_alg».proof.Proof.RefRead
import proofs.«172343_j88055419502884_1_alg».proof.Proof.BridgeLinear
import proofs.«172343_j88055419502884_1_alg».proof.Proof.BridgeSegment
import proofs.«172343_j88055419502884_1_alg».proof.Proof.BridgeAttn
import proofs.«172343_j88055419502884_1_alg».proof.Proof.BridgeOut

noncomputable section

namespace Cert.Bridge

open Cert.KernelIdeal.Fold Cert.KernelIdeal.Spec Cert.ReferenceIdeal.Read
open Idealize.ShloMosaic Idealize.ShloMosaic.ValueIdx

variable (x0 : FVec Ideal Cert.KernelIdeal.S50000x100 .f32) (x1 : FVec Ideal Cert.KernelIdeal.S50000x200 .f32)
  (x2 : FVec Ideal Cert.KernelIdeal.S500x200 .f32) (x3 : IVec Cert.KernelIdeal.S2x800000 32) (x4 : IVec Cert.KernelIdeal.S800000 32)
  (x5 : FVec Ideal Cert.KernelIdeal.S600x200 .f32) (x6 : FVec Ideal Cert.KernelIdeal.S200 .f32)
  (x7 : FVec Ideal Cert.KernelIdeal.S1x2x100 .f32) (x8 : FVec Ideal Cert.KernelIdeal.S200x100 .f32)
  (x9 : FVec Ideal Cert.KernelIdeal.S100 .f32) (x10 : FVec Ideal Cert.KernelIdeal.S100x100 .f32)
  (x11 : FVec Ideal Cert.KernelIdeal.S100 .f32)

/-- The source projection gathered along the edges: the same rows of the same array through the same index column. -/
theorem g1_eq : kG1 x1 x3 x5 = val_main_v19 (F := Ideal) x1 x3 x5 := by
  unfold kG1 val_main_v19; rw [hs_eq]; rfl
/-- The destination projection gathered along the edges. -/
theorem g2_eq : kG2 x1 x3 x5 = val_main_v26 (F := Ideal) x1 x3 x5 := by
  unfold kG2 val_main_v26; rw [hd_eq]; rfl
/-- The relation projection gathered along the edges: the two programs run the same operations here. -/
theorem g3_eq : kG3 x2 x4 x5 x6 = val_main_v34 (F := Ideal) x2 x4 x5 x6 := rfl
/-- The per-edge sum of the three gathered projections. -/
theorem c_eq : kC x1 x2 x3 x4 x5 x6 = val_main_v35 (F := Ideal) x1 x2 x3 x4 x5 x6 := by
  unfold kC val_main_v35 val_main_v27; rw [g1_eq, g2_eq, g3_eq]; rfl

/-- The first result: the kernel program's array is the reference's last stage. -/
theorem out_bridge : kOut x0 x1 x2 x3 x4 x5 x6 x7 x10 x11 = val_main_v71 (F := Ideal) x0 x1 x2 x3 x4 x5 x6 x7 x10 x11 :=
  out_eq x0 x1 x2 x3 x4 x5 x6 x7 x10 x11 (ent_at x0 x10 x11)
    (agg_at x1 x2 x3 x4 x5 x6 x7
      (weighted_at x1 x2 x3 x4 x5 x6 x7 (c_eq x1 x2 x3 x4 x5 x6)
        (alpha_at x1 x2 x3 x4 x5 x6 x7 (weight_at x1 x2 x3 x4 x5 x6 x7 (c_eq x1 x2 x3 x4 x5 x6)))))

/-- The second result: the two programs run the same operations. -/
theorem rel_bridge : relOut x2 x8 x9 = val_main_v75 (F := Ideal) x2 x8 x9 := rfl

end Cert.Bridge

end
-- ==== Proof.lean ====
/-
  A graph attention layer as five tiled kernels among host operations, against its plain array-language reference.

  For node features `h`, entity features `x`, relation embeddings `g`, an edge list with source `s e`, destination
  `d e` and relation `r e` per edge, and weights `W₁ W₂ W₃` (the three 200-row blocks of one matrix), both programs compute

      c e    = (h W₁)[s e] + (h W₂)[d e] + (g W₃ + b)[r e]                      per edge, 200 columns = 2 heads of 100,
      w e k  = exp (leaky (Σ_o c e (100 k + o) · att k o))                       per edge and head,
      α e k  = w e k / Σ_{e' : s e' = s e} w e' k                                the weights normalised per source node,
      out n  = tanh ((x E + b') n ‖ (x E + b') n + Σ_{e : d e = n} α e · c e)    per node,

  and `g R + b''` as a second result. The kernel program does the two node projections as one tiled product with the
  two weight blocks side by side, the per-edge sum, logits, rectifier and exponential in a second tiled kernel, the
  scaling by `α` in a third and the final sum and hyperbolic tangent in a fourth; gathers, segment sums and the division
  stay on the host in both programs. Over the extended reals the two agree entry by entry. The tiling disappears once
  each kernel's row blocks are laid side by side; a product into a zero accumulator is the plain sum of products; the
  two-heads-in-200-columns layout and the reference's 2 × 100 layout index the same entries; and the remaining
  differences are the order of the two factors of a product and an added zero. None of this needs the inputs to be
  finite, so the precondition is not used.

  The frames of the two kernel programs are the generated ones; the reference's is its generated run with the results
  dropped. The kernel program is idealized by reading its own text over the extended reals, so there is nothing to
  preserve. For the value claim the kernel program's run is taken with every buffer's final contents named, the fold
  of those contents through the ten segments is read back to the arguments, and the result is matched to the
  reference's last stage.
-/
import proofs.«172343_j88055419502884_1_alg».proof.Defs
import proofs.«172343_j88055419502884_1_alg».proof.Proof.Gen.Kernel
import proofs.«172343_j88055419502884_1_alg».proof.Proof.Gen.Kernel.Skeleton
import proofs.«172343_j88055419502884_1_alg».proof.Proof.Gen.Kernel.Launch
import proofs.«172343_j88055419502884_1_alg».proof.Proof.Gen.Kernel.Points
import proofs.«172343_j88055419502884_1_alg».proof.Proof.Gen.Kernel.Frame
import proofs.«172343_j88055419502884_1_alg».proof.Proof.Gen.KernelIdeal
import proofs.«172343_j88055419502884_1_alg».proof.Proof.Gen.KernelIdeal.Skeleton
import proofs.«172343_j88055419502884_1_alg».proof.Proof.Gen.KernelIdeal.Launch
import proofs.«172343_j88055419502884_1_alg».proof.Proof.Gen.KernelIdeal.Points
import proofs.«172343_j88055419502884_1_alg».proof.Proof.Gen.KernelIdeal.Frame
import proofs.«172343_j88055419502884_1_alg».proof.Proof.Gen.ReferenceIdeal
import proofs.«172343_j88055419502884_1_alg».proof.Proof.Gen.ReferenceIdeal.Run
import proofs.«172343_j88055419502884_1_alg».proof.Proof.Gen.ReferenceIdeal.Read
import proofs.«172343_j88055419502884_1_alg».proof.Proof.Gen.Pre_finite_inputs
import proofs.«172343_j88055419502884_1_alg».proof.Proof.KernelRun
import proofs.«172343_j88055419502884_1_alg».proof.Proof.KernelFold
import proofs.«172343_j88055419502884_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments alone: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the same two arrays: the kernel program's final
    contents read back to the arguments, the reference's last stages, and the bridge between them. -/
theorem algebraic : Cert.algebraic_KernelIdeal_ReferenceIdeal := by
  intro m ρ m' ρ' _ hagree
  refine ⟨fun c => Cert.KernelIdeal.Fold.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Fold.relOut (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run (Cert.KernelIdeal.defs (F := Ideal)) _ _).mono (fun r h c => ?_)
      (Cert.KernelIdeal.FinalRun.run_final (F := Ideal) m ρ)
    exact ⟨(h c Cert.KernelIdeal.main_v62 (by decide)).trans (Cert.KernelIdeal.Fold.out_final m ρ c),
      (h c Cert.KernelIdeal.main_v22 (by decide)).trans (Cert.KernelIdeal.Fold.rel_final m ρ c),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c),
      (h c Cert.KernelIdeal.main_arg8 (by decide)).trans (Cert.KernelIdeal.Gen.W10_main_arg8 m ρ c),
      (h c Cert.KernelIdeal.main_arg9 (by decide)).trans (Cert.KernelIdeal.Gen.W10_main_arg9 m ρ c),
      (h c Cert.KernelIdeal.main_arg10 (by decide)).trans (Cert.KernelIdeal.Gen.W10_main_arg10 m ρ c),
      (h c Cert.KernelIdeal.main_arg11 (by decide)).trans (Cert.KernelIdeal.Gen.W10_main_arg11 m ρ c)⟩
  · refine (θ_run (Cert.ReferenceIdeal.defs (F := Ideal)) _ _).mono (fun r h c => ?_)
      (Cert.ReferenceIdeal.Value.run (F := Ideal) m' ρ')
    obtain ⟨e0, e1, e2, e3, e4, e5, e6, e7, e8, e9, e10, e11⟩ := hagree c
    refine ⟨?_, ?_, (h c).2.2⟩
    · rw [(h c).1, Cert.ReferenceIdeal.Read.val_main_v71_eq, e0, e1, e2, e3, e4, e5, e6, e7, e10, e11]
      exact (Cert.Bridge.out_bridge _ _ _ _ _ _ _ _ _ _).symm
    · rw [(h c).2.1, e2, e8, e9]
      exact (Cert.Bridge.rel_bridge _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
